-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S4096x1024 : Shape := ⟨2, ![4096, 1024]⟩
abbrev S512x1024 : Shape := ⟨2, ![512, 1024]⟩
abbrev S512x3072 : Shape := ⟨2, ![512, 3072]⟩
abbrev S2x2048x16x64 : Shape := ⟨4, ![2, 2048, 16, 64]⟩
abbrev S1x256x16x64 : Shape := ⟨4, ![1, 256, 16, 64]⟩
abbrev S1x2048x16x64 : Shape := ⟨4, ![1, 2048, 16, 64]⟩
abbrev S256x16x64 : Shape := ⟨3, ![256, 16, 64]⟩
abbrev S2048x16x64 : Shape := ⟨3, ![2048, 16, 64]⟩
abbrev S256x1x64 : Shape := ⟨3, ![256, 1, 64]⟩
abbrev S256x64 : Shape := ⟨2, ![256, 64]⟩
abbrev S2048x1x64 : Shape := ⟨3, ![2048, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 28
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S1024x3072, .f32⟩
  | .hbm, ⟨11, _⟩ => ⟨S1024x3072, .bf16⟩
  | .hbm, ⟨12, _⟩ => ⟨S3072, .f32⟩
  | .hbm, ⟨13, _⟩ => ⟨S1x3072, .f32⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S2x2048x16x64, .bf16⟩
  | .hbm, ⟨19, _⟩ => ⟨S2x2048x16x64, .bf16⟩
  | .hbm, ⟨20, _⟩ => ⟨S2x2048x16x64, .bf16⟩
  | .hbm, ⟨21, _⟩ => ⟨S2x2048x16x64, .bf16⟩
  | .hbm, ⟨22, _⟩ => ⟨S4096x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S4096x1024, .f32⟩
  | .hbm, ⟨27, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x16x64, .bf16⟩
  | .local _ .vmem, ⟨11, _⟩ => ⟨S1x256x16x64, .bf16⟩
  | .local _ .vmem, ⟨12, _⟩ => ⟨S1x2048x16x64, .bf16⟩
  | .local _ .vmem, ⟨13, _⟩ => ⟨S1x2048x16x64, .bf16⟩
  | .local _ .vmem, ⟨14, _⟩ => ⟨S1x2048x16x64, .bf16⟩
  | .local _ .vmem, ⟨15, _⟩ => ⟨S1x2048x16x64, .bf16⟩
  | .local _ .vmem, ⟨16, _⟩ => ⟨S1x256x16x64, .bf16⟩
  | .local _ .vmem, ⟨17, _⟩ => ⟨S1x256x16x64, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x16x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x16x64 : S4096x1024.ShapeCasts S2x2048x16x64
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  inb_S1x2048x16x64_S1x2048x16x64_0_0_0_0 : ∀ a, (![0, 0, 0, 0] : Fin 4 → Nat) a + S1x2048x16x64.size a ≤ S1x2048x16x64.size a
  h_S1x2048x16x64 : 0 < S1x2048x16x64.numel
  shapeCasts_S1x2048x16x64_S2048x16x64 : S1x2048x16x64.ShapeCasts S2048x16x64
  slices_S256x16x64_o0_0_0_S256x1x64 : S256x16x64.Slices ![0, 0, 0] S256x1x64
  shapeCasts_S256x1x64_S256x64 : S256x1x64.ShapeCasts S256x64
  slices_S2048x16x64_o0_0_0_S2048x1x64 : S2048x16x64.Slices ![0, 0, 0] S2048x1x64
  shapeCasts_S2048x1x64_S2048x64 : S2048x1x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x16x64_o0_1_0_S256x1x64 : S256x16x64.Slices ![0, 1, 0] S256x1x64
  slices_S2048x16x64_o0_1_0_S2048x1x64 : S2048x16x64.Slices ![0, 1, 0] S2048x1x64
  slices_S256x16x64_o0_2_0_S256x1x64 : S256x16x64.Slices ![0, 2, 0] S256x1x64
  slices_S2048x16x64_o0_2_0_S2048x1x64 : S2048x16x64.Slices ![0, 2, 0] S2048x1x64
  slices_S256x16x64_o0_3_0_S256x1x64 : S256x16x64.Slices ![0, 3, 0] S256x1x64
  slices_S2048x16x64_o0_3_0_S2048x1x64 : S2048x16x64.Slices ![0, 3, 0] S2048x1x64
  slices_S256x16x64_o0_4_0_S256x1x64 : S256x16x64.Slices ![0, 4, 0] S256x1x64
  slices_S2048x16x64_o0_4_0_S2048x1x64 : S2048x16x64.Slices ![0, 4, 0] S2048x1x64
  slices_S256x16x64_o0_5_0_S256x1x64 : S256x16x64.Slices ![0, 5, 0] S256x1x64
  slices_S2048x16x64_o0_5_0_S2048x1x64 : S2048x16x64.Slices ![0, 5, 0] S2048x1x64
  slices_S256x16x64_o0_6_0_S256x1x64 : S256x16x64.Slices ![0, 6, 0] S256x1x64
  slices_S2048x16x64_o0_6_0_S2048x1x64 : S2048x16x64.Slices ![0, 6, 0] S2048x1x64
  slices_S256x16x64_o0_7_0_S256x1x64 : S256x16x64.Slices ![0, 7, 0] S256x1x64
  slices_S2048x16x64_o0_7_0_S2048x1x64 : S2048x16x64.Slices ![0, 7, 0] S2048x1x64
  slices_S256x16x64_o0_8_0_S256x1x64 : S256x16x64.Slices ![0, 8, 0] S256x1x64
  slices_S2048x16x64_o0_8_0_S2048x1x64 : S2048x16x64.Slices ![0, 8, 0] S2048x1x64
  slices_S256x16x64_o0_9_0_S256x1x64 : S256x16x64.Slices ![0, 9, 0] S256x1x64
  slices_S2048x16x64_o0_9_0_S2048x1x64 : S2048x16x64.Slices ![0, 9, 0] S2048x1x64
  slices_S256x16x64_o0_10_0_S256x1x64 : S256x16x64.Slices ![0, 10, 0] S256x1x64
  slices_S2048x16x64_o0_10_0_S2048x1x64 : S2048x16x64.Slices ![0, 10, 0] S2048x1x64
  slices_S256x16x64_o0_11_0_S256x1x64 : S256x16x64.Slices ![0, 11, 0] S256x1x64
  slices_S2048x16x64_o0_11_0_S2048x1x64 : S2048x16x64.Slices ![0, 11, 0] S2048x1x64
  slices_S256x16x64_o0_12_0_S256x1x64 : S256x16x64.Slices ![0, 12, 0] S256x1x64
  slices_S2048x16x64_o0_12_0_S2048x1x64 : S2048x16x64.Slices ![0, 12, 0] S2048x1x64
  slices_S256x16x64_o0_13_0_S256x1x64 : S256x16x64.Slices ![0, 13, 0] S256x1x64
  slices_S2048x16x64_o0_13_0_S2048x1x64 : S2048x16x64.Slices ![0, 13, 0] S2048x1x64
  slices_S256x16x64_o0_14_0_S256x1x64 : S256x16x64.Slices ![0, 14, 0] S256x1x64
  slices_S2048x16x64_o0_14_0_S2048x1x64 : S2048x16x64.Slices ![0, 14, 0] S2048x1x64
  slices_S256x16x64_o0_15_0_S256x1x64 : S256x16x64.Slices ![0, 15, 0] S256x1x64
  slices_S2048x16x64_o0_15_0_S2048x1x64 : S2048x16x64.Slices ![0, 15, 0] S2048x1x64
  shapeCasts_S256x64_S256x1x64 : S256x64.ShapeCasts S256x1x64
  concatenates_S256x1x64_S256x1x64_S256x1x64_S256x1x64_S256x1x64_S256x1x64_S256x1x64_S256x1x64_S256x1x64_S256x1x64_S256x1x64_S256x1x64_S256x1x64_S256x1x64_S256x1x64_S256x1x64_S256x16x64_d1 : Shape.Concatenates [S256x1x64, S256x1x64, S256x1x64, S256x1x64, S256x1x64, S256x1x64, S256x1x64, S256x1x64, S256x1x64, S256x1x64, S256x1x64, S256x1x64, S256x1x64, S256x1x64, S256x1x64, S256x1x64] S256x16x64 1
  shapeCasts_S256x16x64_S1x256x16x64 : S256x16x64.ShapeCasts S1x256x16x64
  packedbf16_S1x256x16x64_S1x256x16x64_0_0_0_0 : (Rect.unit (s := S1x256x16x64) ![0, 0, 0, 0] S1x256x16x64.size inb_S1x256x16x64_S1x256x16x64_0_0_0_0).PackedRows (EltTy.packing .bf16)
  shapeCasts_S2x2048x16x64_S4096x1024 : S2x2048x16x64.ShapeCasts S4096x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x16x64.size a ≤ S2x2048x16x64.size a
  hwx1_0 : ∀ i : grid1.Coords, EltTy.bits .bf16 = 32 ∨ (Rect.block (s := S2x2048x16x64) S1x256x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x16x64.size a ≤ S2x2048x16x64.size a
  hwx1_1 : ∀ i : grid1.Coords, EltTy.bits .bf16 = 32 ∨ (Rect.block (s := S2x2048x16x64) S1x2048x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x16x64.size a ≤ S2x2048x16x64.size a
  hwx1_2 : ∀ i : grid1.Coords, EltTy.bits .bf16 = 32 ∨ (Rect.block (s := S2x2048x16x64) S1x2048x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x16x64.size a ≤ S2x2048x16x64.size a
  hwx1_3 : ∀ i : grid1.Coords, EltTy.bits .bf16 = 32 ∨ (Rect.block (s := S2x2048x16x64) S1x256x16x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x256x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x256x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Region0.lean ====
/-
  The projection kernel (first pallas_call) at a grid point, for any contents `V` of the TensorCore's buffers at the
  region's entry: a block of 512 token rows, the whole 1024×3072 weight and the 1×3072 bias come in; three blocks of
  512 rows go out — the slices 0..1023, 1024..2047, 2048..3071 of `rows·W + bias`, the first scaled by 1/8.
  Here: what each output buffer holds after the body, that the body runs to it, and the pipeline's proof data.
-/
import proofs.«118845_j14903536517723_2_alg».proof.Proof.Gen.Kernel.Launch
import proofs.«118845_j14903536517723_2_alg».proof.Proof.Gen.Kernel.Skeleton
import proofs.«118845_j14903536517723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point at which the block index was the same. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole buffer -/

abbrev rX0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0

/-! ## What the body leaves in each output buffer -/

/-- The scaled first slice, as the one whole-buffer store leaves it. -/
def qOut (x : Vec F S512x1024 .f32) (w : Vec F S1024x3072 .bf16) (b : Vec F S1x3072 .f32) : Vec F S512x1024 .bf16 :=
  View.canon [⟨rX0, k0_pay2 (View.ld x rX0) (View.ld w rW0) (View.ld b rB0)⟩]
/-- The second slice. -/
def kOut (x : Vec F S512x1024 .f32) (w : Vec F S1024x3072 .bf16) (b : Vec F S1x3072 .f32) : Vec F S512x1024 .bf16 :=
  View.canon [⟨rX0, k0_pay3 (View.ld x rX0) (View.ld w rW0) (View.ld b rB0)⟩]
/-- The third slice. -/
def vOut (x : Vec F S512x1024 .f32) (w : Vec F S1024x3072 .bf16) (b : Vec F S1x3072 .f32) : Vec F S512x1024 .bf16 :=
  View.canon [⟨rX0, k0_pay4 (View.ld x rX0) (View.ld w rW0) (View.ld b rB0)⟩]

/-- One whole-buffer store covers the buffer. -/
theorem whole0 (p : Vec F S512x1024 .bf16) (y : S512x1024.Idx) :
    ∃ pc ∈ ([⟨rX0, p⟩] : List (View.Piece (Elt F) S512x1024 .bf16)), y ∈ pc.1.set :=
  View.cover_of_tiled [⟨rX0, p⟩] S512x1024.size (by rfl) y

/-! ## The body's triple -/

set_option maxHeartbeats 1000000 in
/-- On whole staging buffers, the inputs' at contents `x`, `w`, `b` and the outputs' at anything, the body runs to the
    inputs as they were and the outputs at `qOut`, `kOut`, `vOut` of them. -/
theorem run_body0 (c : Dev nD) (E : Set ℕ) (i : grid0.Coords) (a1 : Memref sig .tc .vmem S512x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole)
    (x : Vec F S512x1024 .f32) (w : Vec F S1024x3072 .bf16) (b : Vec F S1x3072 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (qOut x w b) ∗ owns (c : Thread nD τ) a5 fullShare (kOut x w b) ∗ owns (c : Thread nD τ) a6 fullShare (vOut x w b)) -∗ K ⟨⟩))
      ⊢ wp frame (wpE (defs₀ (F := F)) Variants.none c none) E (cc0__qkv_kernel i a1 h1 a2 h2 a3 h3 a4 h4 a5 h5 a6 h6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole0 _)
  isplitl [H5]
  · iexists _; isplitr
    swap; · iexact H5
    ipureintro
    exact View.read_writes_eq_canon _ _ _ (whole0 _)
  iexists _; isplitr
  swap; · iexact H6
  ipureintro
  exact View.read_writes_eq_canon _ _ _ (whole0 _)

/-! ## The pipeline's proof data -/

/-- The projection pipeline's proof data on core `c`: the arrays as the region finds them; after the body at point `t`
    each input buffer at its block and each output buffer at its slice of the input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qOut (blk0 V c 0 t) (blk0 V c 1 t) (blk0 V c 2 t)
    | ⟨4, _⟩ => kOut (blk0 V c 0 t) (blk0 V c 1 t) (blk0 V c 2 t)
    | ⟨5, _⟩ => vOut (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = qOut (blk0 V c 0 t) (blk0 V c 1 t) (blk0 V c 2 t) := by dsimp only [dat0]
theorem after0_4 (c : Dev nD) (t : Fin cfg0.N) : (dat0 V c).after 4 t = kOut (blk0 V c 0 t) (blk0 V c 1 t) (blk0 V c 2 t) := by dsimp only [dat0]
theorem after0_5 (c : Dev nD) (t : Fin cfg0.N) : (dat0 V c).after 5 t = vOut (blk0 V c 0 t) (blk0 V c 1 t) (blk0 V c 2 t) := by dsimp only [dat0]

theorem before0_0 (c : Dev nD) (t : Fin cfg0.N) (d) : (dat0 V c).before 0 t d = blk0 V c 0 t :=
  held0_0 V (dat0 V c) (arr0 V c 0) (after0_0 V c) t d
theorem before0_1 (c : Dev nD) (t : Fin cfg0.N) (d) : (dat0 V c).before 1 t d = blk0 V c 1 t :=
  held0_1 V (dat0 V c) (arr0 V c 1) (after0_1 V c) t d
theorem before0_2 (c : Dev nD) (t : Fin cfg0.N) (d) : (dat0 V c).before 2 t d = blk0 V c 2 t :=
  held0_2 V (dat0 V c) (arr0 V c 2) (after0_2 V c) t d

/-! ## The body obligation at a grid point -/

/-- What the pipeline hands the body at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it gets back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so `run_body0` applies; the invariant and what the core
    owes pass through untouched. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run_body0 c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation0 (c : Dev nD) : BodyObligation (dat0 (F := F) V c) (defs₀ (F := F)) Variants.none () Set.univ := fun t => by
  rw [bigSep_W0, bigSep_W0]
  exact body0 V c t

end Cert.Kernel.Frame

end
-- ==== Proof.K.Region1.lean ====
/-
  The attention kernel (second pallas_call) at a grid point, for any contents `V` of the TensorCore's buffers at the
  region's entry: a block of 256 query rows and the 2048 key rows and value rows of one batch element come in, each row
  sixteen heads of 64 lanes; per head the scores of the queries against the keys, their softmax weights without the
  normalising sum, the weighted sum of the value rows divided by that sum; the sixteen results side by side go out.
  What the output buffer holds after the body, that the body runs to it, and the pipeline's proof data.
-/
import proofs.«118845_j14903536517723_2_alg».proof.Proof.Gen.Kernel.Launch
import proofs.«118845_j14903536517723_2_alg».proof.Proof.Gen.Kernel.Skeleton
import proofs.«118845_j14903536517723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole buffer -/

abbrev rQ1 : Rect S1x256x16x64 := Rect.unit (s := S1x256x16x64) ![0, 0, 0, 0] S1x256x16x64.size inb_S1x256x16x64_S1x256x16x64_0_0_0_0
abbrev rK1 : Rect S1x2048x16x64 := Rect.unit (s := S1x2048x16x64) ![0, 0, 0, 0] S1x2048x16x64.size inb_S1x2048x16x64_S1x2048x16x64_0_0_0_0

/-- The sixteen heads' results side by side, as the one whole-buffer store leaves them: head by head the value the body
    computes from the three loaded blocks (the printed body names the heads' intermediate values in groups; the groups are
    composed here in the body's order). -/
def aOut (q : Vec F S1x256x16x64 .bf16) (k v : Vec F S1x2048x16x64 .bf16) : Vec F S1x256x16x64 .bf16 :=
  let v0 := View.ld q rQ1
  let v2 := View.ld k rK1
  let v4 := View.ld v rK1
  let v1 := k1_pay6 v0
  let v3 := k1_pay7 v2
  let v5 := k1_pay8 v4
  View.canon [⟨rQ1, k1_pay5 (k1_pay9 v0 v2 v4) (k1_pay13 (k1_pay10 v4) (k1_pay11 v0 v2) (k1_pay12 v0 v2)) (k1_pay14 v1 v3 v5) (k1_pay15 v1 v3 v5)
    (k1_pay18 (k1_pay16 v5) (k1_pay17 v1 v3)) (k1_pay19 v1 v3 v5) (k1_pay21 (k1_pay20 v1 v3 v5)) (k1_pay22 v1 v3 v5) (k1_pay23 v1 v3 v5)
    (k1_pay26 (k1_pay24 v5) (k1_pay25 v1 v3)) (k1_pay27 v1 v3 v5) (k1_pay28 v1 v3 v5) (k1_pay31 v5 (k1_pay29 v1) (k1_pay30 v3)) (k1_pay32 v1 v3 v5)
    (k1_pay1 (k1_pay33 v5) (k1_pay35 v1 v3) (k1_pay36 v1 v3)) (k1_pay4 (k1_pay2 v1 v3) (k1_pay3 v5 (k1_pay2 v1 v3)))⟩]

/-- One whole-buffer store covers the buffer. -/
theorem whole1 (p : Vec F S1x256x16x64 .bf16) (y : S1x256x16x64.Idx) :
    ∃ pc ∈ ([⟨rQ1, p⟩] : List (View.Piece (Elt F) S1x256x16x64 .bf16)), y ∈ pc.1.set :=
  View.cover_of_tiled [⟨rQ1, p⟩] S1x256x16x64.size (by rfl) y

/-! ## The body's triple -/

set_option maxHeartbeats 4000000 in
/-- On whole staging buffers, the inputs' at contents `q`, `k`, `v` and the output's at anything, the body runs to the
    inputs as they were and the output at `aOut` of them. -/
theorem run_body1 (c : Dev nD) (E : Set ℕ) (i : grid1.Coords) (a2 : Memref sig .tc .vmem S1x256x16x64 .bf16) (h2 : a2.IsWhole) (a3 : Memref sig .tc .vmem S1x2048x16x64 .bf16) (h3 : a3.IsWhole)
    (a4 : Memref sig .tc .vmem S1x2048x16x64 .bf16) (h4 : a4.IsWhole) (a5 : Memref sig .tc .vmem S1x256x16x64 .bf16) (h5 : a5.IsWhole)
    (q : Vec F S1x256x16x64 .bf16) (k : Vec F S1x2048x16x64 .bf16) (v : Vec F S1x2048x16x64 .bf16) (K : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d)
        ∗ (iprop(owns (c : Thread nD τ) a2 fullShare q ∗ owns (c : Thread nD τ) a3 fullShare k ∗ owns (c : Thread nD τ) a4 fullShare v
            ∗ owns (c : Thread nD τ) a5 fullShare (aOut q k v)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (whole1 _)

/-! ## The pipeline's proof data -/

/-- The attention pipeline's proof data on core `c`: the arrays as the region finds them; after the body at point `t`
    each input buffer at its block and the output buffer at the sixteen heads' results; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => aOut (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = aOut (blk1 V c 0 t) (blk1 V c 1 t) (blk1 V c 2 t) := by dsimp only [dat1]

theorem before1_0 (c : Dev nD) (t : Fin cfg1.N) (d) : (dat1 V c).before 0 t d = blk1 V c 0 t :=
  held1_0 V (dat1 V c) (arr1 V c 0) (after1_0 V c) t d
theorem before1_1 (c : Dev nD) (t : Fin cfg1.N) (d) : (dat1 V c).before 1 t d = blk1 V c 1 t :=
  held1_1 V (dat1 V c) (arr1 V c 1) (after1_1 V c) t d
theorem before1_2 (c : Dev nD) (t : Fin cfg1.N) (d) : (dat1 V c).before 2 t d = blk1 V c 2 t :=
  held1_2 V (dat1 V c) (arr1 V c 2) (after1_2 V c) t d

/-! ## The body obligation at a grid point -/

/-- What the pipeline hands the body at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it gets back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation1 (c : Dev nD) : BodyObligation (dat1 (F := F) V c) (defs₀ (F := F)) Variants.none () Set.univ := fun t => by
  rw [bigSep_W1, bigSep_W1]
  exact body1 V c t

end Cert.Kernel.Frame

end
-- ==== Proof.K.Region2.lean ====
/-
  The output projection (third pallas_call) at a grid point, for any contents `V` of the TensorCore's buffers at the
  region's entry: a block of 512 rows, the whole 1024×1024 weight and the 1×1024 bias come in; `rows·W + bias` goes out.
  What the output buffer holds after the body, that the body runs to it, and the pipeline's proof data.
-/
import proofs.«118845_j14903536517723_2_alg».proof.Proof.Gen.Kernel.Launch
import proofs.«118845_j14903536517723_2_alg».proof.Proof.Gen.Kernel.Skeleton
import proofs.«118845_j14903536517723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and store is of a whole buffer -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The projected block, as the one whole-buffer store leaves it. -/
def oOut (x : Vec F S512x1024 .bf16) (w : Vec F S1024x1024 .bf16) (b : Vec F S1x1024 .f32) : Vec F S512x1024 .f32 :=
  View.canon [⟨rX2, k2_pay1 (View.ld x rX2) (View.ld w rW2) (View.ld b rB2)⟩]

/-- One whole-buffer store covers the buffer. -/
theorem whole2 (p : Vec F S512x1024 .f32) (y : S512x1024.Idx) :
    ∃ pc ∈ ([⟨rX2, p⟩] : List (View.Piece (Elt F) S512x1024 .f32)), y ∈ pc.1.set :=
  View.cover_of_tiled [⟨rX2, p⟩] S512x1024.size (by rfl) y

/-! ## The body's triple -/

set_option maxHeartbeats 1000000 in
/-- On whole staging buffers, the inputs' at contents `x`, `w`, `b` and the output's at anything, the body runs to the
    inputs as they were and the output at `oOut` of them. -/
theorem run_body2 (c : Dev nD) (E : Set ℕ) (i : grid2.Coords) (a1 : Memref sig .tc .vmem S512x1024 .bf16) (h1 : a1.IsWhole) (a2 : Memref sig .tc .vmem S1024x1024 .bf16) (h2 : a2.IsWhole)
    (a3 : Memref sig .tc .vmem S1x1024 .f32) (h3 : a3.IsWhole) (a4 : Memref sig .tc .vmem S512x1024 .f32) (h4 : a4.IsWhole)
    (x : Vec F S512x1024 .bf16) (w : Vec F S1024x1024 .bf16) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (oOut x w b)) -∗ K ⟨⟩))
      ⊢ wp frame (wpE (defs₀ (F := F)) Variants.none c none) E (cc2__linear_kernel i a1 h1 a2 h2 a3 h3 a4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole2 _)

/-! ## The pipeline's proof data -/

/-- The output projection's proof data on core `c`: the arrays as the region finds them; after the body at point `t`
    each input buffer at its block and the output buffer at the projected block; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => oOut (blk2 V c 0 t) (blk2 V c 1 t) (blk2 V c 2 t)
  Φ _ := Pipeline.ΦA spec2 c
  q _ := fullShare
  owed _ := 0

theorem arr2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = oOut (blk2 V c 0 t) (blk2 V c 1 t) (blk2 V c 2 t) := by dsimp only [dat2]

theorem before2_0 (c : Dev nD) (t : Fin cfg2.N) (d) : (dat2 V c).before 0 t d = blk2 V c 0 t :=
  held2_0 V (dat2 V c) (arr2 V c 0) (after2_0 V c) t d
theorem before2_1 (c : Dev nD) (t : Fin cfg2.N) (d) : (dat2 V c).before 1 t d = blk2 V c 1 t :=
  held2_1 V (dat2 V c) (arr2 V c 1) (after2_1 V c) t d
theorem before2_2 (c : Dev nD) (t : Fin cfg2.N) (d) : (dat2 V c).before 2 t d = blk2 V c 2 t :=
  held2_2 V (dat2 V c) (arr2 V c 2) (after2_2 V c) t d

/-! ## The body obligation at a grid point -/

/-- What the pipeline hands the body at point `t`. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it gets back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (run_body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation2 (c : Dev nD) : BodyObligation (dat2 (F := F) V c) (defs₀ (F := F)) Variants.none () Set.univ := fun t => by
  rw [bigSep_W2, bigSep_W2]
  exact body2 V c t

end Cert.Kernel.Frame

end
-- ==== Proof.K.Run.lean ====
/-
  The whole run of @main: four stretches of host operations around three pallas_calls. The contents of core `c`'s
  unscoped buffers at each of the eight boundaries are a fold from the launch memory (`at0 … at7`): a host stretch applies
  its operations, a pallas_call leaves each of its arrays at what its pipeline wrote back. Every weakly fair execution
  terminates without a fault in a state whose unscoped buffers are at `at7`; the nine argument arrays are written by
  no host operation and are no pallas_call's array, so they end as launched.
-/
import proofs.«118845_j14903536517723_2_alg».proof.Proof.K.Region0
import proofs.«118845_j14903536517723_2_alg».proof.Proof.K.Region1
import proofs.«118845_j14903536517723_2_alg».proof.Proof.K.Region2
import proofs.«118845_j14903536517723_2_alg».proof.Proof.Gen.Kernel.Regions
import proofs.«118845_j14903536517723_2_alg».proof.Proof.Gen.Kernel.Launch
import proofs.«118845_j14903536517723_2_alg».proof.Proof.Gen.Kernel.Skeleton
import proofs.«118845_j14903536517723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev at0 : Dev nD → Valuation τ sig (Elt F) := fun c b => (s₀ m ρ).mem ((c : Dev nD), b)
/-- After the first host stretch (the fused weight and bias, the token rows flattened). -/
abbrev at1 : Dev nD → Valuation τ sig (Elt F) := fun c => StableHlo.after hostOps0 (at0 m ρ c)
/-- What the first pallas_call finds. -/
abbrev in0 : (c : Dev nD) → (b : Ref sig .tc) → Buf (Elt F) ((c : Thread nD τ).loc b) := fun c b => at1 m ρ c b

/-- After pallas_call 0: its arrays at what the pipeline leaves (the inputs as entered, each output's blocks written back),
    every other buffer as entered. -/
def at2 (c : Dev nD) : Valuation τ sig (Elt F) :=
  Pipeline.withArrays spec0 c (at1 m ρ c) fun w => (dat0 (in0 m ρ) c).arrAt w cfg0.N
theorem at2_arr (c : Dev nD) (w : Fin cfg0.W) :
    at2 m ρ c (Proc.devRef .tc (Pipeline.arrRef spec0 w)) = (dat0 (in0 m ρ) c).arrAt w cfg0.N := by
  unfold at2; exact Pipeline.withArrays_arr spec0 launch0.win.arr_inj c _ _ w
theorem at2_off (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
/-- The same, read at the TensorCore's references. -/
abbrev out0 : (c : Dev nD) → (b : Ref sig .tc) → Buf (Elt F) ((c : Thread nD τ).loc b) := fun c b => at2 m ρ c b
theorem left0 (c : Dev nD) (w : Fin cfg0.W) : (dat0 (in0 m ρ) c).arrAt w cfg0.N = out0 m ρ c (Pipeline.arrRef spec0 w) :=
  (at2_arr m ρ c w).symm
theorem kept0 (c : Dev nD) : ∀ b, b ∉ Finset.univ.image (Pipeline.arrRef spec0) → out0 m ρ c b = in0 m ρ c b :=
  fun b hb => at2_off m ρ c b fun w e => hb (Finset.mem_image.mpr ⟨w, Finset.mem_univ _, e⟩)

/-- After the second host stretch (the three projections split into heads). -/
abbrev at3 : Dev nD → Valuation τ sig (Elt F) := fun c => StableHlo.after hostOps1 (at2 m ρ c)
/-- What the second pallas_call finds. -/
abbrev in1 : (c : Dev nD) → (b : Ref sig .tc) → Buf (Elt F) ((c : Thread nD τ).loc b) := fun c b => at3 m ρ c b

/-- After pallas_call 1: its arrays at what the pipeline leaves (the inputs as entered, each output's blocks written back),
    every other buffer as entered. -/
def at4 (c : Dev nD) : Valuation τ sig (Elt F) :=
  Pipeline.withArrays spec1 c (at3 m ρ c) fun w => (dat1 (in1 m ρ) c).arrAt w cfg1.N
theorem at4_arr (c : Dev nD) (w : Fin cfg1.W) :
    at4 m ρ c (Proc.devRef .tc (Pipeline.arrRef spec1 w)) = (dat1 (in1 m ρ) c).arrAt w cfg1.N := by
  unfold at4; exact Pipeline.withArrays_arr spec1 launch1.win.arr_inj c _ _ w
theorem at4_off (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
/-- The same, read at the TensorCore's references. -/
abbrev out1 : (c : Dev nD) → (b : Ref sig .tc) → Buf (Elt F) ((c : Thread nD τ).loc b) := fun c b => at4 m ρ c b
theorem left1 (c : Dev nD) (w : Fin cfg1.W) : (dat1 (in1 m ρ) c).arrAt w cfg1.N = out1 m ρ c (Pipeline.arrRef spec1 w) :=
  (at4_arr m ρ c w).symm
theorem kept1 (c : Dev nD) : ∀ b, b ∉ Finset.univ.image (Pipeline.arrRef spec1) → out1 m ρ c b = in1 m ρ c b :=
  fun b hb => at4_off m ρ c b fun w e => hb (Finset.mem_image.mpr ⟨w, Finset.mem_univ _, e⟩)

/-- After the third host stretch (the heads merged, the output weight transposed). -/
abbrev at5 : Dev nD → Valuation τ sig (Elt F) := fun c => StableHlo.after hostOps2 (at4 m ρ c)
/-- What the third pallas_call finds. -/
abbrev in2 : (c : Dev nD) → (b : Ref sig .tc) → Buf (Elt F) ((c : Thread nD τ).loc b) := fun c b => at5 m ρ c b

/-- After pallas_call 2: its arrays at what the pipeline leaves (the inputs as entered, each output's blocks written back),
    every other buffer as entered. -/
def at6 (c : Dev nD) : Valuation τ sig (Elt F) :=
  Pipeline.withArrays spec2 c (at5 m ρ c) fun w => (dat2 (in2 m ρ) c).arrAt w cfg2.N
theorem at6_arr (c : Dev nD) (w : Fin cfg2.W) :
    at6 m ρ c (Proc.devRef .tc (Pipeline.arrRef spec2 w)) = (dat2 (in2 m ρ) c).arrAt w cfg2.N := by
  unfold at6; exact Pipeline.withArrays_arr spec2 launch2.win.arr_inj c _ _ w
theorem at6_off (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
/-- The same, read at the TensorCore's references. -/
abbrev out2 : (c : Dev nD) → (b : Ref sig .tc) → Buf (Elt F) ((c : Thread nD τ).loc b) := fun c b => at6 m ρ c b
theorem left2 (c : Dev nD) (w : Fin cfg2.W) : (dat2 (in2 m ρ) c).arrAt w cfg2.N = out2 m ρ c (Pipeline.arrRef spec2 w) :=
  (at6_arr m ρ c w).symm
theorem kept2 (c : Dev nD) : ∀ b, b ∉ Finset.univ.image (Pipeline.arrRef spec2) → out2 m ρ c b = in2 m ρ c b :=
  fun b hb => at6_off m ρ c b fun w e => hb (Finset.mem_image.mpr ⟨w, Finset.mem_univ _, e⟩)

/-- After the last host stretch (the result reshaped to batch × tokens × features). -/
abbrev at7 : Dev nD → Valuation τ sig (Elt F) := fun c => StableHlo.after hostOps3 (at6 m ρ c)

/-! ## A buffer nothing writes ends as launched -/

/-- A reference that no host stretch writes and that is no pallas_call's array holds its launch contents at the end. -/
theorem at7_untouched (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    at7 m ρ c (Proc.devRef .tc r) = m ((c : Thread nD τ).loc r) :=
  calc at7 m ρ c (Proc.devRef .tc r)
    _ = at6 m ρ c (Proc.devRef .tc r) := StableHlo.after_of_writes_sub hostOps3 _ hostOps3_writes h3
    _ = at5 m ρ c (Proc.devRef .tc r) := at6_off m ρ c r n2
    _ = at4 m ρ c (Proc.devRef .tc r) := StableHlo.after_of_writes_sub hostOps2 _ hostOps2_writes h2
    _ = at3 m ρ c (Proc.devRef .tc r) := at4_off m ρ c r n1
    _ = at2 m ρ c (Proc.devRef .tc r) := StableHlo.after_of_writes_sub hostOps1 _ hostOps1_writes h1
    _ = at1 m ρ c (Proc.devRef .tc r) := at2_off m ρ c r n0
    _ = at0 m ρ c (Proc.devRef .tc r) := StableHlo.after_of_writes_sub hostOps0 _ hostOps0_writes h0
    _ = m ((c : Thread nD τ).loc r) := rfl

theorem at7_arg0 (c : Dev nD) : at7 m ρ c (Proc.devRef .tc main_arg0) = m ((c : Thread nD τ).loc main_arg0) :=
  at7_untouched m ρ c main_arg0 (by decide) (by decide) (by decide) (by decide) (by decide) (by decide) (by decide)
theorem at7_arg1 (c : Dev nD) : at7 m ρ c (Proc.devRef .tc main_arg1) = m ((c : Thread nD τ).loc main_arg1) :=
  at7_untouched m ρ c main_arg1 (by decide) (by decide) (by decide) (by decide) (by decide) (by decide) (by decide)
theorem at7_arg2 (c : Dev nD) : at7 m ρ c (Proc.devRef .tc main_arg2) = m ((c : Thread nD τ).loc main_arg2) :=
  at7_untouched m ρ c main_arg2 (by decide) (by decide) (by decide) (by decide) (by decide) (by decide) (by decide)
theorem at7_arg3 (c : Dev nD) : at7 m ρ c (Proc.devRef .tc main_arg3) = m ((c : Thread nD τ).loc main_arg3) :=
  at7_untouched m ρ c main_arg3 (by decide) (by decide) (by decide) (by decide) (by decide) (by decide) (by decide)
theorem at7_arg4 (c : Dev nD) : at7 m ρ c (Proc.devRef .tc main_arg4) = m ((c : Thread nD τ).loc main_arg4) :=
  at7_untouched m ρ c main_arg4 (by decide) (by decide) (by decide) (by decide) (by decide) (by decide) (by decide)
theorem at7_arg5 (c : Dev nD) : at7 m ρ c (Proc.devRef .tc main_arg5) = m ((c : Thread nD τ).loc main_arg5) :=
  at7_untouched m ρ c main_arg5 (by decide) (by decide) (by decide) (by decide) (by decide) (by decide) (by decide)
theorem at7_arg6 (c : Dev nD) : at7 m ρ c (Proc.devRef .tc main_arg6) = m ((c : Thread nD τ).loc main_arg6) :=
  at7_untouched m ρ c main_arg6 (by decide) (by decide) (by decide) (by decide) (by decide) (by decide) (by decide)
theorem at7_arg7 (c : Dev nD) : at7 m ρ c (Proc.devRef .tc main_arg7) = m ((c : Thread nD τ).loc main_arg7) :=
  at7_untouched m ρ c main_arg7 (by decide) (by decide) (by decide) (by decide) (by decide) (by decide) (by decide)
theorem at7_arg8 (c : Dev nD) : at7 m ρ c (Proc.devRef .tc main_arg8) = m ((c : Thread nD τ).loc main_arg8) :=
  at7_untouched m ρ c main_arg8 (by decide) (by decide) (by decide) (by decide) (by decide) (by decide) (by decide)

/-! ## The proof data family and the thread state -/

/-- No pallas_call has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
  | ⟨2, _⟩ => fun c => dat2 (in2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (at7 m ρ c) ∗ ∃ r, prngReg c r)

/-! ## The pallas_calls as segments -/

set_option backward.isDefEq.respectTransparency.types false in
/-- Pallas_call 0 as a segment of the run: entered with every unscoped buffer at the contents of the boundary before it,
    left with them at the contents after it. Its arrays are split out of the unscoped buffers on entry and put back, at
    what the pipeline leaves, on exit; the generator register rides through the pipeline's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (out0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of the run: entered with every unscoped buffer at the contents of the boundary before it,
    left with them at the contents after it. Its arrays are split out of the unscoped buffers on entry and put back, at
    what the pipeline leaves, on exit; the generator register rides through the pipeline's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (out1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment of the run: entered with every unscoped buffer at the contents of the boundary before it,
    left with them at the contents after it. Its arrays are split out of the unscoped buffers on entry and put back, at
    what the pipeline leaves, on exit; the generator register rides through the pipeline's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in2 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in2 m ρ c) (out2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (stretch hostOps0 hostOps0_sub hostOps0_fresh (at0 m ρ)),
    .region (reg0 m ρ),
    .host (stretch hostOps1 hostOps1_sub hostOps1_fresh (at2 m ρ)),
    .region (reg1 m ρ),
    .host (stretch hostOps2 hostOps2_sub hostOps2_fresh (at4 m ρ)),
    .region (reg2 m ρ),
    .host (stretch hostOps3 hostOps3_sub hostOps3_fresh (at6 m ρ)) ]

theorem main_is_segs (c : Dev nD) : main (F := F) c = Pipeline.Seg.run (segs m ρ) := (main_chain c).trans (by chain_rfl)

set_option backward.isDefEq.respectTransparency.types false in
/-- THE RUN: from any memory with zero counters every weakly fair execution of @main terminates, nothing faulting, in a
    state that holds every unscoped TensorCore buffer at the last boundary's contents `at7`. -/
theorem run_at7 : θ_run defs (onTc (τ := τ) (main (F := F))) ⟨m, fun _ => 0, ρ⟩ (fun r => ∀ c : Dev nD,
      ∀ b ∈ Pipeline.ucRefs τ sig, r.2.mem (((c : Thread nD τ)).1, b) = at7 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m ρ c) ∗ R c) ⊢ iprop(Tend m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m ρ c b)
    (hfin := fun c s' => by
      iintro ⟨⟨Hh, -⟩, HSI⟩
      unfold StableHlo.held
      imodintro
      iapply (pointsTo_read_all (Pipeline.ucRefs τ sig) (fun b => (((c : Thread nD τ)).1, b)) (at7 m ρ c) s')
      isplitl [Hh] <;> iassumption)
    (hQ := fun s h c => h c)

/-- THE FRAME: the run ends with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (held_ref main_arg0 (by decide))).trans (at7_arg0 m ρ c),
    (h c _ (held_ref main_arg1 (by decide))).trans (at7_arg1 m ρ c),
    (h c _ (held_ref main_arg2 (by decide))).trans (at7_arg2 m ρ c),
    (h c _ (held_ref main_arg3 (by decide))).trans (at7_arg3 m ρ c),
    (h c _ (held_ref main_arg4 (by decide))).trans (at7_arg4 m ρ c),
    (h c _ (held_ref main_arg5 (by decide))).trans (at7_arg5 m ρ c),
    (h c _ (held_ref main_arg6 (by decide))).trans (at7_arg6 m ρ c),
    (h c _ (held_ref main_arg7 (by decide))).trans (at7_arg7 m ρ c),
    (h c _ (held_ref main_arg8 (by decide))).trans (at7_arg8 m ρ c)⟩) (run_at7 m ρ)

end Cert.Kernel.Frame

end
-- ==== Proof.KI.Region0.lean ====
/-
  The projection kernel (first pallas_call) at a grid point, for any contents `V` of the TensorCore's buffers at the
  region's entry: a block of 512 token rows, the whole 1024×3072 weight and the 1×3072 bias come in; three blocks of
  512 rows go out — the slices 0..1023, 1024..2047, 2048..3071 of `rows·W + bias`, the first scaled by 1/8.
  Here: what each output buffer holds after the body, that the body runs to it, and the pipeline's proof data.
-/
import proofs.«118845_j14903536517723_2_alg».proof.Proof.Gen.KernelIdeal.Launch
import proofs.«118845_j14903536517723_2_alg».proof.Proof.Gen.KernelIdeal.Skeleton
import proofs.«118845_j14903536517723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point at which the block index was the same. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole buffer -/

abbrev rX0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0

/-! ## What the body leaves in each output buffer -/

/-- The scaled first slice, as the one whole-buffer store leaves it. -/
def qOut (x : Vec F S512x1024 .f32) (w : Vec F S1024x3072 .bf16) (b : Vec F S1x3072 .f32) : Vec F S512x1024 .bf16 :=
  View.canon [⟨rX0, k0_pay2 (View.ld x rX0) (View.ld w rW0) (View.ld b rB0)⟩]
/-- The second slice. -/
def kOut (x : Vec F S512x1024 .f32) (w : Vec F S1024x3072 .bf16) (b : Vec F S1x3072 .f32) : Vec F S512x1024 .bf16 :=
  View.canon [⟨rX0, k0_pay3 (View.ld x rX0) (View.ld w rW0) (View.ld b rB0)⟩]
/-- The third slice. -/
def vOut (x : Vec F S512x1024 .f32) (w : Vec F S1024x3072 .bf16) (b : Vec F S1x3072 .f32) : Vec F S512x1024 .bf16 :=
  View.canon [⟨rX0, k0_pay4 (View.ld x rX0) (View.ld w rW0) (View.ld b rB0)⟩]

/-- One whole-buffer store covers the buffer. -/
theorem whole0 (p : Vec F S512x1024 .bf16) (y : S512x1024.Idx) :
    ∃ pc ∈ ([⟨rX0, p⟩] : List (View.Piece (Elt F) S512x1024 .bf16)), y ∈ pc.1.set :=
  View.cover_of_tiled [⟨rX0, p⟩] S512x1024.size (by rfl) y

/-! ## The body's triple -/

set_option maxHeartbeats 1000000 in
/-- On whole staging buffers, the inputs' at contents `x`, `w`, `b` and the outputs' at anything, the body runs to the
    inputs as they were and the outputs at `qOut`, `kOut`, `vOut` of them. -/
theorem run_body0 (c : Dev nD) (E : Set ℕ) (i : grid0.Coords) (a1 : Memref sig .tc .vmem S512x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole)
    (x : Vec F S512x1024 .f32) (w : Vec F S1024x3072 .bf16) (b : Vec F S1x3072 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (qOut x w b) ∗ owns (c : Thread nD τ) a5 fullShare (kOut x w b) ∗ owns (c : Thread nD τ) a6 fullShare (vOut x w b)) -∗ K ⟨⟩))
      ⊢ wp frame (wpE (defs₀ (F := F)) Variants.none c none) E (cc0__qkv_kernel i a1 h1 a2 h2 a3 h3 a4 h4 a5 h5 a6 h6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole0 _)
  isplitl [H5]
  · iexists _; isplitr
    swap; · iexact H5
    ipureintro
    exact View.read_writes_eq_canon _ _ _ (whole0 _)
  iexists _; isplitr
  swap; · iexact H6
  ipureintro
  exact View.read_writes_eq_canon _ _ _ (whole0 _)

/-! ## The pipeline's proof data -/

/-- The projection pipeline's proof data on core `c`: the arrays as the region finds them; after the body at point `t`
    each input buffer at its block and each output buffer at its slice of the input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qOut (blk0 V c 0 t) (blk0 V c 1 t) (blk0 V c 2 t)
    | ⟨4, _⟩ => kOut (blk0 V c 0 t) (blk0 V c 1 t) (blk0 V c 2 t)
    | ⟨5, _⟩ => vOut (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = qOut (blk0 V c 0 t) (blk0 V c 1 t) (blk0 V c 2 t) := by dsimp only [dat0]
theorem after0_4 (c : Dev nD) (t : Fin cfg0.N) : (dat0 V c).after 4 t = kOut (blk0 V c 0 t) (blk0 V c 1 t) (blk0 V c 2 t) := by dsimp only [dat0]
theorem after0_5 (c : Dev nD) (t : Fin cfg0.N) : (dat0 V c).after 5 t = vOut (blk0 V c 0 t) (blk0 V c 1 t) (blk0 V c 2 t) := by dsimp only [dat0]

theorem before0_0 (c : Dev nD) (t : Fin cfg0.N) (d) : (dat0 V c).before 0 t d = blk0 V c 0 t :=
  held0_0 V (dat0 V c) (arr0 V c 0) (after0_0 V c) t d
theorem before0_1 (c : Dev nD) (t : Fin cfg0.N) (d) : (dat0 V c).before 1 t d = blk0 V c 1 t :=
  held0_1 V (dat0 V c) (arr0 V c 1) (after0_1 V c) t d
theorem before0_2 (c : Dev nD) (t : Fin cfg0.N) (d) : (dat0 V c).before 2 t d = blk0 V c 2 t :=
  held0_2 V (dat0 V c) (arr0 V c 2) (after0_2 V c) t d

/-! ## The body obligation at a grid point -/

/-- What the pipeline hands the body at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it gets back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so `run_body0` applies; the invariant and what the core
    owes pass through untouched. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run_body0 c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation0 (c : Dev nD) : BodyObligation (dat0 (F := F) V c) (defs₀ (F := F)) Variants.none () Set.univ := fun t => by
  rw [bigSep_W0, bigSep_W0]
  exact body0 V c t

end Cert.KernelIdeal.Frame

end
-- ==== Proof.KI.Region1.lean ====
/-
  The attention kernel (second pallas_call) at a grid point, for any contents `V` of the TensorCore's buffers at the
  region's entry: a block of 256 query rows and the 2048 key rows and value rows of one batch element come in, each row
  sixteen heads of 64 lanes; per head the scores of the queries against the keys, their softmax weights without the
  normalising sum, the weighted sum of the value rows divided by that sum; the sixteen results side by side go out.
  What the output buffer holds after the body, that the body runs to it, and the pipeline's proof data.
-/
import proofs.«118845_j14903536517723_2_alg».proof.Proof.Gen.KernelIdeal.Launch
import proofs.«118845_j14903536517723_2_alg».proof.Proof.Gen.KernelIdeal.Skeleton
import proofs.«118845_j14903536517723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole buffer -/

abbrev rQ1 : Rect S1x256x16x64 := Rect.unit (s := S1x256x16x64) ![0, 0, 0, 0] S1x256x16x64.size inb_S1x256x16x64_S1x256x16x64_0_0_0_0
abbrev rK1 : Rect S1x2048x16x64 := Rect.unit (s := S1x2048x16x64) ![0, 0, 0, 0] S1x2048x16x64.size inb_S1x2048x16x64_S1x2048x16x64_0_0_0_0

/-- The sixteen heads' results side by side, as the one whole-buffer store leaves them: head by head the value the body
    computes from the three loaded blocks (the printed body names the heads' intermediate values in groups; the groups are
    composed here in the body's order). -/
def aOut (q : Vec F S1x256x16x64 .bf16) (k v : Vec F S1x2048x16x64 .bf16) : Vec F S1x256x16x64 .bf16 :=
  let v0 := View.ld q rQ1
  let v2 := View.ld k rK1
  let v4 := View.ld v rK1
  let v1 := k1_pay6 v0
  let v3 := k1_pay7 v2
  let v5 := k1_pay8 v4
  View.canon [⟨rQ1, k1_pay5 (k1_pay9 v0 v2 v4) (k1_pay13 (k1_pay10 v4) (k1_pay11 v0 v2) (k1_pay12 v0 v2)) (k1_pay14 v1 v3 v5) (k1_pay15 v1 v3 v5)
    (k1_pay18 (k1_pay16 v5) (k1_pay17 v1 v3)) (k1_pay19 v1 v3 v5) (k1_pay21 (k1_pay20 v1 v3 v5)) (k1_pay22 v1 v3 v5) (k1_pay23 v1 v3 v5)
    (k1_pay26 (k1_pay24 v5) (k1_pay25 v1 v3)) (k1_pay27 v1 v3 v5) (k1_pay28 v1 v3 v5) (k1_pay31 v5 (k1_pay29 v1) (k1_pay30 v3)) (k1_pay32 v1 v3 v5)
    (k1_pay1 (k1_pay33 v5) (k1_pay35 v1 v3) (k1_pay36 v1 v3)) (k1_pay4 (k1_pay2 v1 v3) (k1_pay3 v5 (k1_pay2 v1 v3)))⟩]

/-- One whole-buffer store covers the buffer. -/
theorem whole1 (p : Vec F S1x256x16x64 .bf16) (y : S1x256x16x64.Idx) :
    ∃ pc ∈ ([⟨rQ1, p⟩] : List (View.Piece (Elt F) S1x256x16x64 .bf16)), y ∈ pc.1.set :=
  View.cover_of_tiled [⟨rQ1, p⟩] S1x256x16x64.size (by rfl) y

/-! ## The body's triple -/

set_option maxHeartbeats 4000000 in
/-- On whole staging buffers, the inputs' at contents `q`, `k`, `v` and the output's at anything, the body runs to the
    inputs as they were and the output at `aOut` of them. -/
theorem run_body1 (c : Dev nD) (E : Set ℕ) (i : grid1.Coords) (a2 : Memref sig .tc .vmem S1x256x16x64 .bf16) (h2 : a2.IsWhole) (a3 : Memref sig .tc .vmem S1x2048x16x64 .bf16) (h3 : a3.IsWhole)
    (a4 : Memref sig .tc .vmem S1x2048x16x64 .bf16) (h4 : a4.IsWhole) (a5 : Memref sig .tc .vmem S1x256x16x64 .bf16) (h5 : a5.IsWhole)
    (q : Vec F S1x256x16x64 .bf16) (k : Vec F S1x2048x16x64 .bf16) (v : Vec F S1x2048x16x64 .bf16) (K : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d)
        ∗ (iprop(owns (c : Thread nD τ) a2 fullShare q ∗ owns (c : Thread nD τ) a3 fullShare k ∗ owns (c : Thread nD τ) a4 fullShare v
            ∗ owns (c : Thread nD τ) a5 fullShare (aOut q k v)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (whole1 _)

/-! ## The pipeline's proof data -/

/-- The attention pipeline's proof data on core `c`: the arrays as the region finds them; after the body at point `t`
    each input buffer at its block and the output buffer at the sixteen heads' results; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => aOut (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = aOut (blk1 V c 0 t) (blk1 V c 1 t) (blk1 V c 2 t) := by dsimp only [dat1]

theorem before1_0 (c : Dev nD) (t : Fin cfg1.N) (d) : (dat1 V c).before 0 t d = blk1 V c 0 t :=
  held1_0 V (dat1 V c) (arr1 V c 0) (after1_0 V c) t d
theorem before1_1 (c : Dev nD) (t : Fin cfg1.N) (d) : (dat1 V c).before 1 t d = blk1 V c 1 t :=
  held1_1 V (dat1 V c) (arr1 V c 1) (after1_1 V c) t d
theorem before1_2 (c : Dev nD) (t : Fin cfg1.N) (d) : (dat1 V c).before 2 t d = blk1 V c 2 t :=
  held1_2 V (dat1 V c) (arr1 V c 2) (after1_2 V c) t d

/-! ## The body obligation at a grid point -/

/-- What the pipeline hands the body at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it gets back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation1 (c : Dev nD) : BodyObligation (dat1 (F := F) V c) (defs₀ (F := F)) Variants.none () Set.univ := fun t => by
  rw [bigSep_W1, bigSep_W1]
  exact body1 V c t

end Cert.KernelIdeal.Frame

end
-- ==== Proof.KI.Region2.lean ====
/-
  The output projection (third pallas_call) at a grid point, for any contents `V` of the TensorCore's buffers at the
  region's entry: a block of 512 rows, the whole 1024×1024 weight and the 1×1024 bias come in; `rows·W + bias` goes out.
  What the output buffer holds after the body, that the body runs to it, and the pipeline's proof data.
-/
import proofs.«118845_j14903536517723_2_alg».proof.Proof.Gen.KernelIdeal.Launch
import proofs.«118845_j14903536517723_2_alg».proof.Proof.Gen.KernelIdeal.Skeleton
import proofs.«118845_j14903536517723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and store is of a whole buffer -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The projected block, as the one whole-buffer store leaves it. -/
def oOut (x : Vec F S512x1024 .bf16) (w : Vec F S1024x1024 .bf16) (b : Vec F S1x1024 .f32) : Vec F S512x1024 .f32 :=
  View.canon [⟨rX2, k2_pay1 (View.ld x rX2) (View.ld w rW2) (View.ld b rB2)⟩]

/-- One whole-buffer store covers the buffer. -/
theorem whole2 (p : Vec F S512x1024 .f32) (y : S512x1024.Idx) :
    ∃ pc ∈ ([⟨rX2, p⟩] : List (View.Piece (Elt F) S512x1024 .f32)), y ∈ pc.1.set :=
  View.cover_of_tiled [⟨rX2, p⟩] S512x1024.size (by rfl) y

/-! ## The body's triple -/

set_option maxHeartbeats 1000000 in
/-- On whole staging buffers, the inputs' at contents `x`, `w`, `b` and the output's at anything, the body runs to the
    inputs as they were and the output at `oOut` of them. -/
theorem run_body2 (c : Dev nD) (E : Set ℕ) (i : grid2.Coords) (a1 : Memref sig .tc .vmem S512x1024 .bf16) (h1 : a1.IsWhole) (a2 : Memref sig .tc .vmem S1024x1024 .bf16) (h2 : a2.IsWhole)
    (a3 : Memref sig .tc .vmem S1x1024 .f32) (h3 : a3.IsWhole) (a4 : Memref sig .tc .vmem S512x1024 .f32) (h4 : a4.IsWhole)
    (x : Vec F S512x1024 .bf16) (w : Vec F S1024x1024 .bf16) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (oOut x w b)) -∗ K ⟨⟩))
      ⊢ wp frame (wpE (defs₀ (F := F)) Variants.none c none) E (cc2__linear_kernel i a1 h1 a2 h2 a3 h3 a4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole2 _)

/-! ## The pipeline's proof data -/

/-- The output projection's proof data on core `c`: the arrays as the region finds them; after the body at point `t`
    each input buffer at its block and the output buffer at the projected block; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => oOut (blk2 V c 0 t) (blk2 V c 1 t) (blk2 V c 2 t)
  Φ _ := Pipeline.ΦA spec2 c
  q _ := fullShare
  owed _ := 0

theorem arr2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = oOut (blk2 V c 0 t) (blk2 V c 1 t) (blk2 V c 2 t) := by dsimp only [dat2]

theorem before2_0 (c : Dev nD) (t : Fin cfg2.N) (d) : (dat2 V c).before 0 t d = blk2 V c 0 t :=
  held2_0 V (dat2 V c) (arr2 V c 0) (after2_0 V c) t d
theorem before2_1 (c : Dev nD) (t : Fin cfg2.N) (d) : (dat2 V c).before 1 t d = blk2 V c 1 t :=
  held2_1 V (dat2 V c) (arr2 V c 1) (after2_1 V c) t d
theorem before2_2 (c : Dev nD) (t : Fin cfg2.N) (d) : (dat2 V c).before 2 t d = blk2 V c 2 t :=
  held2_2 V (dat2 V c) (arr2 V c 2) (after2_2 V c) t d

/-! ## The body obligation at a grid point -/

/-- What the pipeline hands the body at point `t`. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it gets back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (run_body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation2 (c : Dev nD) : BodyObligation (dat2 (F := F) V c) (defs₀ (F := F)) Variants.none () Set.univ := fun t => by
  rw [bigSep_W2, bigSep_W2]
  exact body2 V c t

end Cert.KernelIdeal.Frame

end
-- ==== Proof.KI.Run.lean ====
/-
  The whole run of @main: four stretches of host operations around three pallas_calls. The contents of core `c`'s
  unscoped buffers at each of the eight boundaries are a fold from the launch memory (`at0 … at7`): a host stretch applies
  its operations, a pallas_call leaves each of its arrays at what its pipeline wrote back. Every weakly fair execution
  terminates without a fault in a state whose unscoped buffers are at `at7`; the nine argument arrays are written by
  no host operation and are no pallas_call's array, so they end as launched.
-/
import proofs.«118845_j14903536517723_2_alg».proof.Proof.KI.Region0
import proofs.«118845_j14903536517723_2_alg».proof.Proof.KI.Region1
import proofs.«118845_j14903536517723_2_alg».proof.Proof.KI.Region2
import proofs.«118845_j14903536517723_2_alg».proof.Proof.Gen.KernelIdeal.Regions
import proofs.«118845_j14903536517723_2_alg».proof.Proof.Gen.KernelIdeal.Launch
import proofs.«118845_j14903536517723_2_alg».proof.Proof.Gen.KernelIdeal.Skeleton
import proofs.«118845_j14903536517723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev at0 : Dev nD → Valuation τ sig (Elt F) := fun c b => (s₀ m ρ).mem ((c : Dev nD), b)
/-- After the first host stretch (the fused weight and bias, the token rows flattened). -/
abbrev at1 : Dev nD → Valuation τ sig (Elt F) := fun c => StableHlo.after hostOps0 (at0 m ρ c)
/-- What the first pallas_call finds. -/
abbrev in0 : (c : Dev nD) → (b : Ref sig .tc) → Buf (Elt F) ((c : Thread nD τ).loc b) := fun c b => at1 m ρ c b

/-- After pallas_call 0: its arrays at what the pipeline leaves (the inputs as entered, each output's blocks written back),
    every other buffer as entered. -/
def at2 (c : Dev nD) : Valuation τ sig (Elt F) :=
  Pipeline.withArrays spec0 c (at1 m ρ c) fun w => (dat0 (in0 m ρ) c).arrAt w cfg0.N
theorem at2_arr (c : Dev nD) (w : Fin cfg0.W) :
    at2 m ρ c (Proc.devRef .tc (Pipeline.arrRef spec0 w)) = (dat0 (in0 m ρ) c).arrAt w cfg0.N := by
  unfold at2; exact Pipeline.withArrays_arr spec0 launch0.win.arr_inj c _ _ w
theorem at2_off (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
/-- The same, read at the TensorCore's references. -/
abbrev out0 : (c : Dev nD) → (b : Ref sig .tc) → Buf (Elt F) ((c : Thread nD τ).loc b) := fun c b => at2 m ρ c b
theorem left0 (c : Dev nD) (w : Fin cfg0.W) : (dat0 (in0 m ρ) c).arrAt w cfg0.N = out0 m ρ c (Pipeline.arrRef spec0 w) :=
  (at2_arr m ρ c w).symm
theorem kept0 (c : Dev nD) : ∀ b, b ∉ Finset.univ.image (Pipeline.arrRef spec0) → out0 m ρ c b = in0 m ρ c b :=
  fun b hb => at2_off m ρ c b fun w e => hb (Finset.mem_image.mpr ⟨w, Finset.mem_univ _, e⟩)

/-- After the second host stretch (the three projections split into heads). -/
abbrev at3 : Dev nD → Valuation τ sig (Elt F) := fun c => StableHlo.after hostOps1 (at2 m ρ c)
/-- What the second pallas_call finds. -/
abbrev in1 : (c : Dev nD) → (b : Ref sig .tc) → Buf (Elt F) ((c : Thread nD τ).loc b) := fun c b => at3 m ρ c b

/-- After pallas_call 1: its arrays at what the pipeline leaves (the inputs as entered, each output's blocks written back),
    every other buffer as entered. -/
def at4 (c : Dev nD) : Valuation τ sig (Elt F) :=
  Pipeline.withArrays spec1 c (at3 m ρ c) fun w => (dat1 (in1 m ρ) c).arrAt w cfg1.N
theorem at4_arr (c : Dev nD) (w : Fin cfg1.W) :
    at4 m ρ c (Proc.devRef .tc (Pipeline.arrRef spec1 w)) = (dat1 (in1 m ρ) c).arrAt w cfg1.N := by
  unfold at4; exact Pipeline.withArrays_arr spec1 launch1.win.arr_inj c _ _ w
theorem at4_off (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
/-- The same, read at the TensorCore's references. -/
abbrev out1 : (c : Dev nD) → (b : Ref sig .tc) → Buf (Elt F) ((c : Thread nD τ).loc b) := fun c b => at4 m ρ c b
theorem left1 (c : Dev nD) (w : Fin cfg1.W) : (dat1 (in1 m ρ) c).arrAt w cfg1.N = out1 m ρ c (Pipeline.arrRef spec1 w) :=
  (at4_arr m ρ c w).symm
theorem kept1 (c : Dev nD) : ∀ b, b ∉ Finset.univ.image (Pipeline.arrRef spec1) → out1 m ρ c b = in1 m ρ c b :=
  fun b hb => at4_off m ρ c b fun w e => hb (Finset.mem_image.mpr ⟨w, Finset.mem_univ _, e⟩)

/-- After the third host stretch (the heads merged, the output weight transposed). -/
abbrev at5 : Dev nD → Valuation τ sig (Elt F) := fun c => StableHlo.after hostOps2 (at4 m ρ c)
/-- What the third pallas_call finds. -/
abbrev in2 : (c : Dev nD) → (b : Ref sig .tc) → Buf (Elt F) ((c : Thread nD τ).loc b) := fun c b => at5 m ρ c b

/-- After pallas_call 2: its arrays at what the pipeline leaves (the inputs as entered, each output's blocks written back),
    every other buffer as entered. -/
def at6 (c : Dev nD) : Valuation τ sig (Elt F) :=
  Pipeline.withArrays spec2 c (at5 m ρ c) fun w => (dat2 (in2 m ρ) c).arrAt w cfg2.N
theorem at6_arr (c : Dev nD) (w : Fin cfg2.W) :
    at6 m ρ c (Proc.devRef .tc (Pipeline.arrRef spec2 w)) = (dat2 (in2 m ρ) c).arrAt w cfg2.N := by
  unfold at6; exact Pipeline.withArrays_arr spec2 launch2.win.arr_inj c _ _ w
theorem at6_off (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
/-- The same, read at the TensorCore's references. -/
abbrev out2 : (c : Dev nD) → (b : Ref sig .tc) → Buf (Elt F) ((c : Thread nD τ).loc b) := fun c b => at6 m ρ c b
theorem left2 (c : Dev nD) (w : Fin cfg2.W) : (dat2 (in2 m ρ) c).arrAt w cfg2.N = out2 m ρ c (Pipeline.arrRef spec2 w) :=
  (at6_arr m ρ c w).symm
theorem kept2 (c : Dev nD) : ∀ b, b ∉ Finset.univ.image (Pipeline.arrRef spec2) → out2 m ρ c b = in2 m ρ c b :=
  fun b hb => at6_off m ρ c b fun w e => hb (Finset.mem_image.mpr ⟨w, Finset.mem_univ _, e⟩)

/-- After the last host stretch (the result reshaped to batch × tokens × features). -/
abbrev at7 : Dev nD → Valuation τ sig (Elt F) := fun c => StableHlo.after hostOps3 (at6 m ρ c)

/-! ## A buffer nothing writes ends as launched -/

/-- A reference that no host stretch writes and that is no pallas_call's array holds its launch contents at the end. -/
theorem at7_untouched (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    at7 m ρ c (Proc.devRef .tc r) = m ((c : Thread nD τ).loc r) :=
  calc at7 m ρ c (Proc.devRef .tc r)
    _ = at6 m ρ c (Proc.devRef .tc r) := StableHlo.after_of_writes_sub hostOps3 _ hostOps3_writes h3
    _ = at5 m ρ c (Proc.devRef .tc r) := at6_off m ρ c r n2
    _ = at4 m ρ c (Proc.devRef .tc r) := StableHlo.after_of_writes_sub hostOps2 _ hostOps2_writes h2
    _ = at3 m ρ c (Proc.devRef .tc r) := at4_off m ρ c r n1
    _ = at2 m ρ c (Proc.devRef .tc r) := StableHlo.after_of_writes_sub hostOps1 _ hostOps1_writes h1
    _ = at1 m ρ c (Proc.devRef .tc r) := at2_off m ρ c r n0
    _ = at0 m ρ c (Proc.devRef .tc r) := StableHlo.after_of_writes_sub hostOps0 _ hostOps0_writes h0
    _ = m ((c : Thread nD τ).loc r) := rfl

theorem at7_arg0 (c : Dev nD) : at7 m ρ c (Proc.devRef .tc main_arg0) = m ((c : Thread nD τ).loc main_arg0) :=
  at7_untouched m ρ c main_arg0 (by decide) (by decide) (by decide) (by decide) (by decide) (by decide) (by decide)
theorem at7_arg1 (c : Dev nD) : at7 m ρ c (Proc.devRef .tc main_arg1) = m ((c : Thread nD τ).loc main_arg1) :=
  at7_untouched m ρ c main_arg1 (by decide) (by decide) (by decide) (by decide) (by decide) (by decide) (by decide)
theorem at7_arg2 (c : Dev nD) : at7 m ρ c (Proc.devRef .tc main_arg2) = m ((c : Thread nD τ).loc main_arg2) :=
  at7_untouched m ρ c main_arg2 (by decide) (by decide) (by decide) (by decide) (by decide) (by decide) (by decide)
theorem at7_arg3 (c : Dev nD) : at7 m ρ c (Proc.devRef .tc main_arg3) = m ((c : Thread nD τ).loc main_arg3) :=
  at7_untouched m ρ c main_arg3 (by decide) (by decide) (by decide) (by decide) (by decide) (by decide) (by decide)
theorem at7_arg4 (c : Dev nD) : at7 m ρ c (Proc.devRef .tc main_arg4) = m ((c : Thread nD τ).loc main_arg4) :=
  at7_untouched m ρ c main_arg4 (by decide) (by decide) (by decide) (by decide) (by decide) (by decide) (by decide)
theorem at7_arg5 (c : Dev nD) : at7 m ρ c (Proc.devRef .tc main_arg5) = m ((c : Thread nD τ).loc main_arg5) :=
  at7_untouched m ρ c main_arg5 (by decide) (by decide) (by decide) (by decide) (by decide) (by decide) (by decide)
theorem at7_arg6 (c : Dev nD) : at7 m ρ c (Proc.devRef .tc main_arg6) = m ((c : Thread nD τ).loc main_arg6) :=
  at7_untouched m ρ c main_arg6 (by decide) (by decide) (by decide) (by decide) (by decide) (by decide) (by decide)
theorem at7_arg7 (c : Dev nD) : at7 m ρ c (Proc.devRef .tc main_arg7) = m ((c : Thread nD τ).loc main_arg7) :=
  at7_untouched m ρ c main_arg7 (by decide) (by decide) (by decide) (by decide) (by decide) (by decide) (by decide)
theorem at7_arg8 (c : Dev nD) : at7 m ρ c (Proc.devRef .tc main_arg8) = m ((c : Thread nD τ).loc main_arg8) :=
  at7_untouched m ρ c main_arg8 (by decide) (by decide) (by decide) (by decide) (by decide) (by decide) (by decide)

/-! ## The proof data family and the thread state -/

/-- No pallas_call has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
  | ⟨2, _⟩ => fun c => dat2 (in2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (at7 m ρ c) ∗ ∃ r, prngReg c r)

/-! ## The pallas_calls as segments -/

set_option backward.isDefEq.respectTransparency.types false in
/-- Pallas_call 0 as a segment of the run: entered with every unscoped buffer at the contents of the boundary before it,
    left with them at the contents after it. Its arrays are split out of the unscoped buffers on entry and put back, at
    what the pipeline leaves, on exit; the generator register rides through the pipeline's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (out0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of the run: entered with every unscoped buffer at the contents of the boundary before it,
    left with them at the contents after it. Its arrays are split out of the unscoped buffers on entry and put back, at
    what the pipeline leaves, on exit; the generator register rides through the pipeline's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (out1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment of the run: entered with every unscoped buffer at the contents of the boundary before it,
    left with them at the contents after it. Its arrays are split out of the unscoped buffers on entry and put back, at
    what the pipeline leaves, on exit; the generator register rides through the pipeline's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in2 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in2 m ρ c) (out2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (stretch hostOps0 hostOps0_sub hostOps0_fresh (at0 m ρ)),
    .region (reg0 m ρ),
    .host (stretch hostOps1 hostOps1_sub hostOps1_fresh (at2 m ρ)),
    .region (reg1 m ρ),
    .host (stretch hostOps2 hostOps2_sub hostOps2_fresh (at4 m ρ)),
    .region (reg2 m ρ),
    .host (stretch hostOps3 hostOps3_sub hostOps3_fresh (at6 m ρ)) ]

theorem main_is_segs (c : Dev nD) : main (F := F) c = Pipeline.Seg.run (segs m ρ) := (main_chain c).trans (by chain_rfl)

set_option backward.isDefEq.respectTransparency.types false in
/-- THE RUN: from any memory with zero counters every weakly fair execution of @main terminates, nothing faulting, in a
    state that holds every unscoped TensorCore buffer at the last boundary's contents `at7`. -/
theorem run_at7 : θ_run defs (onTc (τ := τ) (main (F := F))) ⟨m, fun _ => 0, ρ⟩ (fun r => ∀ c : Dev nD,
      ∀ b ∈ Pipeline.ucRefs τ sig, r.2.mem (((c : Thread nD τ)).1, b) = at7 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m ρ c) ∗ R c) ⊢ iprop(Tend m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m ρ c b)
    (hfin := fun c s' => by
      iintro ⟨⟨Hh, -⟩, HSI⟩
      unfold StableHlo.held
      imodintro
      iapply (pointsTo_read_all (Pipeline.ucRefs τ sig) (fun b => (((c : Thread nD τ)).1, b)) (at7 m ρ c) s')
      isplitl [Hh] <;> iassumption)
    (hQ := fun s h c => h c)

/-- THE FRAME: the run ends with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (held_ref main_arg0 (by decide))).trans (at7_arg0 m ρ c),
    (h c _ (held_ref main_arg1 (by decide))).trans (at7_arg1 m ρ c),
    (h c _ (held_ref main_arg2 (by decide))).trans (at7_arg2 m ρ c),
    (h c _ (held_ref main_arg3 (by decide))).trans (at7_arg3 m ρ c),
    (h c _ (held_ref main_arg4 (by decide))).trans (at7_arg4 m ρ c),
    (h c _ (held_ref main_arg5 (by decide))).trans (at7_arg5 m ρ c),
    (h c _ (held_ref main_arg6 (by decide))).trans (at7_arg6 m ρ c),
    (h c _ (held_ref main_arg7 (by decide))).trans (at7_arg7 m ρ c),
    (h c _ (held_ref main_arg8 (by decide))).trans (at7_arg8 m ρ c)⟩) (run_at7 m ρ)

end Cert.KernelIdeal.Frame

end
-- ==== Proof.KV.Basic.lean ====
/-
  Shared small facts for reading the kernels' blocks index by index: the zero offsets of a whole-buffer
  rectangle, written as the constant function.
-/
import Idealize.ShloMosaic.Lib.Pipeline.Value
import Idealize.ShloMosaic.Lib.ValueIdx

namespace Cert.KernelIdeal.Val

open Idealize.ShloMosaic

/-- The zero offsets of a whole-buffer rectangle of rank 2, as the constant function. -/
theorem zero_off2 : (![0, 0] : Fin 2 → Nat) = fun _ => 0 := funext fun a => by fin_cases a <;> rfl

/-- The zero offsets of a whole-buffer rectangle of rank 4, as the constant function. -/
theorem zero_off4 : (![0, 0, 0, 0] : Fin 4 → Nat) = fun _ => 0 := funext fun a => by fin_cases a <;> rfl

end Cert.KernelIdeal.Val
-- ==== Proof.KV.Proj.lean ====
/-
  The QKV projection's three output blocks, read index by index at the ideal values. The kernel forms
  `x·W + bias` once, 3072 columns wide, and stores three column ranges of it: columns `[0, 1024)` scaled by the
  constant `0x3E000000` (the query), columns `[1024, 2048)` (the key) and columns `[2048, 3072)` (the value).
-/
import proofs.«118845_j14903536517723_2_alg».proof.Proof.KI.Region0
import proofs.«118845_j14903536517723_2_alg».proof.Proof.KV.Basic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.ValueIdx Idealize.SL.Sem

/-! The operand indices of the rows-by-columns product, coordinate by coordinate. -/
theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The wide product plus bias at `(r, g)`: `∑ₑ x(r,e)·w(e,g) + b(0,g)`. -/
theorem wide_apply (x : Vec Ideal S512x1024 .f32) (w : Vec Ideal S1024x3072 .bf16) (b : Vec Ideal S1x3072 .f32)
    (r : Fin 512) (g : Fin 3072) :
    k0_pay1 (F := Ideal) x w b (ix2 r g) = (∑ e : Fin 1024, x (ix2 r e) * w (ix2 e g)) + b (ix2 (0 : Fin 1) g) := by
  unfold k0_pay1
  simp only [shapeCast_self]
  rw [addf_apply, broadcastTo_1b_ab_apply]
  refine congrArg (· + b (ix2 (0 : Fin 1) g)) ?_
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r g) ((contrEquiv1 dot_S512x1024_S1024x3072_S512x3072_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x3072_S512x3072_1_0_0_1_n_n.rhsIdx (ix2 r g) ((contrEquiv1 dot_S512x1024_S1024x3072_S512x3072_1_0_0_1_n_n 1024 rfl rfl).symm k) = ix2 k g := funext fun a => Fin.ext (by
    match a with
    | ⟨0, _⟩ => exact (rhs_proj_0 _ _).trans hk
    | ⟨1, _⟩ => exact rhs_proj_1 _ _)
  rw [el, er]
  rfl

/-- The query block at `(r, f)`: column `f` of the wide product plus bias, times the scale constant. -/
theorem qOut_apply (x : Vec Ideal S512x1024 .f32) (w : Vec Ideal S1024x3072 .bf16) (b : Vec Ideal S1x3072 .f32)
    (r : Fin 512) (f : Fin 1024) :
    qOut (F := Ideal) x w b (ix2 r f)
      = ((∑ e : Fin 1024, x (ix2 r e) * w (ix2 e (⟨f.val, by omega⟩ : Fin 3072))) + b (ix2 (0 : Fin 1) (⟨f.val, by omega⟩ : Fin 3072)))
        * Ideal.ofBits .f32 0x3E000000#32 := by
  unfold qOut
  rw [View.canon_unit_zero zero_off2]
  simp only [View.ld_unit_zero (S := S512x1024) zero_off2, View.ld_unit_zero (S := S1024x3072) zero_off2,
    View.ld_unit_zero (S := S1x3072) zero_off2]
  unfold k0_pay2
  rw [truncf_apply, mulf_apply, broadcast_apply,
    slice2_axis1_apply 0 _ _ r f (⟨f.val, by omega⟩ : Fin 3072) (Nat.zero_add _).symm, wide_apply]
  rfl

/-- The key block at `(r, f)`: column `1024 + f` of the wide product plus bias. -/
theorem kOut_apply (x : Vec Ideal S512x1024 .f32) (w : Vec Ideal S1024x3072 .bf16) (b : Vec Ideal S1x3072 .f32)
    (r : Fin 512) (f : Fin 1024) :
    kOut (F := Ideal) x w b (ix2 r f)
      = (∑ e : Fin 1024, x (ix2 r e) * w (ix2 e (⟨1024 + f.val, by omega⟩ : Fin 3072))) + b (ix2 (0 : Fin 1) (⟨1024 + f.val, by omega⟩ : Fin 3072)) := by
  unfold kOut
  rw [View.canon_unit_zero zero_off2]
  simp only [View.ld_unit_zero (S := S512x1024) zero_off2, View.ld_unit_zero (S := S1024x3072) zero_off2,
    View.ld_unit_zero (S := S1x3072) zero_off2]
  unfold k0_pay3
  rw [truncf_apply, slice2_axis1_apply 1024 _ _ r f (⟨1024 + f.val, by omega⟩ : Fin 3072) rfl, wide_apply]

/-- The value block at `(r, f)`: column `2048 + f` of the wide product plus bias. -/
theorem vOut_apply (x : Vec Ideal S512x1024 .f32) (w : Vec Ideal S1024x3072 .bf16) (b : Vec Ideal S1x3072 .f32)
    (r : Fin 512) (f : Fin 1024) :
    vOut (F := Ideal) x w b (ix2 r f)
      = (∑ e : Fin 1024, x (ix2 r e) * w (ix2 e (⟨2048 + f.val, by omega⟩ : Fin 3072))) + b (ix2 (0 : Fin 1) (⟨2048 + f.val, by omega⟩ : Fin 3072)) := by
  unfold vOut
  rw [View.canon_unit_zero zero_off2]
  simp only [View.ld_unit_zero (S := S512x1024) zero_off2, View.ld_unit_zero (S := S1024x3072) zero_off2,
    View.ld_unit_zero (S := S1x3072) zero_off2]
  unfold k0_pay4
  rw [truncf_apply, slice2_axis1_apply 2048 _ _ r f (⟨2048 + f.val, by omega⟩ : Fin 3072) rfl, wide_apply]

end Cert.KernelIdeal.Val

end
-- ==== Proof.KI.Final0.lean ====
/-
  The three projection arrays after the first pallas_call, each as ONE function of the arrays the region finds: with
  `x` the 4096 flattened token rows, `w` the fused 1024×3072 weight and `β` the fused 1×3072 bias, row `i₀`, feature `i₁`
  of the three arrays hold `(Σₑ x[i₀,e]·w[e,i₁] + β[0,i₁])·⅛`, `Σₑ x[i₀,e]·w[e,1024+i₁] + β[0,1024+i₁]` and the same at
  `2048+i₁`. Each grid point writes back the three blocks of 512 rows it computed from its own 512 rows of `x`; the
  eight blocks tile the 4096 rows.
-/
import proofs.«118845_j14903536517723_2_alg».proof.Proof.KI.Region0
import proofs.«118845_j14903536517723_2_alg».proof.Proof.KV.Proj
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- A slice (columns `o …` of the fused weight) of `x·w + β`, whole. -/
def rowsSlice (o : Nat) (ho : o + 1024 ≤ 3072) (x : S4096x1024.Idx → EReal) (w : S1024x3072.Idx → EReal) (β : S1x3072.Idx → EReal) : S4096x1024.Idx → EReal := fun i =>
  (∑ e : Fin 1024, x (ix2 (⟨(i 0).val, (i 0).isLt⟩ : Fin 4096) e) * w (ix2 e (⟨o + (i 1).val, by have h1 : (i 1).val < 1024 := (i 1).isLt; omega⟩ : Fin 3072)))
    + β (ix2 (0 : Fin 1) (⟨o + (i 1).val, by have h1 : (i 1).val < 1024 := (i 1).isLt; omega⟩ : Fin 3072))

/-- The first slice scaled by the literal ⅛. -/
def qAll (c : Dev nD) : S4096x1024.Idx → EReal := fun i => rowsSlice 0 (by omega) (V c main_v5) (V c main_v2) (V c main_v4) i * Ideal.ofBits .f32 0x3E000000#32
/-- The second slice. -/
def kAll (c : Dev nD) : S4096x1024.Idx → EReal := rowsSlice 1024 (by omega) (V c main_v5) (V c main_v2) (V c main_v4)
/-- The third slice. -/
def vAll (c : Dev nD) : S4096x1024.Idx → EReal := rowsSlice 2048 (by omega) (V c main_v5) (V c main_v2) (V c main_v4)

/-- The block indices over the grid: the rows' block moves with the outputs', the weight and the bias stay whole. -/
theorem where0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7
    ∧ win0_4.index t = win0_3.index t ∧ win0_5.index t = win0_3.index t :=
  (by decide +kernel : ∀ t : Fin grid0.N, _)

/-- Every block of rows is some point's. -/
theorem onto0 : ∀ q0 : Fin 8, ∃ t : Fin cfg0.N, win0_3.index t = ![q0.val, 0] :=
  (by decide +kernel : ∀ q0 : Fin 8, ∃ t : Fin grid0.N, win0_3.index t = ![q0.val, 0])

/-! ## The input blocks read where the outputs' rows say -/

theorem rows0 (c : Dev nD) (t : Fin cfg0.N) (r : Fin 512) (e : Fin 1024) (hb : win0_3.index t (0 : Fin 2) * 512 + r.val < 4096) :
    blk0 V c 0 t (ix2 r e) = V c main_v5 (ix2 (⟨win0_3.index t (0 : Fin 2) * 512 + r.val, hb⟩ : Fin 4096) e) := by
  obtain ⟨e0, e1, -⟩ := where0 t
  show V c main_v5 (((cfg0.win 0).blk t).view.emb (ix2 r e)) = _
  refine congrArg (V c main_v5) (funext fun a => Fin.ext ?_)
  match a with
  | ⟨0, _⟩ => show win0_0.index t (0 : Fin 2) * 512 + 1 * r.val = win0_3.index t (0 : Fin 2) * 512 + r.val; omega
  | ⟨1, _⟩ => show win0_0.index t (1 : Fin 2) * 1024 + 1 * e.val = e.val; omega

theorem weight0 (c : Dev nD) (t : Fin cfg0.N) (e : Fin 1024) (g : Fin 3072) :
    blk0 V c 1 t (ix2 e g) = V c main_v2 (ix2 e g) := by
  obtain ⟨-, -, e2, e3, -⟩ := where0 t
  show V c main_v2 (((cfg0.win 1).blk t).view.emb (ix2 e g)) = _
  refine congrArg (V c main_v2) (funext fun a => Fin.ext ?_)
  match a with
  | ⟨0, _⟩ => show win0_1.index t (0 : Fin 2) * 1024 + 1 * e.val = e.val; omega
  | ⟨1, _⟩ => show win0_1.index t (1 : Fin 2) * 3072 + 1 * g.val = g.val; omega

theorem bias0 (c : Dev nD) (t : Fin cfg0.N) (g : Fin 3072) :
    blk0 V c 2 t (ix2 (0 : Fin 1) g) = V c main_v4 (ix2 (0 : Fin 1) g) := by
  obtain ⟨-, -, -, -, e4, e5, -⟩ := where0 t
  show V c main_v4 (((cfg0.win 2).blk t).view.emb (ix2 (0 : Fin 1) g)) = _
  refine congrArg (V c main_v4) (funext fun a => Fin.ext ?_)
  match a with
  | ⟨0, _⟩ => show win0_2.index t (0 : Fin 2) * 1 + 1 * 0 = 0; omega
  | ⟨1, _⟩ => show win0_2.index t (1 : Fin 2) * 3072 + 1 * g.val = g.val; omega

/-! ## What each point writes back, and the cover -/

/-- What point `t` writes back through window 3 is block `t` of `qAll`. -/
theorem flushed0_3 (c : Dev nD) (t : Fin cfg0.N) :
    (dat0 V c).flushed 3 t = ((cfg0.win 3).blk t).view.read (Elt Ideal) (qAll V c) := by
  show (cfg0.win 3).cut (grid0.coords t) ((dat0 V c).after 3 t) = _
  rw [after0_3]
  obtain ⟨-, -, -, -, -, -, e6, e7, e8, e9⟩ := where0 t
  have i0 : win0_3.index t (0 : Fin 2) = win0_3.index t (0 : Fin 2) := rfl
  have i1 : win0_3.index t (1 : Fin 2) = 0 := e6
  funext y
  obtain ⟨r, f, rfl⟩ : ∃ (r : Fin 512) (f : Fin 1024), y = ix2 r f := ⟨y 0, y 1, eq_ix2 y⟩
  show qOut (blk0 V c 0 t) (blk0 V c 1 t) (blk0 V c 2 t) (ix2 r f) = qAll V c (((cfg0.win 3).blk t).view.emb (ix2 r f))
  refine (qOut_apply (blk0 V c 0 t) (blk0 V c 1 t) (blk0 V c 2 t) r f).trans ?_
  have hb : win0_3.index t (0 : Fin 2) * 512 + r.val < 4096 := by have := r.isLt; omega
  have hrow : (⟨((((cfg0.win 3).blk t).view.emb (ix2 r f)) 0).val, ((((cfg0.win 3).blk t).view.emb (ix2 r f)) 0).isLt⟩ : Fin 4096)
      = ⟨win0_3.index t (0 : Fin 2) * 512 + r.val, hb⟩ :=
    Fin.ext (by show win0_3.index t (0 : Fin 2) * 512 + 1 * r.val = win0_3.index t (0 : Fin 2) * 512 + r.val; omega)
  have hcol : ((((cfg0.win 3).blk t).view.emb (ix2 r f)) 1).val = f.val := by
    show win0_3.index t (1 : Fin 2) * 1024 + 1 * f.val = f.val; omega
  unfold qAll rowsSlice
  simp only [hrow, hcol, Nat.zero_add, rows0 V c t r _ hb, weight0 V c t, bias0 V c t]

/-- What point `t` writes back through window 4 is block `t` of `kAll`. -/
theorem flushed0_4 (c : Dev nD) (t : Fin cfg0.N) :
    (dat0 V c).flushed 4 t = ((cfg0.win 4).blk t).view.read (Elt Ideal) (kAll V c) := by
  show (cfg0.win 4).cut (grid0.coords t) ((dat0 V c).after 4 t) = _
  rw [after0_4]
  obtain ⟨-, -, -, -, -, -, e6, e7, e8, e9⟩ := where0 t
  have i0 : win0_4.index t (0 : Fin 2) = win0_3.index t (0 : Fin 2) := congrFun e8 0
  have i1 : win0_4.index t (1 : Fin 2) = 0 := (congrFun e8 1).trans e6
  funext y
  obtain ⟨r, f, rfl⟩ : ∃ (r : Fin 512) (f : Fin 1024), y = ix2 r f := ⟨y 0, y 1, eq_ix2 y⟩
  show kOut (blk0 V c 0 t) (blk0 V c 1 t) (blk0 V c 2 t) (ix2 r f) = kAll V c (((cfg0.win 4).blk t).view.emb (ix2 r f))
  refine (kOut_apply (blk0 V c 0 t) (blk0 V c 1 t) (blk0 V c 2 t) r f).trans ?_
  have hb : win0_3.index t (0 : Fin 2) * 512 + r.val < 4096 := by have := r.isLt; omega
  have hrow : (⟨((((cfg0.win 4).blk t).view.emb (ix2 r f)) 0).val, ((((cfg0.win 4).blk t).view.emb (ix2 r f)) 0).isLt⟩ : Fin 4096)
      = ⟨win0_3.index t (0 : Fin 2) * 512 + r.val, hb⟩ :=
    Fin.ext (by show win0_4.index t (0 : Fin 2) * 512 + 1 * r.val = win0_3.index t (0 : Fin 2) * 512 + r.val; omega)
  have hcol : ((((cfg0.win 4).blk t).view.emb (ix2 r f)) 1).val = f.val := by
    show win0_4.index t (1 : Fin 2) * 1024 + 1 * f.val = f.val; omega
  unfold kAll rowsSlice
  simp only [hrow, hcol, Nat.zero_add, rows0 V c t r _ hb, weight0 V c t, bias0 V c t]

/-- What point `t` writes back through window 5 is block `t` of `vAll`. -/
theorem flushed0_5 (c : Dev nD) (t : Fin cfg0.N) :
    (dat0 V c).flushed 5 t = ((cfg0.win 5).blk t).view.read (Elt Ideal) (vAll V c) := by
  show (cfg0.win 5).cut (grid0.coords t) ((dat0 V c).after 5 t) = _
  rw [after0_5]
  obtain ⟨-, -, -, -, -, -, e6, e7, e8, e9⟩ := where0 t
  have i0 : win0_5.index t (0 : Fin 2) = win0_3.index t (0 : Fin 2) := congrFun e9 0
  have i1 : win0_5.index t (1 : Fin 2) = 0 := (congrFun e9 1).trans e6
  funext y
  obtain ⟨r, f, rfl⟩ : ∃ (r : Fin 512) (f : Fin 1024), y = ix2 r f := ⟨y 0, y 1, eq_ix2 y⟩
  show vOut (blk0 V c 0 t) (blk0 V c 1 t) (blk0 V c 2 t) (ix2 r f) = vAll V c (((cfg0.win 5).blk t).view.emb (ix2 r f))
  refine (vOut_apply (blk0 V c 0 t) (blk0 V c 1 t) (blk0 V c 2 t) r f).trans ?_
  have hb : win0_3.index t (0 : Fin 2) * 512 + r.val < 4096 := by have := r.isLt; omega
  have hrow : (⟨((((cfg0.win 5).blk t).view.emb (ix2 r f)) 0).val, ((((cfg0.win 5).blk t).view.emb (ix2 r f)) 0).isLt⟩ : Fin 4096)
      = ⟨win0_3.index t (0 : Fin 2) * 512 + r.val, hb⟩ :=
    Fin.ext (by show win0_5.index t (0 : Fin 2) * 512 + 1 * r.val = win0_3.index t (0 : Fin 2) * 512 + r.val; omega)
  have hcol : ((((cfg0.win 5).blk t).view.emb (ix2 r f)) 1).val = f.val := by
    show win0_5.index t (1 : Fin 2) * 1024 + 1 * f.val = f.val; omega
  unfold vAll rowsSlice
  simp only [hrow, hcol, Nat.zero_add, rows0 V c t r _ hb, weight0 V c t, bias0 V c t]

/-- An index of the array is in point `t`'s block of window 3 iff each coordinate is in the block's range. -/
theorem inBlock0_3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

/-- The eight blocks of rows of window 3 tile its array. -/
theorem cover0_3 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := onto0 ⟨(i 0).val / 512, by omega⟩
  obtain ⟨-, -, -, -, -, -, -, -, e8, e9⟩ := where0 t
  have q0 : win0_3.index t (0 : Fin 2) = (i 0).val / 512 := congrFun ht 0
  have q1 : win0_3.index t (1 : Fin 2) = 0 := congrFun ht 1
  refine ⟨t, flush0_3 t, ?_⟩
  rw [inBlock0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array of window 3 after the pallas_call is `qAll` of the arrays the region found. -/
theorem final0_3 (c : Dev nD) : (dat0 V c).arrAt 3 cfg0.N = qAll V c :=
  (dat0 V c).arrAt_eq_of_cover 3 (qAll V c) (fun t _ => flushed0_3 V c t) (cover0_3)

/-- An index of the array is in point `t`'s block of window 4 iff each coordinate is in the block's range. -/
theorem inBlock0_4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

/-- The eight blocks of rows of window 4 tile its array. -/
theorem cover0_4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ := onto0 ⟨(i 0).val / 512, by omega⟩
  obtain ⟨-, -, -, -, -, -, -, -, e8, e9⟩ := where0 t
  have q0 : win0_4.index t (0 : Fin 2) = (i 0).val / 512 := (congrFun e8 0).trans (congrFun ht 0)
  have q1 : win0_4.index t (1 : Fin 2) = 0 := (congrFun e8 1).trans (congrFun ht 1)
  refine ⟨t, flush0_4 t, ?_⟩
  rw [inBlock0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array of window 4 after the pallas_call is `kAll` of the arrays the region found. -/
theorem final0_4 (c : Dev nD) : (dat0 V c).arrAt 4 cfg0.N = kAll V c :=
  (dat0 V c).arrAt_eq_of_cover 4 (kAll V c) (fun t _ => flushed0_4 V c t) (cover0_4)

/-- An index of the array is in point `t`'s block of window 5 iff each coordinate is in the block's range. -/
theorem inBlock0_5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_2).slice (win0_5.rect t)).set ↔ _
  rw [View.set_slice_whole, Rect.mem_set_unit]
  exact Iff.rfl

/-- The eight blocks of rows of window 5 tile its array. -/
theorem cover0_5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := onto0 ⟨(i 0).val / 512, by omega⟩
  obtain ⟨-, -, -, -, -, -, -, -, e8, e9⟩ := where0 t
  have q0 : win0_5.index t (0 : Fin 2) = (i 0).val / 512 := (congrFun e9 0).trans (congrFun ht 0)
  have q1 : win0_5.index t (1 : Fin 2) = 0 := (congrFun e9 1).trans (congrFun ht 1)
  refine ⟨t, flush0_5 t, ?_⟩
  rw [inBlock0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array of window 5 after the pallas_call is `vAll` of the arrays the region found. -/
theorem final0_5 (c : Dev nD) : (dat0 V c).arrAt 5 cfg0.N = vAll V c :=
  (dat0 V c).arrAt_eq_of_cover 5 (vAll V c) (fun t _ => flushed0_5 V c t) (cover0_5)

end Cert.KernelIdeal.Val

end
-- ==== Proof.Spec.lean ====
import Idealize.ShloMosaic.PureOps.Ideal
import Mathlib.Algebra.BigOperators.Fin

/-!
# Multi-head attention on the extended reals: the two arrangements

Arrays are curried over literal coordinates: a batch of token rows `x b s e` (2 × 2048 × 1024), a weight matrix `W f e`
(output feature `f`, input feature `e`: a row of `W` is contracted against a token), a bias `β f`.
The 1024 features split into 16 heads of 64 lanes: feature `h·64 + d`.

Both programs compute the three projections `Q, K, V`, then per batch, head and query row a softmax over the 2048 keys of
the scores `Q·K` scaled by `1/√64`, the weighted mean of the value rows, and a last projection. They differ in where the
scale sits (on `Q` before the scores, or dividing the scores) and in where the softmax is normalised (the weights
before the value product, or the product after it).
-/

noncomputable section

namespace Cert.Attn

open Idealize.ShloMosaic

/-- A batch of token rows. -/
abbrev Tok := Fin 2 → Fin 2048 → Fin 1024 → EReal
/-- A square weight matrix, `W f e`. -/
abbrev Mat := Fin 1024 → Fin 1024 → EReal
/-- A bias row. -/
abbrev Row := Fin 1024 → EReal

/-- The dense layer `y[b,s,f] = Σₑ x[b,s,e]·W[f,e] + β[f]`. -/
def lin (x : Tok) (W : Mat) (β : Row) : Tok := fun b s f => (∑ e : Fin 1024, x b s e * W f e) + β f

/-- Feature `h·64 + d`: lane `d` of head `h`. -/
def feat (h : Fin 16) (d : Fin 64) : Fin 1024 := ⟨h.val * 64 + d.val, by omega⟩

/-- The head a feature belongs to. -/
def headOf (e : Fin 1024) : Fin 16 := ⟨e.val / 64, by omega⟩

/-- The unnormalised softmax weight of key `j` in a row of scores: `exp (sc j − max sc)`, the maximum taken from `⊥`. -/
def pw (sc : Fin 2048 → EReal) (j : Fin 2048) : EReal := Ideal.exp (sc j - Finset.univ.sup sc)

/-- Attention with the scores divided by `c8` and the weights normalised BEFORE the value product (the sum of the
    weights taken from `0`): `Σⱼ (pⱼ / (0 + Σ p))·V[b,j,e]`. -/
def attnDivFirst (c8 : EReal) (Q K V : Tok) : Tok := fun b s e =>
  let sc : Fin 2048 → EReal := fun j => Ideal.div (∑ d : Fin 64, Q b s (feat (headOf e) d) * K b j (feat (headOf e) d)) c8
  ∑ j : Fin 2048, Ideal.div (pw sc j) (0 + ∑ j' : Fin 2048, pw sc j') * V b j e

/-- Attention with `Q` scaled by `c` beforehand and the value product normalised AFTERWARDS: `(Σⱼ pⱼ·V[b,j,e]) / Σ p`. -/
def attnDivLast (c : EReal) (Q K V : Tok) : Tok := fun b s e =>
  let sc : Fin 2048 → EReal := fun j => ∑ d : Fin 64, (Q b s (feat (headOf e) d) * c) * K b j (feat (headOf e) d)
  Ideal.div (∑ j : Fin 2048, pw sc j * V b j e) (∑ j' : Fin 2048, pw sc j')

/-- The whole layer, softmax normalised first, scores divided by `c8`. -/
def mhaDivFirst (c8 : EReal) (X : Tok) (Wq : Mat) (bq : Row) (Wk : Mat) (bk : Row) (Wv : Mat) (bv : Row) (Wo : Mat) (bo : Row) : Tok :=
  lin (attnDivFirst c8 (lin X Wq bq) (lin X Wk bk) (lin X Wv bv)) Wo bo

/-- The whole layer, `Q` pre-scaled by `c`, softmax normalised last. -/
def mhaDivLast (c : EReal) (X : Tok) (Wq : Mat) (bq : Row) (Wk : Mat) (bk : Row) (Wv : Mat) (bv : Row) (Wo : Mat) (bo : Row) : Tok :=
  lin (attnDivLast c (lin X Wq bq) (lin X Wk bk) (lin X Wv bv)) Wo bo

end Cert.Attn

end
-- ==== Proof.KI.AttnDef.lean ====
/-
  The attention array as one function of three arrays split into heads (batch × token × head × lane): entry (b, s, h, d)
  is `(Σⱼ pⱼ·v[b,j,h,d]) / Σⱼ pⱼ` with `pⱼ = exp (scⱼ − max sc)` and `scⱼ = Σ_d' q[b,s,h,d']·k[b,j,h,d']`.
-/
import proofs.«118845_j14903536517723_2_alg».proof.Proof.KI.Region1
import proofs.«118845_j14903536517723_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The score row of query (b, s) in head h against every key. -/
def scoreRow (q k : S2x2048x16x64.Idx → EReal) (b : Fin 2) (s : Fin 2048) (h : Fin 16) : Fin 2048 → EReal := fun j' =>
  ∑ d' : Fin 64, q (ix4 b s h d') * k (ix4 b j' h d')

/-- Softmax-weighted values, normalised last. -/
def attnOf (q k v : S2x2048x16x64.Idx → EReal) : S2x2048x16x64.Idx → EReal := fun i =>
  Ideal.div (∑ j : Fin 2048, Cert.Attn.pw (scoreRow q k ⟨(i 0).val, (i 0).isLt⟩ ⟨(i 1).val, (i 1).isLt⟩ ⟨(i 2).val, (i 2).isLt⟩) j
      * v (ix4 (⟨(i 0).val, (i 0).isLt⟩ : Fin 2) j (⟨(i 2).val, (i 2).isLt⟩ : Fin 16) (⟨(i 3).val, (i 3).isLt⟩ : Fin 64)))
    (∑ j : Fin 2048, Cert.Attn.pw (scoreRow q k ⟨(i 0).val, (i 0).isLt⟩ ⟨(i 1).val, (i 1).isLt⟩ ⟨(i 2).val, (i 2).isLt⟩) j)

/-- The attention array, from the arrays the region finds. -/
def attnAll (c : Dev nD) : S2x2048x16x64.Idx → EReal := attnOf (V c main_v7) (V c main_v8) (V c main_v9)

end Cert.KernelIdeal.Val

end
-- ==== Proof.KV.Layout.lean ====
/-
  Layout operations read at an index given by coordinates, for the shapes a softmax row meets: a vector turned into
  a column (`[a] → [a, 1]`), a column broadcast along its rows (`[a, 1] → [a, b]`), and a unit MIDDLE axis dropped or
  added by a shape cast (`[a, 1, b] → [a, b]` and back).
-/
import Idealize.ShloMosaic.Lib.Pipeline.Value
import Idealize.ShloMosaic.Lib.ValueIdx
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.KernelIdeal.Val
-- ==== Proof.KV.Concat.lean ====
/-
  The body's last step read at an index: the sixteen heads' `[256, 64]` results, each cast to `[256, 1, 64]`, are laid
  side by side along the middle axis and the `[256, 16, 64]` result is cast to `[1, 256, 16, 64]`. At `(0, r, h, d)` it
  reads head `h`'s result at `(r, d)`.
-/
import proofs.«118845_j14903536517723_2_alg».proof.Proof.Gen.KernelIdeal.Skeleton
import proofs.«118845_j14903536517723_2_alg».proof.Proof.KV.Layout
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.ValueIdx Idealize.SL.Sem

/-- The assembled block at head 0 reads the value given for that head. -/
theorem pay5_apply_0 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨0, by decide⟩ : Fin 16) d) = h0 (ix2 r d) := by
  unfold k1_pay5
  rw [shapeCast_abc_1abc_apply]
  refine Eq.trans (concatenate_apply_piece (1 : Fin 3) _ _ (ix3 r (⟨0, by decide⟩ : Fin 16) d) 0 ?_ S256x1x64
    (shapeCast S256x1x64 h0 shapeCasts_S256x64_S256x1x64) ?_ rfl 0 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 1 reads the value given for that head. -/
theorem pay5_apply_1 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨1, by decide⟩ : Fin 16) d) = h1 (ix2 r d) := by
  unfold k1_pay5
  rw [shapeCast_abc_1abc_apply]
  refine Eq.trans (concatenate_apply_piece (1 : Fin 3) _ _ (ix3 r (⟨1, by decide⟩ : Fin 16) d) 1 ?_ S256x1x64
    (shapeCast S256x1x64 h1 shapeCasts_S256x64_S256x1x64) ?_ rfl 1 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 2 reads the value given for that head. -/
theorem pay5_apply_2 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨2, by decide⟩ : Fin 16) d) = h2 (ix2 r d) := by
  unfold k1_pay5
  rw [shapeCast_abc_1abc_apply]
  refine Eq.trans (concatenate_apply_piece (1 : Fin 3) _ _ (ix3 r (⟨2, by decide⟩ : Fin 16) d) 2 ?_ S256x1x64
    (shapeCast S256x1x64 h2 shapeCasts_S256x64_S256x1x64) ?_ rfl 2 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 3 reads the value given for that head. -/
theorem pay5_apply_3 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨3, by decide⟩ : Fin 16) d) = h3 (ix2 r d) := by
  unfold k1_pay5
  rw [shapeCast_abc_1abc_apply]
  refine Eq.trans (concatenate_apply_piece (1 : Fin 3) _ _ (ix3 r (⟨3, by decide⟩ : Fin 16) d) 3 ?_ S256x1x64
    (shapeCast S256x1x64 h3 shapeCasts_S256x64_S256x1x64) ?_ rfl 3 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 4 reads the value given for that head. -/
theorem pay5_apply_4 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨4, by decide⟩ : Fin 16) d) = h4 (ix2 r d) := by
  unfold k1_pay5
  rw [shapeCast_abc_1abc_apply]
  refine Eq.trans (concatenate_apply_piece (1 : Fin 3) _ _ (ix3 r (⟨4, by decide⟩ : Fin 16) d) 4 ?_ S256x1x64
    (shapeCast S256x1x64 h4 shapeCasts_S256x64_S256x1x64) ?_ rfl 4 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 5 reads the value given for that head. -/
theorem pay5_apply_5 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨5, by decide⟩ : Fin 16) d) = h5 (ix2 r d) := by
  unfold k1_pay5
  rw [shapeCast_abc_1abc_apply]
  refine Eq.trans (concatenate_apply_piece (1 : Fin 3) _ _ (ix3 r (⟨5, by decide⟩ : Fin 16) d) 5 ?_ S256x1x64
    (shapeCast S256x1x64 h5 shapeCasts_S256x64_S256x1x64) ?_ rfl 5 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 6 reads the value given for that head. -/
theorem pay5_apply_6 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨6, by decide⟩ : Fin 16) d) = h6 (ix2 r d) := by
  unfold k1_pay5
  rw [shapeCast_abc_1abc_apply]
  refine Eq.trans (concatenate_apply_piece (1 : Fin 3) _ _ (ix3 r (⟨6, by decide⟩ : Fin 16) d) 6 ?_ S256x1x64
    (shapeCast S256x1x64 h6 shapeCasts_S256x64_S256x1x64) ?_ rfl 6 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 7 reads the value given for that head. -/
theorem pay5_apply_7 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨7, by decide⟩ : Fin 16) d) = h7 (ix2 r d) := by
  unfold k1_pay5
  rw [shapeCast_abc_1abc_apply]
  refine Eq.trans (concatenate_apply_piece (1 : Fin 3) _ _ (ix3 r (⟨7, by decide⟩ : Fin 16) d) 7 ?_ S256x1x64
    (shapeCast S256x1x64 h7 shapeCasts_S256x64_S256x1x64) ?_ rfl 7 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 8 reads the value given for that head. -/
theorem pay5_apply_8 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨8, by decide⟩ : Fin 16) d) = h8 (ix2 r d) := by
  unfold k1_pay5
  rw [shapeCast_abc_1abc_apply]
  refine Eq.trans (concatenate_apply_piece (1 : Fin 3) _ _ (ix3 r (⟨8, by decide⟩ : Fin 16) d) 8 ?_ S256x1x64
    (shapeCast S256x1x64 h8 shapeCasts_S256x64_S256x1x64) ?_ rfl 8 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 9 reads the value given for that head. -/
theorem pay5_apply_9 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨9, by decide⟩ : Fin 16) d) = h9 (ix2 r d) := by
  unfold k1_pay5
  rw [shapeCast_abc_1abc_apply]
  refine Eq.trans (concatenate_apply_piece (1 : Fin 3) _ _ (ix3 r (⟨9, by decide⟩ : Fin 16) d) 9 ?_ S256x1x64
    (shapeCast S256x1x64 h9 shapeCasts_S256x64_S256x1x64) ?_ rfl 9 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 10 reads the value given for that head. -/
theorem pay5_apply_10 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨10, by decide⟩ : Fin 16) d) = h10 (ix2 r d) := by
  unfold k1_pay5
  rw [shapeCast_abc_1abc_apply]
  refine Eq.trans (concatenate_apply_piece (1 : Fin 3) _ _ (ix3 r (⟨10, by decide⟩ : Fin 16) d) 10 ?_ S256x1x64
    (shapeCast S256x1x64 h10 shapeCasts_S256x64_S256x1x64) ?_ rfl 10 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 11 reads the value given for that head. -/
theorem pay5_apply_11 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨11, by decide⟩ : Fin 16) d) = h11 (ix2 r d) := by
  unfold k1_pay5
  rw [shapeCast_abc_1abc_apply]
  refine Eq.trans (concatenate_apply_piece (1 : Fin 3) _ _ (ix3 r (⟨11, by decide⟩ : Fin 16) d) 11 ?_ S256x1x64
    (shapeCast S256x1x64 h11 shapeCasts_S256x64_S256x1x64) ?_ rfl 11 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 12 reads the value given for that head. -/
theorem pay5_apply_12 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨12, by decide⟩ : Fin 16) d) = h12 (ix2 r d) := by
  unfold k1_pay5
  rw [shapeCast_abc_1abc_apply]
  refine Eq.trans (concatenate_apply_piece (1 : Fin 3) _ _ (ix3 r (⟨12, by decide⟩ : Fin 16) d) 12 ?_ S256x1x64
    (shapeCast S256x1x64 h12 shapeCasts_S256x64_S256x1x64) ?_ rfl 12 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 13 reads the value given for that head. -/
theorem pay5_apply_13 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨13, by decide⟩ : Fin 16) d) = h13 (ix2 r d) := by
  unfold k1_pay5
  rw [shapeCast_abc_1abc_apply]
  refine Eq.trans (concatenate_apply_piece (1 : Fin 3) _ _ (ix3 r (⟨13, by decide⟩ : Fin 16) d) 13 ?_ S256x1x64
    (shapeCast S256x1x64 h13 shapeCasts_S256x64_S256x1x64) ?_ rfl 13 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]

/-- The assembled block at head 14 reads the (narrowed) value given for that head. -/
theorem pay5_apply_14 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨14, by decide⟩ : Fin 16) d) = h14 (ix2 r d) := by
  unfold k1_pay5
  rw [shapeCast_abc_1abc_apply]
  refine Eq.trans (concatenate_apply_piece (1 : Fin 3) _ _ (ix3 r (⟨14, by decide⟩ : Fin 16) d) 14 ?_ S256x1x64
    (shapeCast S256x1x64 (truncf .bf16 h14 bitsLt_bf16_f32) shapeCasts_S256x64_S256x1x64) ?_ rfl 14 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]
    rfl

/-- The assembled block at head 15 reads the (narrowed) value given for that head. -/
theorem pay5_apply_15 (h0 h1 h2 h3 h4 h5 h6 h7 h8 h9 h10 h11 h12 h13 : FVec Ideal S256x64 .bf16) (h14 h15 : FVec Ideal S256x64 .f32) (r : Fin 256) (d : Fin 64) :
    k1_pay5 (F := Ideal) h0 h1 h2 h3 h4 h5 h6 h7 h8 h9 h10 h11 h12 h13 h14 h15 (ix4 (0 : Fin 1) r (⟨15, by decide⟩ : Fin 16) d) = h15 (ix2 r d) := by
  unfold k1_pay5
  rw [shapeCast_abc_1abc_apply]
  refine Eq.trans (concatenate_apply_piece (1 : Fin 3) _ _ (ix3 r (⟨15, by decide⟩ : Fin 16) d) 15 ?_ S256x1x64
    (shapeCast S256x1x64 (truncf .bf16 h15 bitsLt_bf16_f32) shapeCasts_S256x64_S256x1x64) ?_ rfl 15 ?_
    (ix3 r (0 : Fin 1) d) (fun b hb => ?_) rfl) ?_
  · show (_ : ℕ) < 16; omega
  · rfl
  · simp
  · match b with
    | ⟨0, _⟩ => rfl
    | ⟨1, _⟩ => exact absurd rfl hb
    | ⟨2, _⟩ => rfl
  · rw [shapeCast_ab_a1b_apply]
    rfl

end Cert.KernelIdeal.Val

end
-- ==== Proof.KV.HeadVal.lean ====
/-
  One attention head of the block, as the body computes it, and its value index by index at the ideal values.
  For head `o`: the scores `s(r,j) = Σ_d q(r,o,d)·k(j,o,d)`; the weights `p(r,j) = exp (s(r,j) − max_j s(r,j))`, the maximum
  taken from `−∞`; the row sums `l(r) = Σ_j p(r,j)`; and the head's result `(Σ_j p(r,j)·v(j,o,d)) / l(r)`.
  The body spells these steps once per head, in groups that differ from head to head; each step is named here once,
  over any operands, so that every head's group is one of these by unfolding.
-/
import proofs.«118845_j14903536517723_2_alg».proof.Proof.Gen.KernelIdeal.Skeleton
import proofs.«118845_j14903536517723_2_alg».proof.Proof.KV.Basic
import proofs.«118845_j14903536517723_2_alg».proof.Proof.KV.Layout
import proofs.«118845_j14903536517723_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx Idealize.SL.Sem

/-! ## The steps -/

/-- Head `o` of a `[n, 16, 64]` block of keys or values, as an `[n, 64]` matrix. -/
def headK (o : Nat) (hk : S2048x16x64.Slices ![0, o, 0] S2048x1x64) (k3 : FVec Ideal S2048x16x64 .bf16) : FVec Ideal S2048x64 .bf16 :=
  shapeCast S2048x64 (extractStridedSlice S2048x1x64 ![0, o, 0] k3 hk) shapeCasts_S2048x1x64_S2048x64

/-- Head `o` of the `[256, 16, 64]` block of queries, as a `[256, 64]` matrix. -/
def headQ (o : Nat) (hq : S256x16x64.Slices ![0, o, 0] S256x1x64) (q3 : FVec Ideal S256x16x64 .bf16) : FVec Ideal S256x64 .bf16 :=
  shapeCast S256x64 (extractStridedSlice S256x1x64 ![0, o, 0] q3 hq) shapeCasts_S256x1x64_S256x64

/-- The scores: queries times keys, contracted over the 64 lanes, onto zero. -/
def scores (qh : FVec Ideal S256x64 .bf16) (kh : FVec Ideal S2048x64 .bf16) : FVec Ideal S256x2048 .f32 :=
  matmul dot_S256x64_S2048x64_S256x2048_1_1_0_0_n_n none qh kh (constant (F := Ideal) S256x2048 .f32 0x00000000#32)

/-- The unnormalised weights: `exp` of the scores less their row maximum, taken from `−∞`. -/
def weights (s : FVec Ideal S256x2048 .f32) : FVec Ideal S256x2048 .f32 :=
  exp (subf s (broadcastTo S256x2048
    (shapeCast S256x1 (multiReduction (F := Ideal) .maximumf [1] S256 s 0xFF800000#32 reduces_S256x2048_S256 (.inl rfl) rfl) shapeCasts_S256_S256x1)
    broadcasts_S256x1_S256x2048))

/-- The weights' row sums, from zero, as a column. -/
def rowsum (p : FVec Ideal S256x2048 .f32) : FVec Ideal S256x1 .f32 :=
  shapeCast S256x1 (multiReduction (F := Ideal) .add [1] S256 p 0x00000000#32 reduces_S256x2048_S256 (.inl rfl) rfl) shapeCasts_S256_S256x1

/-- The weights times the values, contracted over the 2048 keys, onto zero. -/
def weighted (p : FVec Ideal S256x2048 .f32) (vh : FVec Ideal S2048x64 .bf16) : FVec Ideal S256x64 .f32 :=
  matmul dot_S256x2048_S2048x64_S256x64_1_0_0_1_n_n none (truncf .bf16 p bitsLt_bf16_f32) vh (constant (F := Ideal) S256x64 .f32 0x00000000#32)

/-- The weighted values divided by the row sums. -/
def normed (u : FVec Ideal S256x64 .f32) (l : FVec Ideal S256x1 .f32) : FVec Ideal S256x64 .f32 :=
  divf u (broadcastTo S256x64 l broadcasts_S256x1_S256x64)

/-- Head `o`'s result from the three blocks. -/
def headVal (o : Nat) (hq : S256x16x64.Slices ![0, o, 0] S256x1x64) (hk : S2048x16x64.Slices ![0, o, 0] S2048x1x64)
    (q3 : FVec Ideal S256x16x64 .bf16) (k3 v3 : FVec Ideal S2048x16x64 .bf16) : FVec Ideal S256x64 .f32 :=
  normed (weighted (weights (scores (headQ o hq q3) (headK o hk k3))) (headK o hk v3))
    (rowsum (weights (scores (headQ o hq q3) (headK o hk k3))))

/-! ## Each step at an index -/

theorem headK_apply (o : Nat) (ho : o < 16) (hk : S2048x16x64.Slices ![0, o, 0] S2048x1x64) (k3 : FVec Ideal S2048x16x64 .bf16)
    (j : Fin 2048) (d : Fin 64) : headK o hk k3 (ix2 j d) = k3 (ix3 j (⟨o, ho⟩ : Fin 16) d) := by
  unfold headK
  rw [shapeCast_a1b_ab_apply, slice3_axis1_apply o k3 hk j (0 : Fin 1) d (⟨o, ho⟩ : Fin 16) rfl]

theorem headQ_apply (o : Nat) (ho : o < 16) (hq : S256x16x64.Slices ![0, o, 0] S256x1x64) (q3 : FVec Ideal S256x16x64 .bf16)
    (r : Fin 256) (d : Fin 64) : headQ o hq q3 (ix2 r d) = q3 (ix3 r (⟨o, ho⟩ : Fin 16) d) := by
  unfold headQ
  rw [shapeCast_a1b_ab_apply, slice3_axis1_apply o q3 hq r (0 : Fin 1) d (⟨o, ho⟩ : Fin 16) rfl]

/-! The operand indices of the two products, coordinate by coordinate. -/
theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q
theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- A score: row `r` of the queries against row `j` of the keys. -/
theorem scores_apply (qh : FVec Ideal S256x64 .bf16) (kh : FVec Ideal S2048x64 .bf16) (r : Fin 256) (j : Fin 2048) :
    scores qh kh (ix2 r j) = ∑ d : Fin 64, qh (ix2 r d) * kh (ix2 j d) := by
  unfold scores
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r j) ((contrEquiv1 dot_S256x64_S2048x64_S256x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r j) ((contrEquiv1 dot_S256x64_S2048x64_S256x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-- A weighted value: row `r` of the weights against column `d` of the values. -/
theorem weighted_apply (p : FVec Ideal S256x2048 .f32) (vh : FVec Ideal S2048x64 .bf16) (r : Fin 256) (d : Fin 64) :
    weighted p vh (ix2 r d) = ∑ j : Fin 2048, p (ix2 r j) * vh (ix2 j d) := by
  unfold weighted
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]
  rfl

/-- The word `0xFF800000` is `−∞`. -/
theorem ofBits_negInf_f32 : Ideal.ofBits .f32 0xFF800000#32 = ⊥ := by simp [Ideal.ofBits, Ideal.ieee]

/-- A fold of `max` from `⊥` over every index is the supremum. -/
theorem fold_max_bot_eq_sup {n : ℕ} (f : Fin n → EReal) : (Finset.univ : Finset (Fin n)).fold max ⊥ f = Finset.univ.sup f := rfl

/-- The index a row reduction reads: the row's index with the reduced coordinate put back. -/
theorem lift_row (r : Fin 256) (j : Fin 2048) : reduces_S256x2048_S256.lift (ix1 r) j = ix2 r j :=
  funext fun c => Fin.ext (by match c with | ⟨0, _⟩ => rfl | ⟨1, _⟩ => rfl)

/-- A weight: the softmax weight of key `j` in row `r` of the scores. -/
theorem weights_apply (s : FVec Ideal S256x2048 .f32) (r : Fin 256) (j : Fin 2048) :
    weights s (ix2 r j) = Cert.Attn.pw (fun j' => s (ix2 r j')) j := by
  unfold weights Cert.Attn.pw
  show Ideal.exp (s (ix2 r j) - _) = Ideal.exp (s (ix2 r j) - _)
  rw [broadcastTo_a1_ab_apply, shapeCast_a_a1_apply]
  refine congrArg (fun m => Ideal.exp (s (ix2 r j) - m)) ?_
  refine (Ideal.multiReduction_maximumf_single s _ reduces_S256x2048_S256 _ _ (ix1 r)).trans ?_
  show (Finset.univ : Finset (Fin 2048)).fold max (Ideal.ofBits .f32 0xFF800000#32)
    (fun j' : Fin 2048 => s (reduces_S256x2048_S256.lift (ix1 r) j')) = _
  rw [ofBits_negInf_f32]
  refine (fold_max_bot_eq_sup (n := 2048) _).trans ?_
  refine congrArg (Finset.univ.sup) (funext fun j' => ?_)
  rw [lift_row]

/-- A row sum, read at the column's one coordinate. -/
theorem rowsum_apply (p : FVec Ideal S256x2048 .f32) (r : Fin 256) (u : Fin 1) :
    rowsum p (ix2 r u) = ∑ j : Fin 2048, p (ix2 r j) := by
  unfold rowsum
  rw [shapeCast_a_a1_apply]
  refine (Ideal.multiReduction_add_single p _ reduces_S256x2048_S256 _ _ (ix1 r)).trans ?_
  show ∑ j : Fin 2048, p (reduces_S256x2048_S256.lift (ix1 r) j) = _
  refine Finset.sum_congr rfl fun j _ => ?_
  rw [lift_row]

/-- The quotient at `(r, d)`: the numerator there over the column's entry of row `r`. -/
theorem normed_apply (u : FVec Ideal S256x64 .f32) (l : FVec Ideal S256x1 .f32) (r : Fin 256) (d : Fin 64) :
    normed u l (ix2 r d) = Ideal.div (u (ix2 r d)) (l (ix2 r (0 : Fin 1))) := by
  unfold normed
  rw [divf_apply, broadcastTo_a1_ab_apply]

/-! ## A head at an index -/

/-- Head `o`'s result at `(r, d)`: the weighted mean of the value rows' lane `d`, the weights the softmax weights of the
    row of scores of query row `r`, normalised after the value product. -/
theorem headVal_apply (o : Nat) (ho : o < 16) (hq : S256x16x64.Slices ![0, o, 0] S256x1x64) (hk : S2048x16x64.Slices ![0, o, 0] S2048x1x64)
    (q3 : FVec Ideal S256x16x64 .bf16) (k3 v3 : FVec Ideal S2048x16x64 .bf16) (r : Fin 256) (d : Fin 64) :
    headVal o hq hk q3 k3 v3 (ix2 r d)
      = Ideal.div
          (∑ j : Fin 2048, Cert.Attn.pw (fun j' => ∑ d' : Fin 64, q3 (ix3 r (⟨o, ho⟩ : Fin 16) d') * k3 (ix3 j' (⟨o, ho⟩ : Fin 16) d')) j
              * v3 (ix3 j (⟨o, ho⟩ : Fin 16) d))
          (∑ j : Fin 2048, Cert.Attn.pw (fun j' => ∑ d' : Fin 64, q3 (ix3 r (⟨o, ho⟩ : Fin 16) d') * k3 (ix3 j' (⟨o, ho⟩ : Fin 16) d')) j) := by
  unfold headVal
  rw [normed_apply, weighted_apply, rowsum_apply]
  simp only [weights_apply, scores_apply, headQ_apply o ho, headK_apply o ho]

end Cert.KernelIdeal.Val

end
-- ==== Proof.KV.Heads.lean ====
/-
  Each of the sixteen heads' groups of steps in the body is the one head computation of `headVal` at that head's
  offset (narrowed to bf16 where the body narrows it before the heads are assembled), by unfolding; and so each head's
  value at `(r, d)` is the softmax-weighted mean of that head's value rows, in terms of the three loaded blocks.
-/
import proofs.«118845_j14903536517723_2_alg».proof.Proof.Gen.KernelIdeal.Skeleton
import proofs.«118845_j14903536517723_2_alg».proof.Proof.KV.HeadVal
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.ValueIdx Idealize.SL.Sem

/-- Head `o` of the three loaded `[1, n, 16, 64]` blocks (their leading unit axis dropped) at `(r, d)`. -/
theorem head_apply (o : Nat) (ho : o < 16) (hq : S256x16x64.Slices ![0, o, 0] S256x1x64) (hk : S2048x16x64.Slices ![0, o, 0] S2048x1x64)
    (q : Vec Ideal S1x256x16x64 .bf16) (k v : Vec Ideal S1x2048x16x64 .bf16) (r : Fin 256) (d : Fin 64) :
    headVal o hq hk (k1_pay6 (F := Ideal) q) (k1_pay7 (F := Ideal) k) (k1_pay8 (F := Ideal) v) (ix2 r d)
      = Ideal.div
          (∑ j : Fin 2048, Cert.Attn.pw (fun j' => ∑ d' : Fin 64, q (ix4 (0 : Fin 1) r (⟨o, ho⟩ : Fin 16) d') * k (ix4 (0 : Fin 1) j' (⟨o, ho⟩ : Fin 16) d')) j
              * v (ix4 (0 : Fin 1) j (⟨o, ho⟩ : Fin 16) d))
          (∑ j : Fin 2048, Cert.Attn.pw (fun j' => ∑ d' : Fin 64, q (ix4 (0 : Fin 1) r (⟨o, ho⟩ : Fin 16) d') * k (ix4 (0 : Fin 1) j' (⟨o, ho⟩ : Fin 16) d')) j) := by
  rw [headVal_apply o ho]
  unfold k1_pay6 k1_pay7 k1_pay8
  simp only [shapeCast_1abc_abc_apply]

/-- Head 0's group of steps is the head computation at offset 0, narrowed. -/
theorem head0_eq (q : Vec Ideal S1x256x16x64 .bf16) (k v : Vec Ideal S1x2048x16x64 .bf16) :
    k1_pay9 (F := Ideal) q k v = truncf .bf16 (headVal 0 slices_S256x16x64_o0_0_0_S256x1x64 slices_S2048x16x64_o0_0_0_S2048x1x64 (k1_pay6 q) (k1_pay7 k) (k1_pay8 v)) bitsLt_bf16_f32 := rfl

/-- Head 1's group of steps is the head computation at offset 1, narrowed. -/
theorem head1_eq (q : Vec Ideal S1x256x16x64 .bf16) (k v : Vec Ideal S1x2048x16x64 .bf16) :
    k1_pay13 (F := Ideal) (k1_pay10 v) (k1_pay11 q k) (k1_pay12 q k) = truncf .bf16 (headVal 1 slices_S256x16x64_o0_1_0_S256x1x64 slices_S2048x16x64_o0_1_0_S2048x1x64 (k1_pay6 q) (k1_pay7 k) (k1_pay8 v)) bitsLt_bf16_f32 := rfl

/-- Head 2's group of steps is the head computation at offset 2, narrowed. -/
theorem head2_eq (q3 : FVec Ideal S256x16x64 .bf16) (k3 v3 : FVec Ideal S2048x16x64 .bf16) :
    k1_pay14 (F := Ideal) q3 k3 v3 = truncf .bf16 (headVal 2 slices_S256x16x64_o0_2_0_S256x1x64 slices_S2048x16x64_o0_2_0_S2048x1x64 q3 k3 v3) bitsLt_bf16_f32 := rfl

/-- Head 3's group of steps is the head computation at offset 3, narrowed. -/
theorem head3_eq (q3 : FVec Ideal S256x16x64 .bf16) (k3 v3 : FVec Ideal S2048x16x64 .bf16) :
    k1_pay15 (F := Ideal) q3 k3 v3 = truncf .bf16 (headVal 3 slices_S256x16x64_o0_3_0_S256x1x64 slices_S2048x16x64_o0_3_0_S2048x1x64 q3 k3 v3) bitsLt_bf16_f32 := rfl

/-- Head 4's group of steps is the head computation at offset 4, narrowed. -/
theorem head4_eq (q3 : FVec Ideal S256x16x64 .bf16) (k3 v3 : FVec Ideal S2048x16x64 .bf16) :
    k1_pay18 (F := Ideal) (k1_pay16 v3) (k1_pay17 q3 k3) = truncf .bf16 (headVal 4 slices_S256x16x64_o0_4_0_S256x1x64 slices_S2048x16x64_o0_4_0_S2048x1x64 q3 k3 v3) bitsLt_bf16_f32 := rfl

/-- Head 5's group of steps is the head computation at offset 5, narrowed. -/
theorem head5_eq (q3 : FVec Ideal S256x16x64 .bf16) (k3 v3 : FVec Ideal S2048x16x64 .bf16) :
    k1_pay19 (F := Ideal) q3 k3 v3 = truncf .bf16 (headVal 5 slices_S256x16x64_o0_5_0_S256x1x64 slices_S2048x16x64_o0_5_0_S2048x1x64 q3 k3 v3) bitsLt_bf16_f32 := rfl

/-- Head 6's group of steps is the head computation at offset 6, narrowed. -/
theorem head6_eq (q3 : FVec Ideal S256x16x64 .bf16) (k3 v3 : FVec Ideal S2048x16x64 .bf16) :
    k1_pay21 (F := Ideal) (k1_pay20 q3 k3 v3) = truncf .bf16 (headVal 6 slices_S256x16x64_o0_6_0_S256x1x64 slices_S2048x16x64_o0_6_0_S2048x1x64 q3 k3 v3) bitsLt_bf16_f32 := rfl

/-- Head 7's group of steps is the head computation at offset 7, narrowed. -/
theorem head7_eq (q3 : FVec Ideal S256x16x64 .bf16) (k3 v3 : FVec Ideal S2048x16x64 .bf16) :
    k1_pay22 (F := Ideal) q3 k3 v3 = truncf .bf16 (headVal 7 slices_S256x16x64_o0_7_0_S256x1x64 slices_S2048x16x64_o0_7_0_S2048x1x64 q3 k3 v3) bitsLt_bf16_f32 := rfl

/-- Head 8's group of steps is the head computation at offset 8, narrowed. -/
theorem head8_eq (q3 : FVec Ideal S256x16x64 .bf16) (k3 v3 : FVec Ideal S2048x16x64 .bf16) :
    k1_pay23 (F := Ideal) q3 k3 v3 = truncf .bf16 (headVal 8 slices_S256x16x64_o0_8_0_S256x1x64 slices_S2048x16x64_o0_8_0_S2048x1x64 q3 k3 v3) bitsLt_bf16_f32 := rfl

/-- Head 9's group of steps is the head computation at offset 9, narrowed. -/
theorem head9_eq (q3 : FVec Ideal S256x16x64 .bf16) (k3 v3 : FVec Ideal S2048x16x64 .bf16) :
    k1_pay26 (F := Ideal) (k1_pay24 v3) (k1_pay25 q3 k3) = truncf .bf16 (headVal 9 slices_S256x16x64_o0_9_0_S256x1x64 slices_S2048x16x64_o0_9_0_S2048x1x64 q3 k3 v3) bitsLt_bf16_f32 := rfl

/-- Head 10's group of steps is the head computation at offset 10, narrowed. -/
theorem head10_eq (q3 : FVec Ideal S256x16x64 .bf16) (k3 v3 : FVec Ideal S2048x16x64 .bf16) :
    k1_pay27 (F := Ideal) q3 k3 v3 = truncf .bf16 (headVal 10 slices_S256x16x64_o0_10_0_S256x1x64 slices_S2048x16x64_o0_10_0_S2048x1x64 q3 k3 v3) bitsLt_bf16_f32 := rfl

/-- Head 11's group of steps is the head computation at offset 11, narrowed. -/
theorem head11_eq (q3 : FVec Ideal S256x16x64 .bf16) (k3 v3 : FVec Ideal S2048x16x64 .bf16) :
    k1_pay28 (F := Ideal) q3 k3 v3 = truncf .bf16 (headVal 11 slices_S256x16x64_o0_11_0_S256x1x64 slices_S2048x16x64_o0_11_0_S2048x1x64 q3 k3 v3) bitsLt_bf16_f32 := rfl

/-- Head 12's group of steps is the head computation at offset 12, narrowed. -/
theorem head12_eq (q3 : FVec Ideal S256x16x64 .bf16) (k3 v3 : FVec Ideal S2048x16x64 .bf16) :
    k1_pay31 (F := Ideal) v3 (k1_pay29 q3) (k1_pay30 k3) = truncf .bf16 (headVal 12 slices_S256x16x64_o0_12_0_S256x1x64 slices_S2048x16x64_o0_12_0_S2048x1x64 q3 k3 v3) bitsLt_bf16_f32 := rfl

/-- Head 13's group of steps is the head computation at offset 13, narrowed. -/
theorem head13_eq (q3 : FVec Ideal S256x16x64 .bf16) (k3 v3 : FVec Ideal S2048x16x64 .bf16) :
    k1_pay32 (F := Ideal) q3 k3 v3 = truncf .bf16 (headVal 13 slices_S256x16x64_o0_13_0_S256x1x64 slices_S2048x16x64_o0_13_0_S2048x1x64 q3 k3 v3) bitsLt_bf16_f32 := rfl

/-- Head 14's group of steps is the head computation at offset 14. -/
theorem head14_eq (q3 : FVec Ideal S256x16x64 .bf16) (k3 v3 : FVec Ideal S2048x16x64 .bf16) :
    k1_pay1 (F := Ideal) (k1_pay33 v3) (k1_pay35 q3 k3) (k1_pay36 q3 k3) = headVal 14 slices_S256x16x64_o0_14_0_S256x1x64 slices_S2048x16x64_o0_14_0_S2048x1x64 q3 k3 v3 := rfl

/-- Head 15's group of steps is the head computation at offset 15. -/
theorem head15_eq (q3 : FVec Ideal S256x16x64 .bf16) (k3 v3 : FVec Ideal S2048x16x64 .bf16) :
    k1_pay4 (F := Ideal) (k1_pay2 q3 k3) (k1_pay3 v3 (k1_pay2 q3 k3)) = headVal 15 slices_S256x16x64_o0_15_0_S256x1x64 slices_S2048x16x64_o0_15_0_S2048x1x64 q3 k3 v3 := rfl

/-- Head 0 at `(r, d)`. -/
theorem head0_apply (q : Vec Ideal S1x256x16x64 .bf16) (k v : Vec Ideal S1x2048x16x64 .bf16) (r : Fin 256) (d : Fin 64) :
    k1_pay9 (F := Ideal) q k v (ix2 r d)
      = Ideal.div
          (∑ j : Fin 2048, Cert.Attn.pw (fun j' => ∑ d' : Fin 64, q (ix4 (0 : Fin 1) r (⟨0, by decide⟩ : Fin 16) d') * k (ix4 (0 : Fin 1) j' (⟨0, by decide⟩ : Fin 16) d')) j
              * v (ix4 (0 : Fin 1) j (⟨0, by decide⟩ : Fin 16) d))
          (∑ j : Fin 2048, Cert.Attn.pw (fun j' => ∑ d' : Fin 64, q (ix4 (0 : Fin 1) r (⟨0, by decide⟩ : Fin 16) d') * k (ix4 (0 : Fin 1) j' (⟨0, by decide⟩ : Fin 16) d')) j) :=
  (congrFun (head0_eq q k v) (ix2 r d)).trans ((truncf_apply (ψ := .bf16) _ bitsLt_bf16_f32 _).trans (head_apply 0 (by decide) _ _ q k v r d))

/-- Head 1 at `(r, d)`. -/
theorem head1_apply (q : Vec Ideal S1x256x16x64 .bf16) (k v : Vec Ideal S1x2048x16x64 .bf16) (r : Fin 256) (d : Fin 64) :
    k1_pay13 (F := Ideal) (k1_pay10 v) (k1_pay11 q k) (k1_pay12 q k) (ix2 r d)
      = Ideal.div
          (∑ j : Fin 2048, Cert.Attn.pw (fun j' => ∑ d' : Fin 64, q (ix4 (0 : Fin 1) r (⟨1, by decide⟩ : Fin 16) d') * k (ix4 (0 : Fin 1) j' (⟨1, by decide⟩ : Fin 16) d')) j
              * v (ix4 (0 : Fin 1) j (⟨1, by decide⟩ : Fin 16) d))
          (∑ j : Fin 2048, Cert.Attn.pw (fun j' => ∑ d' : Fin 64, q (ix4 (0 : Fin 1) r (⟨1, by decide⟩ : Fin 16) d') * k (ix4 (0 : Fin 1) j' (⟨1, by decide⟩ : Fin 16) d')) j) :=
  (congrFun (head1_eq q k v) (ix2 r d)).trans ((truncf_apply (ψ := .bf16) _ bitsLt_bf16_f32 _).trans (head_apply 1 (by decide) _ _ q k v r d))

/-- Head 2 at `(r, d)`. -/
theorem head2_apply (q : Vec Ideal S1x256x16x64 .bf16) (k v : Vec Ideal S1x2048x16x64 .bf16) (r : Fin 256) (d : Fin 64) :
    k1_pay14 (F := Ideal) (k1_pay6 q) (k1_pay7 k) (k1_pay8 v) (ix2 r d)
      = Ideal.div
          (∑ j : Fin 2048, Cert.Attn.pw (fun j' => ∑ d' : Fin 64, q (ix4 (0 : Fin 1) r (⟨2, by decide⟩ : Fin 16) d') * k (ix4 (0 : Fin 1) j' (⟨2, by decide⟩ : Fin 16) d')) j
              * v (ix4 (0 : Fin 1) j (⟨2, by decide⟩ : Fin 16) d))
          (∑ j : Fin 2048, Cert.Attn.pw (fun j' => ∑ d' : Fin 64, q (ix4 (0 : Fin 1) r (⟨2, by decide⟩ : Fin 16) d') * k (ix4 (0 : Fin 1) j' (⟨2, by decide⟩ : Fin 16) d')) j) :=
  (congrFun (head2_eq (k1_pay6 q) (k1_pay7 k) (k1_pay8 v)) (ix2 r d)).trans ((truncf_apply (ψ := .bf16) _ bitsLt_bf16_f32 _).trans (head_apply 2 (by decide) _ _ q k v r d))

/-- Head 3 at `(r, d)`. -/
theorem head3_apply (q : Vec Ideal S1x256x16x64 .bf16) (k v : Vec Ideal S1x2048x16x64 .bf16) (r : Fin 256) (d : Fin 64) :
    k1_pay15 (F := Ideal) (k1_pay6 q) (k1_pay7 k) (k1_pay8 v) (ix2 r d)
      = Ideal.div
          (∑ j : Fin 2048, Cert.Attn.pw (fun j' => ∑ d' : Fin 64, q (ix4 (0 : Fin 1) r (⟨3, by decide⟩ : Fin 16) d') * k (ix4 (0 : Fin 1) j' (⟨3, by decide⟩ : Fin 16) d')) j
              * v (ix4 (0 : Fin 1) j (⟨3, by decide⟩ : Fin 16) d))
          (∑ j : Fin 2048, Cert.Attn.pw (fun j' => ∑ d' : Fin 64, q (ix4 (0 : Fin 1) r (⟨3, by decide⟩ : Fin 16) d') * k (ix4 (0 : Fin 1) j' (⟨3, by decide⟩ : Fin 16) d')) j) :=
  (congrFun (head3_eq (k1_pay6 q) (k1_pay7 k) (k1_pay8 v)) (ix2 r d)).trans ((truncf_apply (ψ := .bf16) _ bitsLt_bf16_f32 _).trans (head_apply 3 (by decide) _ _ q k v r d))

/-- Head 4 at `(r, d)`. -/
theorem head4_apply (q : Vec Ideal S1x256x16x64 .bf16) (k v : Vec Ideal S1x2048x16x64 .bf16) (r : Fin 256) (d : Fin 64) :
    k1_pay18 (F := Ideal) (k1_pay16 (k1_pay8 v)) (k1_pay17 (k1_pay6 q) (k1_pay7 k)) (ix2 r d)
      = Ideal.div
          (∑ j : Fin 2048, Cert.Attn.pw (fun j' => ∑ d' : Fin 64, q (ix4 (0 : Fin 1) r (⟨4, by decide⟩ : Fin 16) d') * k (ix4 (0 : Fin 1) j' (⟨4, by decide⟩ : Fin 16) d')) j
              * v (ix4 (0 : Fin 1) j (⟨4, by decide⟩ : Fin 16) d))
          (∑ j : Fin 2048, Cert.Attn.pw (fun j' => ∑ d' : Fin 64, q (ix4 (0 : Fin 1) r (⟨4, by decide⟩ : Fin 16) d') * k (ix4 (0 : Fin 1) j' (⟨4, by decide⟩ : Fin 16) d')) j) :=
  (congrFun (head4_eq (k1_pay6 q) (k1_pay7 k) (k1_pay8 v)) (ix2 r d)).trans ((truncf_apply (ψ := .bf16) _ bitsLt_bf16_f32 _).trans (head_apply 4 (by decide) _ _ q k v r d))

/-- Head 5 at `(r, d)`. -/
theorem head5_apply (q : Vec Ideal S1x256x16x64 .bf16) (k v : Vec Ideal S1x2048x16x64 .bf16) (r : Fin 256) (d : Fin 64) :
    k1_pay19 (F := Ideal) (k1_pay6 q) (k1_pay7 k) (k1_pay8 v) (ix2 r d)
      = Ideal.div
          (∑ j : Fin 2048, Cert.Attn.pw (fun j' => ∑ d' : Fin 64, q (ix4 (0 : Fin 1) r (⟨5, by decide⟩ : Fin 16) d') * k (ix4 (0 : Fin 1) j' (⟨5, by decide⟩ : Fin 16) d')) j
              * v (ix4 (0 : Fin 1) j (⟨5, by decide⟩ : Fin 16) d))
          (∑ j : Fin 2048, Cert.Attn.pw (fun j' => ∑ d' : Fin 64, q (ix4 (0 : Fin 1) r (⟨5, by decide⟩ : Fin 16) d') * k (ix4 (0 : Fin 1) j' (⟨5, by decide⟩ : Fin 16) d')) j) :=
  (congrFun (head5_eq (k1_pay6 q) (k1_pay7 k) (k1_pay8 v)) (ix2 r d)).trans ((truncf_apply (ψ := .bf16) _ bitsLt_bf16_f32 _).trans (head_apply 5 (by decide) _ _ q k v r d))

/-- Head 6 at `(r, d)`. -/
theorem head6_apply (q : Vec Ideal S1x256x16x64 .bf16) (k v : Vec Ideal S1x2048x16x64 .bf16) (r : Fin 256) (d : Fin 64) :
    k1_pay21 (F := Ideal) (k1_pay20 (k1_pay6 q) (k1_pay7 k) (k1_pay8 v)) (ix2 r d)
      = Ideal.div
          (∑ j : Fin 2048, Cert.Attn.pw (fun j' => ∑ d' : Fin 64, q (ix4 (0 : Fin 1) r (⟨6, by decide⟩ : Fin 16) d') * k (ix4 (0 : Fin 1) j' (⟨6, by decide⟩ : Fin 16) d')) j
              * v (ix4 (0 : Fin 1) j (⟨6, by decide⟩ : Fin 16) d))
          (∑ j : Fin 2048, Cert.Attn.pw (fun j' => ∑ d' : Fin 64, q (ix4 (0 : Fin 1) r (⟨6, by decide⟩ : Fin 16) d') * k (ix4 (0 : Fin 1) j' (⟨6, by decide⟩ : Fin 16) d')) j) :=
  (congrFun (head6_eq (k1_pay6 q) (k1_pay7 k) (k1_pay8 v)) (ix2 r d)).trans ((truncf_apply (ψ := .bf16) _ bitsLt_bf16_f32 _).trans (head_apply 6 (by decide) _ _ q k v r d))

/-- Head 7 at `(r, d)`. -/
theorem head7_apply (q : Vec Ideal S1x256x16x64 .bf16) (k v : Vec Ideal S1x2048x16x64 .bf16) (r : Fin 256) (d : Fin 64) :
    k1_pay22 (F := Ideal) (k1_pay6 q) (k1_pay7 k) (k1_pay8 v) (ix2 r d)
      = Ideal.div
          (∑ j : Fin 2048, Cert.Attn.pw (fun j' => ∑ d' : Fin 64, q (ix4 (0 : Fin 1) r (⟨7, by decide⟩ : Fin 16) d') * k (ix4 (0 : Fin 1) j' (⟨7, by decide⟩ : Fin 16) d')) j
              * v (ix4 (0 : Fin 1) j (⟨7, by decide⟩ : Fin 16) d))
          (∑ j : Fin 2048, Cert.Attn.pw (fun j' => ∑ d' : Fin 64, q (ix4 (0 : Fin 1) r (⟨7, by decide⟩ : Fin 16) d') * k (ix4 (0 : Fin 1) j' (⟨7, by decide⟩ : Fin 16) d')) j) :=
  (congrFun (head7_eq (k1_pay6 q) (k1_pay7 k) (k1_pay8 v)) (ix2 r d)).trans ((truncf_apply (ψ := .bf16) _ bitsLt_bf16_f32 _).trans (head_apply 7 (by decide) _ _ q k v r d))

/-- Head 8 at `(r, d)`. -/
theorem head8_apply (q : Vec Ideal S1x256x16x64 .bf16) (k v : Vec Ideal S1x2048x16x64 .bf16) (r : Fin 256) (d : Fin 64) :
    k1_pay23 (F := Ideal) (k1_pay6 q) (k1_pay7 k) (k1_pay8 v) (ix2 r d)
      = Ideal.div
          (∑ j : Fin 2048, Cert.Attn.pw (fun j' => ∑ d' : Fin 64, q (ix4 (0 : Fin 1) r (⟨8, by decide⟩ : Fin 16) d') * k (ix4 (0 : Fin 1) j' (⟨8, by decide⟩ : Fin 16) d')) j
              * v (ix4 (0 : Fin 1) j (⟨8, by decide⟩ : Fin 16) d))
          (∑ j : Fin 2048, Cert.Attn.pw (fun j' => ∑ d' : Fin 64, q (ix4 (0 : Fin 1) r (⟨8, by decide⟩ : Fin 16) d') * k (ix4 (0 : Fin 1) j' (⟨8, by decide⟩ : Fin 16) d')) j) :=
  (congrFun (head8_eq (k1_pay6 q) (k1_pay7 k) (k1_pay8 v)) (ix2 r d)).trans ((truncf_apply (ψ := .bf16) _ bitsLt_bf16_f32 _).trans (head_apply 8 (by decide) _ _ q k v r d))

/-- Head 9 at `(r, d)`. -/
theorem head9_apply (q : Vec Ideal S1x256x16x64 .bf16) (k v : Vec Ideal S1x2048x16x64 .bf16) (r : Fin 256) (d : Fin 64) :
    k1_pay26 (F := Ideal) (k1_pay24 (k1_pay8 v)) (k1_pay25 (k1_pay6 q) (k1_pay7 k)) (ix2 r d)
      = Ideal.div
          (∑ j : Fin 2048, Cert.Attn.pw (fun j' => ∑ d' : Fin 64, q (ix4 (0 : Fin 1) r (⟨9, by decide⟩ : Fin 16) d') * k (ix4 (0 : Fin 1) j' (⟨9, by decide⟩ : Fin 16) d')) j
              * v (ix4 (0 : Fin 1) j (⟨9, by decide⟩ : Fin 16) d))
          (∑ j : Fin 2048, Cert.Attn.pw (fun j' => ∑ d' : Fin 64, q (ix4 (0 : Fin 1) r (⟨9, by decide⟩ : Fin 16) d') * k (ix4 (0 : Fin 1) j' (⟨9, by decide⟩ : Fin 16) d')) j) :=
  (congrFun (head9_eq (k1_pay6 q) (k1_pay7 k) (k1_pay8 v)) (ix2 r d)).trans ((truncf_apply (ψ := .bf16) _ bitsLt_bf16_f32 _).trans (head_apply 9 (by decide) _ _ q k v r d))

/-- Head 10 at `(r, d)`. -/
theorem head10_apply (q : Vec Ideal S1x256x16x64 .bf16) (k v : Vec Ideal S1x2048x16x64 .bf16) (r : Fin 256) (d : Fin 64) :
    k1_pay27 (F := Ideal) (k1_pay6 q) (k1_pay7 k) (k1_pay8 v) (ix2 r d)
      = Ideal.div
          (∑ j : Fin 2048, Cert.Attn.pw (fun j' => ∑ d' : Fin 64, q (ix4 (0 : Fin 1) r (⟨10, by decide⟩ : Fin 16) d') * k (ix4 (0 : Fin 1) j' (⟨10, by decide⟩ : Fin 16) d')) j
              * v (ix4 (0 : Fin 1) j (⟨10, by decide⟩ : Fin 16) d))
          (∑ j : Fin 2048, Cert.Attn.pw (fun j' => ∑ d' : Fin 64, q (ix4 (0 : Fin 1) r (⟨10, by decide⟩ : Fin 16) d') * k (ix4 (0 : Fin 1) j' (⟨10, by decide⟩ : Fin 16) d')) j) :=
  (congrFun (head10_eq (k1_pay6 q) (k1_pay7 k) (k1_pay8 v)) (ix2 r d)).trans ((truncf_apply (ψ := .bf16) _ bitsLt_bf16_f32 _).trans (head_apply 10 (by decide) _ _ q k v r d))

/-- Head 11 at `(r, d)`. -/
theorem head11_apply (q : Vec Ideal S1x256x16x64 .bf16) (k v : Vec Ideal S1x2048x16x64 .bf16) (r : Fin 256) (d : Fin 64) :
    k1_pay28 (F := Ideal) (k1_pay6 q) (k1_pay7 k) (k1_pay8 v) (ix2 r d)
      = Ideal.div
          (∑ j : Fin 2048, Cert.Attn.pw (fun j' => ∑ d' : Fin 64, q (ix4 (0 : Fin 1) r (⟨11, by decide⟩ : Fin 16) d') * k (ix4 (0 : Fin 1) j' (⟨11, by decide⟩ : Fin 16) d')) j
              * v (ix4 (0 : Fin 1) j (⟨11, by decide⟩ : Fin 16) d))
          (∑ j : Fin 2048, Cert.Attn.pw (fun j' => ∑ d' : Fin 64, q (ix4 (0 : Fin 1) r (⟨11, by decide⟩ : Fin 16) d') * k (ix4 (0 : Fin 1) j' (⟨11, by decide⟩ : Fin 16) d')) j) :=
  (congrFun (head11_eq (k1_pay6 q) (k1_pay7 k) (k1_pay8 v)) (ix2 r d)).trans ((truncf_apply (ψ := .bf16) _ bitsLt_bf16_f32 _).trans (head_apply 11 (by decide) _ _ q k v r d))

/-- Head 12 at `(r, d)`. -/
theorem head12_apply (q : Vec Ideal S1x256x16x64 .bf16) (k v : Vec Ideal S1x2048x16x64 .bf16) (r : Fin 256) (d : Fin 64) :
    k1_pay31 (F := Ideal) (k1_pay8 v) (k1_pay29 (k1_pay6 q)) (k1_pay30 (k1_pay7 k)) (ix2 r d)
      = Ideal.div
          (∑ j : Fin 2048, Cert.Attn.pw (fun j' => ∑ d' : Fin 64, q (ix4 (0 : Fin 1) r (⟨12, by decide⟩ : Fin 16) d') * k (ix4 (0 : Fin 1) j' (⟨12, by decide⟩ : Fin 16) d')) j
              * v (ix4 (0 : Fin 1) j (⟨12, by decide⟩ : Fin 16) d))
          (∑ j : Fin 2048, Cert.Attn.pw (fun j' => ∑ d' : Fin 64, q (ix4 (0 : Fin 1) r (⟨12, by decide⟩ : Fin 16) d') * k (ix4 (0 : Fin 1) j' (⟨12, by decide⟩ : Fin 16) d')) j) :=
  (congrFun (head12_eq (k1_pay6 q) (k1_pay7 k) (k1_pay8 v)) (ix2 r d)).trans ((truncf_apply (ψ := .bf16) _ bitsLt_bf16_f32 _).trans (head_apply 12 (by decide) _ _ q k v r d))

/-- Head 13 at `(r, d)`. -/
theorem head13_apply (q : Vec Ideal S1x256x16x64 .bf16) (k v : Vec Ideal S1x2048x16x64 .bf16) (r : Fin 256) (d : Fin 64) :
    k1_pay32 (F := Ideal) (k1_pay6 q) (k1_pay7 k) (k1_pay8 v) (ix2 r d)
      = Ideal.div
          (∑ j : Fin 2048, Cert.Attn.pw (fun j' => ∑ d' : Fin 64, q (ix4 (0 : Fin 1) r (⟨13, by decide⟩ : Fin 16) d') * k (ix4 (0 : Fin 1) j' (⟨13, by decide⟩ : Fin 16) d')) j
              * v (ix4 (0 : Fin 1) j (⟨13, by decide⟩ : Fin 16) d))
          (∑ j : Fin 2048, Cert.Attn.pw (fun j' => ∑ d' : Fin 64, q (ix4 (0 : Fin 1) r (⟨13, by decide⟩ : Fin 16) d') * k (ix4 (0 : Fin 1) j' (⟨13, by decide⟩ : Fin 16) d')) j) :=
  (congrFun (head13_eq (k1_pay6 q) (k1_pay7 k) (k1_pay8 v)) (ix2 r d)).trans ((truncf_apply (ψ := .bf16) _ bitsLt_bf16_f32 _).trans (head_apply 13 (by decide) _ _ q k v r d))

/-- Head 14 at `(r, d)`. -/
theorem head14_apply (q : Vec Ideal S1x256x16x64 .bf16) (k v : Vec Ideal S1x2048x16x64 .bf16) (r : Fin 256) (d : Fin 64) :
    k1_pay1 (F := Ideal) (k1_pay33 (k1_pay8 v)) (k1_pay35 (k1_pay6 q) (k1_pay7 k)) (k1_pay36 (k1_pay6 q) (k1_pay7 k)) (ix2 r d)
      = Ideal.div
          (∑ j : Fin 2048, Cert.Attn.pw (fun j' => ∑ d' : Fin 64, q (ix4 (0 : Fin 1) r (⟨14, by decide⟩ : Fin 16) d') * k (ix4 (0 : Fin 1) j' (⟨14, by decide⟩ : Fin 16) d')) j
              * v (ix4 (0 : Fin 1) j (⟨14, by decide⟩ : Fin 16) d))
          (∑ j : Fin 2048, Cert.Attn.pw (fun j' => ∑ d' : Fin 64, q (ix4 (0 : Fin 1) r (⟨14, by decide⟩ : Fin 16) d') * k (ix4 (0 : Fin 1) j' (⟨14, by decide⟩ : Fin 16) d')) j) :=
  (congrFun (head14_eq (k1_pay6 q) (k1_pay7 k) (k1_pay8 v)) (ix2 r d)).trans (head_apply 14 (by decide) _ _ q k v r d)

/-- Head 15 at `(r, d)`. -/
theorem head15_apply (q : Vec Ideal S1x256x16x64 .bf16) (k v : Vec Ideal S1x2048x16x64 .bf16) (r : Fin 256) (d : Fin 64) :
    k1_pay4 (F := Ideal) (k1_pay2 (k1_pay6 q) (k1_pay7 k)) (k1_pay3 (k1_pay8 v) (k1_pay2 (k1_pay6 q) (k1_pay7 k))) (ix2 r d)
      = Ideal.div
          (∑ j : Fin 2048, Cert.Attn.pw (fun j' => ∑ d' : Fin 64, q (ix4 (0 : Fin 1) r (⟨15, by decide⟩ : Fin 16) d') * k (ix4 (0 : Fin 1) j' (⟨15, by decide⟩ : Fin 16) d')) j
              * v (ix4 (0 : Fin 1) j (⟨15, by decide⟩ : Fin 16) d))
          (∑ j : Fin 2048, Cert.Attn.pw (fun j' => ∑ d' : Fin 64, q (ix4 (0 : Fin 1) r (⟨15, by decide⟩ : Fin 16) d') * k (ix4 (0 : Fin 1) j' (⟨15, by decide⟩ : Fin 16) d')) j) :=
  (congrFun (head15_eq (k1_pay6 q) (k1_pay7 k) (k1_pay8 v)) (ix2 r d)).trans (head_apply 15 (by decide) _ _ q k v r d)

end Cert.KernelIdeal.Val

end
-- ==== Proof.KV.Head.lean ====
/-
  The attention block the body leaves in its output buffer, read index by index at the ideal values: at `(0, r, h, d)`
  the softmax-weighted mean over the 2048 keys of lane `d` of head `h`'s value rows, the weights taken from the scores of
  query row `r` against head `h`'s key rows and normalised after the value product.
-/
import proofs.«118845_j14903536517723_2_alg».proof.Proof.KI.Region1
import proofs.«118845_j14903536517723_2_alg».proof.Proof.KV.Basic
import proofs.«118845_j14903536517723_2_alg».proof.Proof.KV.Concat
import proofs.«118845_j14903536517723_2_alg».proof.Proof.KV.Heads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.ValueIdx Idealize.SL.Sem

/-- The attention block at `(0, r, h, d)`. -/
theorem aOut_apply (q : Vec Ideal S1x256x16x64 .bf16) (k v : Vec Ideal S1x2048x16x64 .bf16) (r : Fin 256) (h : Fin 16) (d : Fin 64) :
    aOut (F := Ideal) q k v (ix4 (0 : Fin 1) r h d)
      = Ideal.div
          (∑ j : Fin 2048, Cert.Attn.pw (fun j' => ∑ d' : Fin 64, q (ix4 (0 : Fin 1) r h d') * k (ix4 (0 : Fin 1) j' h d')) j
              * v (ix4 (0 : Fin 1) j h d))
          (∑ j : Fin 2048, Cert.Attn.pw (fun j' => ∑ d' : Fin 64, q (ix4 (0 : Fin 1) r h d') * k (ix4 (0 : Fin 1) j' h d')) j) := by
  unfold aOut
  rw [View.canon_unit_zero zero_off4]
  simp only [View.ld_unit_zero (S := S1x256x16x64) zero_off4, View.ld_unit_zero (S := S1x2048x16x64) zero_off4]
  match h with
  | ⟨0, _⟩ => exact (pay5_apply_0 _ _ _ _ _ _ _ _ _ _ _ _ _ _ _ _ r d).trans (head0_apply q k v r d)
  | ⟨1, _⟩ => exact (pay5_apply_1 _ _ _ _ _ _ _ _ _ _ _ _ _ _ _ _ r d).trans (head1_apply q k v r d)
  | ⟨2, _⟩ => exact (pay5_apply_2 _ _ _ _ _ _ _ _ _ _ _ _ _ _ _ _ r d).trans (head2_apply q k v r d)
  | ⟨3, _⟩ => exact (pay5_apply_3 _ _ _ _ _ _ _ _ _ _ _ _ _ _ _ _ r d).trans (head3_apply q k v r d)
  | ⟨4, _⟩ => exact (pay5_apply_4 _ _ _ _ _ _ _ _ _ _ _ _ _ _ _ _ r d).trans (head4_apply q k v r d)
  | ⟨5, _⟩ => exact (pay5_apply_5 _ _ _ _ _ _ _ _ _ _ _ _ _ _ _ _ r d).trans (head5_apply q k v r d)
  | ⟨6, _⟩ => exact (pay5_apply_6 _ _ _ _ _ _ _ _ _ _ _ _ _ _ _ _ r d).trans (head6_apply q k v r d)
  | ⟨7, _⟩ => exact (pay5_apply_7 _ _ _ _ _ _ _ _ _ _ _ _ _ _ _ _ r d).trans (head7_apply q k v r d)
  | ⟨8, _⟩ => exact (pay5_apply_8 _ _ _ _ _ _ _ _ _ _ _ _ _ _ _ _ r d).trans (head8_apply q k v r d)
  | ⟨9, _⟩ => exact (pay5_apply_9 _ _ _ _ _ _ _ _ _ _ _ _ _ _ _ _ r d).trans (head9_apply q k v r d)
  | ⟨10, _⟩ => exact (pay5_apply_10 _ _ _ _ _ _ _ _ _ _ _ _ _ _ _ _ r d).trans (head10_apply q k v r d)
  | ⟨11, _⟩ => exact (pay5_apply_11 _ _ _ _ _ _ _ _ _ _ _ _ _ _ _ _ r d).trans (head11_apply q k v r d)
  | ⟨12, _⟩ => exact (pay5_apply_12 _ _ _ _ _ _ _ _ _ _ _ _ _ _ _ _ r d).trans (head12_apply q k v r d)
  | ⟨13, _⟩ => exact (pay5_apply_13 _ _ _ _ _ _ _ _ _ _ _ _ _ _ _ _ r d).trans (head13_apply q k v r d)
  | ⟨14, _⟩ => exact (pay5_apply_14 _ _ _ _ _ _ _ _ _ _ _ _ _ _ _ _ r d).trans (head14_apply q k v r d)
  | ⟨15, _⟩ => exact (pay5_apply_15 _ _ _ _ _ _ _ _ _ _ _ _ _ _ _ _ r d).trans (head15_apply q k v r d)
  | ⟨n + 16, hn⟩ => exact absurd hn (by omega)

end Cert.KernelIdeal.Val

end
-- ==== Proof.KI.Final1.lean ====
/-
  The attention array after the second pallas_call, as ONE function of the arrays the region finds: with `q`, `k`, `v`
  the three projections split into heads (batch × token × head × lane), entry (b, s, h, d) holds
  `(Σⱼ pⱼ·v[b,j,h,d]) / Σⱼ pⱼ` where `pⱼ = exp (scⱼ − max sc)` and `scⱼ = Σ_d' q[b,s,h,d']·k[b,j,h,d']`.
  Each grid point (b, block of 256 query rows) writes back the block it computed from its query rows and all the key and
  value rows of batch element b; the sixteen blocks tile the array.
-/
import proofs.«118845_j14903536517723_2_alg».proof.Proof.KI.Region1
import proofs.«118845_j14903536517723_2_alg».proof.Proof.KI.AttnDef
import proofs.«118845_j14903536517723_2_alg».proof.Proof.KV.Head
import proofs.«118845_j14903536517723_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The block indices over the grid: the queries' block moves with the output's, the keys' and values' blocks are the
    whole batch element of the output's. -/
theorem where1 : ∀ t : Fin cfg1.N, win1_0.index t = win1_3.index t
    ∧ win1_1.index t (0 : Fin 4) = win1_3.index t (0 : Fin 4) ∧ win1_1.index t (1 : Fin 4) = 0 ∧ win1_1.index t (2 : Fin 4) = 0 ∧ win1_1.index t (3 : Fin 4) = 0
    ∧ win1_2.index t = win1_1.index t
    ∧ win1_3.index t (0 : Fin 4) ≤ 1 ∧ win1_3.index t (1 : Fin 4) ≤ 7 ∧ win1_3.index t (2 : Fin 4) = 0 ∧ win1_3.index t (3 : Fin 4) = 0 :=
  (by decide +kernel : ∀ t : Fin grid1.N, _)

/-- Every (batch element, block of query rows) is some point's. -/
theorem onto1 : ∀ (q0 : Fin 2) (q1 : Fin 8), ∃ t : Fin cfg1.N, win1_3.index t = ![q0.val, q1.val, 0, 0] :=
  (by decide +kernel : ∀ (q0 : Fin 2) (q1 : Fin 8), ∃ t : Fin grid1.N, win1_3.index t = ![q0.val, q1.val, 0, 0])

/-! ## The input blocks read where the output's block says -/

theorem queries1 (c : Dev nD) (t : Fin cfg1.N) (r : Fin 256) (h : Fin 16) (d : Fin 64)
    (hb0 : win1_3.index t (0 : Fin 4) < 2) (hb1 : win1_3.index t (1 : Fin 4) * 256 + r.val < 2048) :
    blk1 V c 0 t (ix4 (0 : Fin 1) r h d) = V c main_v7 (ix4 (⟨win1_3.index t (0 : Fin 4), hb0⟩ : Fin 2) (⟨win1_3.index t (1 : Fin 4) * 256 + r.val, hb1⟩ : Fin 2048) h d) := by
  obtain ⟨e0, -, -, -, -, -, -, -, e8, e9⟩ := where1 t
  have a0 := congrFun e0 0; have a1 := congrFun e0 1; have a2 := congrFun e0 2; have a3 := congrFun e0 3
  show V c main_v7 (((cfg1.win 0).blk t).view.emb (ix4 (0 : Fin 1) r h d)) = _
  refine congrArg (V c main_v7) (funext fun a => Fin.ext ?_)
  match a with
  | ⟨0, _⟩ => show win1_0.index t (0 : Fin 4) * 1 + 1 * 0 = win1_3.index t (0 : Fin 4); omega
  | ⟨1, _⟩ => show win1_0.index t (1 : Fin 4) * 256 + 1 * r.val = win1_3.index t (1 : Fin 4) * 256 + r.val; omega
  | ⟨2, _⟩ => show win1_0.index t (2 : Fin 4) * 16 + 1 * h.val = h.val; omega
  | ⟨3, _⟩ => show win1_0.index t (3 : Fin 4) * 64 + 1 * d.val = d.val; omega

theorem keys1 (c : Dev nD) (t : Fin cfg1.N) (j : Fin 2048) (h : Fin 16) (d : Fin 64) (hb0 : win1_3.index t (0 : Fin 4) < 2) :
    blk1 V c 1 t (ix4 (0 : Fin 1) j h d) = V c main_v8 (ix4 (⟨win1_3.index t (0 : Fin 4), hb0⟩ : Fin 2) j h d) := by
  obtain ⟨-, e1, e2, e3, e4, -⟩ := where1 t
  show V c main_v8 (((cfg1.win 1).blk t).view.emb (ix4 (0 : Fin 1) j h d)) = _
  refine congrArg (V c main_v8) (funext fun a => Fin.ext ?_)
  match a with
  | ⟨0, _⟩ => show win1_1.index t (0 : Fin 4) * 1 + 1 * 0 = win1_3.index t (0 : Fin 4); omega
  | ⟨1, _⟩ => show win1_1.index t (1 : Fin 4) * 2048 + 1 * j.val = j.val; omega
  | ⟨2, _⟩ => show win1_1.index t (2 : Fin 4) * 16 + 1 * h.val = h.val; omega
  | ⟨3, _⟩ => show win1_1.index t (3 : Fin 4) * 64 + 1 * d.val = d.val; omega

theorem values1 (c : Dev nD) (t : Fin cfg1.N) (j : Fin 2048) (h : Fin 16) (d : Fin 64) (hb0 : win1_3.index t (0 : Fin 4) < 2) :
    blk1 V c 2 t (ix4 (0 : Fin 1) j h d) = V c main_v9 (ix4 (⟨win1_3.index t (0 : Fin 4), hb0⟩ : Fin 2) j h d) := by
  obtain ⟨-, e1, e2, e3, e4, e5, -⟩ := where1 t
  have a0 := congrFun e5 0; have a1 := congrFun e5 1; have a2 := congrFun e5 2; have a3 := congrFun e5 3
  show V c main_v9 (((cfg1.win 2).blk t).view.emb (ix4 (0 : Fin 1) j h d)) = _
  refine congrArg (V c main_v9) (funext fun a => Fin.ext ?_)
  match a with
  | ⟨0, _⟩ => show win1_2.index t (0 : Fin 4) * 1 + 1 * 0 = win1_3.index t (0 : Fin 4); omega
  | ⟨1, _⟩ => show win1_2.index t (1 : Fin 4) * 2048 + 1 * j.val = j.val; omega
  | ⟨2, _⟩ => show win1_2.index t (2 : Fin 4) * 16 + 1 * h.val = h.val; omega
  | ⟨3, _⟩ => show win1_2.index t (3 : Fin 4) * 64 + 1 * d.val = d.val; omega

/-! ## What each point writes back, and the cover -/

/-- What point `t` writes back is block `t` of `attnAll`. -/
theorem flushed1 (c : Dev nD) (t : Fin cfg1.N) :
    (dat1 V c).flushed 3 t = ((cfg1.win 3).blk t).view.read (Elt Ideal) (attnAll V c) := by
  show (cfg1.win 3).cut (grid1.coords t) ((dat1 V c).after 3 t) = _
  rw [after1_3]
  obtain ⟨-, -, -, -, -, -, e6, e7, e8, e9⟩ := where1 t
  funext y
  obtain ⟨z, r, h, d, rfl⟩ : ∃ (z : Fin 1) (r : Fin 256) (h : Fin 16) (d : Fin 64), y = ix4 z r h d := ⟨y 0, y 1, y 2, y 3, eq_ix4 y⟩
  obtain rfl : z = 0 := Subsingleton.elim _ _
  show aOut (blk1 V c 0 t) (blk1 V c 1 t) (blk1 V c 2 t) (ix4 (0 : Fin 1) r h d) = attnAll V c (((cfg1.win 3).blk t).view.emb (ix4 (0 : Fin 1) r h d))
  refine (aOut_apply (blk1 V c 0 t) (blk1 V c 1 t) (blk1 V c 2 t) r h d).trans ?_
  have hb0 : win1_3.index t (0 : Fin 4) < 2 := by omega
  have hb1 : win1_3.index t (1 : Fin 4) * 256 + r.val < 2048 := by have := r.isLt; omega
  have h0 : (⟨((((cfg1.win 3).blk t).view.emb (ix4 (0 : Fin 1) r h d)) 0).val, ((((cfg1.win 3).blk t).view.emb (ix4 (0 : Fin 1) r h d)) 0).isLt⟩ : Fin 2)
      = ⟨win1_3.index t (0 : Fin 4), hb0⟩ := Fin.ext (by show win1_3.index t (0 : Fin 4) * 1 + 1 * 0 = win1_3.index t (0 : Fin 4); omega)
  have h1 : (⟨((((cfg1.win 3).blk t).view.emb (ix4 (0 : Fin 1) r h d)) 1).val, ((((cfg1.win 3).blk t).view.emb (ix4 (0 : Fin 1) r h d)) 1).isLt⟩ : Fin 2048)
      = ⟨win1_3.index t (1 : Fin 4) * 256 + r.val, hb1⟩ := Fin.ext (by show win1_3.index t (1 : Fin 4) * 256 + 1 * r.val = win1_3.index t (1 : Fin 4) * 256 + r.val; omega)
  have h2 : (⟨((((cfg1.win 3).blk t).view.emb (ix4 (0 : Fin 1) r h d)) 2).val, ((((cfg1.win 3).blk t).view.emb (ix4 (0 : Fin 1) r h d)) 2).isLt⟩ : Fin 16)
      = h := Fin.ext (by show win1_3.index t (2 : Fin 4) * 16 + 1 * h.val = h.val; omega)
  have h3 : (⟨((((cfg1.win 3).blk t).view.emb (ix4 (0 : Fin 1) r h d)) 3).val, ((((cfg1.win 3).blk t).view.emb (ix4 (0 : Fin 1) r h d)) 3).isLt⟩ : Fin 64)
      = d := Fin.ext (by show win1_3.index t (3 : Fin 4) * 64 + 1 * d.val = d.val; omega)
  unfold attnAll attnOf
  rw [h0, h1, h2, h3]
  unfold scoreRow
  simp only [queries1 V c t r h _ hb0 hb1, keys1 V c t _ h _ hb0, values1 V c t _ h d hb0]

/-- An index of the array is in point `t`'s block iff each coordinate is in the block's range. -/
theorem inBlock1 (t : Fin cfg1.N) (i : S2x2048x16x64.Idx) :
    i ∈ ((cfg1.win 3).blk t).view.set ↔ ∀ a : Fin 4, win1_3.index t a * S1x256x16x64.size a ≤ (i a).val ∧ (i a).val < win1_3.index t a * S1x256x16x64.size a + S1x256x16x64.size a := by
  show i ∈ ((View.whole main_v10).slice (win1_3.rect t)).set ↔ _
  rw [View.set_slice_whole, Rect.mem_set_unit]
  exact Iff.rfl

/-- The sixteen blocks tile the array. -/
theorem cover1 (i : S2x2048x16x64.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 16 := (i 2).isLt
  have hi3 : (i 3).val < 64 := (i 3).isLt
  obtain ⟨t, ht⟩ := onto1 ⟨(i 0).val, by omega⟩ ⟨(i 1).val / 256, by omega⟩
  have q0 : win1_3.index t (0 : Fin 4) = (i 0).val := congrFun ht 0
  have q1 : win1_3.index t (1 : Fin 4) = (i 1).val / 256 := congrFun ht 1
  have q2 : win1_3.index t (2 : Fin 4) = 0 := congrFun ht 2
  have q3 : win1_3.index t (3 : Fin 4) = 0 := congrFun ht 3
  refine ⟨t, flush1_3 t, ?_⟩
  rw [inBlock1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 256 ≤ (i 1).val ∧ (i 1).val < win1_3.index t (1 : Fin 4) * 256 + 256; omega
  | ⟨2, _⟩ => show win1_3.index t (2 : Fin 4) * 16 ≤ (i 2).val ∧ (i 2).val < win1_3.index t (2 : Fin 4) * 16 + 16; omega
  | ⟨3, _⟩ => show win1_3.index t (3 : Fin 4) * 64 ≤ (i 3).val ∧ (i 3).val < win1_3.index t (3 : Fin 4) * 64 + 64; omega

/-- The array after the pallas_call is `attnAll` of the arrays the region found. -/
theorem final1 (c : Dev nD) : (dat1 V c).arrAt 3 cfg1.N = attnAll V c :=
  (dat1 V c).arrAt_eq_of_cover 3 (attnAll V c) (fun t _ => flushed1 V c t) (cover1)

end Cert.KernelIdeal.Val

end
-- ==== Proof.KV.Out.lean ====
/-
  The output projection's block, read index by index at the ideal values: row `r` of the input block times
  column `f` of the weight, summed over the 1024 contracted coordinates, plus the bias at `f`.
-/
import proofs.«118845_j14903536517723_2_alg».proof.Proof.KI.Region2
import proofs.«118845_j14903536517723_2_alg».proof.Proof.KV.Basic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.ValueIdx Idealize.SL.Sem

/-! The operand indices of the rows-by-columns product, coordinate by coordinate. -/
theorem lhs_out_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_out_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_out_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_out_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The projected block at `(r, f)`: `∑ₑ x(r,e)·w(e,f) + b(0,f)`. -/
theorem oOut_apply (x : Vec Ideal S512x1024 .bf16) (w : Vec Ideal S1024x1024 .bf16) (b : Vec Ideal S1x1024 .f32)
    (r : Fin 512) (f : Fin 1024) :
    oOut (F := Ideal) x w b (ix2 r f) = (∑ e : Fin 1024, x (ix2 r e) * w (ix2 e f)) + b (ix2 (0 : Fin 1) f) := by
  unfold oOut
  rw [View.canon_unit_zero zero_off2]
  simp only [View.ld_unit_zero (S := S512x1024) zero_off2, View.ld_unit_zero (S := S1024x1024) zero_off2,
    View.ld_unit_zero (S := S1x1024) zero_off2]
  unfold k2_pay1
  simp only [shapeCast_self]
  rw [addf_apply, broadcastTo_1b_ab_apply]
  refine congrArg (· + b (ix2 (0 : Fin 1) f)) ?_
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r f) ((contrEquiv1 dot_S512x1024_S1024x1024_S512x1024_1_0_0_1_n_n 1024 rfl rfl).symm k) = ix2 r k := funext fun a => Fin.ext (by
    match a with
    | ⟨0, _⟩ => exact lhs_out_0 _ _
    | ⟨1, _⟩ => exact (lhs_out_1 _ _).trans hk)
  have er : dot_S512x1024_S1024x1024_S512x1024_1_0_0_1_n_n.rhsIdx (ix2 r f) ((contrEquiv1 dot_S512x1024_S1024x1024_S512x1024_1_0_0_1_n_n 1024 rfl rfl).symm k) = ix2 k f := funext fun a => Fin.ext (by
    match a with
    | ⟨0, _⟩ => exact (rhs_out_0 _ _).trans hk
    | ⟨1, _⟩ => exact rhs_out_1 _ _)
  rw [el, er]

end Cert.KernelIdeal.Val

end
-- ==== Proof.KI.Final2.lean ====
/-
  The output projection's array after its pallas_call, as ONE function of the arrays the region finds: row `i₀`, feature
  `i₁` holds `Σₑ a[i₀,e]·w[e,i₁] + β[0,i₁]`. Each grid point writes back the block of 512 rows it computed from its own
  512 rows of `a` and the whole `w`, `β`; the eight blocks tile the 4096 rows.
-/
import proofs.«118845_j14903536517723_2_alg».proof.Proof.KI.Region2
import proofs.«118845_j14903536517723_2_alg».proof.Proof.KV.Out
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Rows times a weight plus a bias row: `Σₑ a[r,e]·w[e,f] + β[0,f]`. -/
def rowsProj (a : S4096x1024.Idx → EReal) (w : S1024x1024.Idx → EReal) (β : S1x1024.Idx → EReal) : S4096x1024.Idx → EReal := fun i =>
  (∑ e : Fin 1024, a (ix2 (⟨(i 0).val, (i 0).isLt⟩ : Fin 4096) e) * w (ix2 e (⟨(i 1).val, (i 1).isLt⟩ : Fin 1024)))
    + β (ix2 (0 : Fin 1) (⟨(i 1).val, (i 1).isLt⟩ : Fin 1024))

/-- The projected array, from the arrays the region finds. -/
def projOut (c : Dev nD) : S4096x1024.Idx → EReal := rowsProj (V c main_v11) (V c main_v13) (V c main_v14)

/-- The block indices over the grid: the rows' block moves with the output's, the weight and the bias stay whole. -/
theorem where2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block of rows is some point's. -/
theorem onto2 : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of `projOut`. -/
theorem flushed2 (c : Dev nD) (t : Fin cfg2.N) :
    (dat2 V c).flushed 3 t = ((cfg2.win 3).blk t).view.read (Elt Ideal) (projOut V c) := by
  show (cfg2.win 3).cut (grid2.coords t) ((dat2 V c).after 3 t) = _
  rw [after2_3]
  obtain ⟨e0, e1, e2, e3, e4, e5, e6, e7⟩ := where2 t
  funext y
  obtain ⟨r, f, rfl⟩ : ∃ (r : Fin 512) (f : Fin 1024), y = ix2 r f := ⟨y 0, y 1, eq_ix2 y⟩
  show oOut (blk2 V c 0 t) (blk2 V c 1 t) (blk2 V c 2 t) (ix2 r f) = projOut V c (((cfg2.win 3).blk t).view.emb (ix2 r f))
  refine (oOut_apply (blk2 V c 0 t) (blk2 V c 1 t) (blk2 V c 2 t) r f).trans ?_
  unfold projOut rowsProj
  have hx : ∀ e : Fin 1024, blk2 V c 0 t (ix2 r e)
      = V c main_v11 (ix2 (⟨((((cfg2.win 3).blk t).view.emb (ix2 r f)) 0).val, ((((cfg2.win 3).blk t).view.emb (ix2 r f)) 0).isLt⟩ : Fin 4096) e) := by
    intro e
    show V c main_v11 (((cfg2.win 0).blk t).view.emb (ix2 r e)) = _
    refine congrArg (V c main_v11) (funext fun a => Fin.ext ?_)
    match a with
    | ⟨0, _⟩ => show win2_0.index t (0 : Fin 2) * 512 + 1 * r.val = win2_3.index t (0 : Fin 2) * 512 + 1 * r.val; omega
    | ⟨1, _⟩ => show win2_0.index t (1 : Fin 2) * 1024 + 1 * e.val = e.val; omega
  have hw : ∀ e : Fin 1024, blk2 V c 1 t (ix2 e f)
      = V c main_v13 (ix2 e (⟨((((cfg2.win 3).blk t).view.emb (ix2 r f)) 1).val, ((((cfg2.win 3).blk t).view.emb (ix2 r f)) 1).isLt⟩ : Fin 1024)) := by
    intro e
    show V c main_v13 (((cfg2.win 1).blk t).view.emb (ix2 e f)) = _
    refine congrArg (V c main_v13) (funext fun a => Fin.ext ?_)
    match a with
    | ⟨0, _⟩ => show win2_1.index t (0 : Fin 2) * 1024 + 1 * e.val = e.val; omega
    | ⟨1, _⟩ => show win2_1.index t (1 : Fin 2) * 1024 + 1 * f.val = win2_3.index t (1 : Fin 2) * 1024 + 1 * f.val; omega
  have hb : blk2 V c 2 t (ix2 (0 : Fin 1) f)
      = V c main_v14 (ix2 (0 : Fin 1) (⟨((((cfg2.win 3).blk t).view.emb (ix2 r f)) 1).val, ((((cfg2.win 3).blk t).view.emb (ix2 r f)) 1).isLt⟩ : Fin 1024)) := by
    show V c main_v14 (((cfg2.win 2).blk t).view.emb (ix2 (0 : Fin 1) f)) = _
    refine congrArg (V c main_v14) (funext fun a => Fin.ext ?_)
    match a with
    | ⟨0, _⟩ => show win2_2.index t (0 : Fin 2) * 1 + 1 * 0 = 0; omega
    | ⟨1, _⟩ => show win2_2.index t (1 : Fin 2) * 1024 + 1 * f.val = win2_3.index t (1 : Fin 2) * 1024 + 1 * f.val; omega
  rw [hb]
  refine congrArg (· + _) (Finset.sum_congr rfl fun e _ => ?_)
  rw [hx e, hw e]

/-- An index of the array is in point `t`'s block iff each coordinate is in the block's range. -/
theorem inBlock2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v15).slice (win2_3.rect t)).set ↔ _
  rw [View.set_slice_whole, Rect.mem_set_unit]
  exact Iff.rfl

/-- The eight blocks of rows tile the array. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [inBlock2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array after the pallas_call is `projOut` of the arrays the region found. -/
theorem final2 (c : Dev nD) : (dat2 V c).arrAt 3 cfg2.N = projOut V c :=
  (dat2 V c).arrAt_eq_of_cover 3 (projOut V c) (fun t _ => flushed2 V c t) (cover2)

end Cert.KernelIdeal.Val

end
-- ==== Proof.KI.Arrays.lean ====
/-
  The five arrays the three pallas_calls leave, as functions of what each call found: the three projections, the
  attention array, the output projection.
-/
import proofs.«118845_j14903536517723_2_alg».proof.Proof.KI.Run
import proofs.«118845_j14903536517723_2_alg».proof.Proof.KI.Final0
import proofs.«118845_j14903536517723_2_alg».proof.Proof.KI.Final1
import proofs.«118845_j14903536517723_2_alg».proof.Proof.KI.Final2
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem q_array (c : Dev nD) : out0 m ρ c main_v6_0 = qAll (in0 m ρ) c :=
  (at2_arr m ρ c 3).trans (final0_3 (in0 m ρ) c)
theorem k_array (c : Dev nD) : out0 m ρ c main_v6_1 = kAll (in0 m ρ) c :=
  (at2_arr m ρ c 4).trans (final0_4 (in0 m ρ) c)
theorem v_array (c : Dev nD) : out0 m ρ c main_v6_2 = vAll (in0 m ρ) c :=
  (at2_arr m ρ c 5).trans (final0_5 (in0 m ρ) c)
theorem attn_array (c : Dev nD) : out1 m ρ c main_v10 = attnAll (in1 m ρ) c :=
  (at4_arr m ρ c 3).trans (final1 (in1 m ρ) c)
theorem proj_array (c : Dev nD) : out2 m ρ c main_v15 = projOut (in2 m ρ) c :=
  (at6_arr m ρ c 3).trans (final2 (in2 m ρ) c)

end Cert.KernelIdeal.Val

end
-- ==== Proof.KI.Host.lean ====
import proofs.«118845_j14903536517723_2_alg».proof.Proof.KI.Run
import Idealize.ShloMosaic.Lib.ValueIdx
import Idealize.ShloMosaic.Lib.ValueLayout
import Idealize.ShloMosaic.Lib.Pipeline.Value
import Idealize.ShloMosaic.Lib.StableHlo.Run

/-!
# The host operations between the pallas_calls, read at an index

Each host stretch of @main only re-lays arrays: the token rows flattened to 4096 × 1024, the three projection weights
stacked, transposed and converted (the conversion is the identity on the extended reals), the three biases concatenated
into one row, each projection split into sixteen heads of sixty-four lanes, the heads merged back, the output weight
transposed, the output bias as a row, and the result reshaped to batch × tokens × features. Every such array is read
here at explicit coordinates as one entry of the array it was made from.
-/

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Whole-array equations: what each host stretch leaves in the buffers the pallas_calls read -/

/-- The token rows flattened to 4096 × 1024. -/
theorem v5_whole (c : Dev nD) :
    (in0 m ρ c main_v5 : S4096x1024.Idx → EReal)
      = shapeCast S4096x1024 (m ((c : Thread nD τ).loc main_arg0)) shapeCasts_S2x2048x1024_S4096x1024 := by
  show StableHlo.after hostOps0 _ (Proc.devRef .tc main_v5) = _
  after_results <;> rfl

/-- The three projection weights stacked by rows, transposed, and converted. -/
theorem v2_whole (c : Dev nD) :
    (in0 m ρ c main_v2 : S1024x3072.Idx → EReal)
      = truncf (F := Ideal) .bf16 (transpose S1024x3072 [1, 0]
          (concatenate S3072x1024 0 [⟨S1024x1024, (m ((c : Thread nD τ).loc main_arg1))⟩, ⟨S1024x1024, (m ((c : Thread nD τ).loc main_arg3))⟩,
            ⟨S1024x1024, (m ((c : Thread nD τ).loc main_arg5))⟩] concatenates_S1024x1024_S1024x1024_S1024x1024_S3072x1024_d0)
          transposes_S3072x1024_S1024x3072_1_0) bitsLt_bf16_f32 := by
  show StableHlo.after hostOps0 _ (Proc.devRef .tc main_v2) = _
  after_results <;> rfl

/-- The three projection biases concatenated, as one row. -/
theorem v4_whole (c : Dev nD) :
    (in0 m ρ c main_v4 : S1x3072.Idx → EReal)
      = shapeCast S1x3072 (concatenate S3072 0 [⟨S1024, (m ((c : Thread nD τ).loc main_arg2))⟩, ⟨S1024, (m ((c : Thread nD τ).loc main_arg4))⟩,
            ⟨S1024, (m ((c : Thread nD τ).loc main_arg6))⟩] concatenates_S1024_S1024_S1024_S3072_d0) shapeCasts_S3072_S1x3072 := by
  show StableHlo.after hostOps0 _ (Proc.devRef .tc main_v4) = _
  after_results <;> rfl

/-- A projection split into heads. -/
theorem v7_whole (c : Dev nD) :
    (in1 m ρ c main_v7 : S2x2048x16x64.Idx → EReal)
      = shapeCast S2x2048x16x64 (out0 m ρ c main_v6_0) shapeCasts_S4096x1024_S2x2048x16x64 := by
  show StableHlo.after hostOps1 _ (Proc.devRef .tc main_v7) = _
  after_results <;> rfl

/-- A projection split into heads. -/
theorem v8_whole (c : Dev nD) :
    (in1 m ρ c main_v8 : S2x2048x16x64.Idx → EReal)
      = shapeCast S2x2048x16x64 (out0 m ρ c main_v6_1) shapeCasts_S4096x1024_S2x2048x16x64 := by
  show StableHlo.after hostOps1 _ (Proc.devRef .tc main_v8) = _
  after_results <;> rfl

/-- A projection split into heads. -/
theorem v9_whole (c : Dev nD) :
    (in1 m ρ c main_v9 : S2x2048x16x64.Idx → EReal)
      = shapeCast S2x2048x16x64 (out0 m ρ c main_v6_2) shapeCasts_S4096x1024_S2x2048x16x64 := by
  show StableHlo.after hostOps1 _ (Proc.devRef .tc main_v9) = _
  after_results <;> rfl

/-- The heads merged back to 4096 × 1024. -/
theorem v11_whole (c : Dev nD) :
    (in2 m ρ c main_v11 : S4096x1024.Idx → EReal)
      = shapeCast S4096x1024 (out1 m ρ c main_v10) shapeCasts_S2x2048x16x64_S4096x1024 := by
  show StableHlo.after hostOps2 _ (Proc.devRef .tc main_v11) = _
  after_results <;> rfl

/-- The output weight transposed and converted. -/
theorem v13_whole (c : Dev nD) :
    (in2 m ρ c main_v13 : S1024x1024.Idx → EReal)
      = truncf (F := Ideal) .bf16 (transpose S1024x1024 [1, 0] (out1 m ρ c main_arg7) transposes_S1024x1024_S1024x1024_1_0)
          bitsLt_bf16_f32 := by
  show StableHlo.after hostOps2 _ (Proc.devRef .tc main_v13) = _
  after_results <;> rfl

/-- The output bias as one row. -/
theorem v14_whole (c : Dev nD) :
    (in2 m ρ c main_v14 : S1x1024.Idx → EReal) = shapeCast S1x1024 (out1 m ρ c main_arg8) shapeCasts_S1024_S1x1024 := by
  show StableHlo.after hostOps2 _ (Proc.devRef .tc main_v14) = _
  after_results <;> rfl

/-- The result reshaped to batch × tokens × features. -/
theorem v16_whole (c : Dev nD) :
    (at7 m ρ c (Proc.devRef .tc main_v16) : S2x2048x1024.Idx → EReal)
      = shapeCast S2x2048x1024 (out2 m ρ c main_v15) shapeCasts_S4096x1024_S2x2048x1024 := by
  show StableHlo.after hostOps3 _ (Proc.devRef .tc main_v16) = _
  after_results <;> rfl

/-! ## An argument array is still as launched when the third host stretch reads it -/

theorem out1_arg7 (c : Dev nD) : out1 m ρ c main_arg7 = m ((c : Thread nD τ).loc main_arg7) :=
  calc at4 m ρ c (Proc.devRef .tc main_arg7)
    _ = at3 m ρ c (Proc.devRef .tc main_arg7) := at4_off m ρ c main_arg7 (by decide)
    _ = at2 m ρ c (Proc.devRef .tc main_arg7) := StableHlo.after_of_writes_sub hostOps1 _ hostOps1_writes (by decide)
    _ = at1 m ρ c (Proc.devRef .tc main_arg7) := at2_off m ρ c main_arg7 (by decide)
    _ = at0 m ρ c (Proc.devRef .tc main_arg7) := StableHlo.after_of_writes_sub hostOps0 _ hostOps0_writes (by decide)
    _ = m ((c : Thread nD τ).loc main_arg7) := rfl

theorem out1_arg8 (c : Dev nD) : out1 m ρ c main_arg8 = m ((c : Thread nD τ).loc main_arg8) :=
  calc at4 m ρ c (Proc.devRef .tc main_arg8)
    _ = at3 m ρ c (Proc.devRef .tc main_arg8) := at4_off m ρ c main_arg8 (by decide)
    _ = at2 m ρ c (Proc.devRef .tc main_arg8) := StableHlo.after_of_writes_sub hostOps1 _ hostOps1_writes (by decide)
    _ = at1 m ρ c (Proc.devRef .tc main_arg8) := at2_off m ρ c main_arg8 (by decide)
    _ = at0 m ρ c (Proc.devRef .tc main_arg8) := StableHlo.after_of_writes_sub hostOps0 _ hostOps0_writes (by decide)
    _ = m ((c : Thread nD τ).loc main_arg8) := rfl

/-! ## The host glue read at an index -/

/-- Row `r` of the flattened token rows is token `r % 2048` of batch `r / 2048`. -/
theorem v5_ix (c : Dev nD) (r : Fin 4096) (e : Fin 1024) :
    in0 m ρ c main_v5 (ix2 r e)
      = m ((c : Thread nD τ).loc main_arg0)
          (ix3 (⟨r.val / 2048, by have := r.isLt; omega⟩ : Fin 2) (⟨r.val % 2048, by omega⟩ : Fin 2048) e) := by
  refine (congrFun (v5_whole m ρ c) (ix2 r e)).trans ?_
  refine shapeCast_apply _ _ _ _ ?_
  show (S2x2048x1024.rowMajor (ix3 _ _ e)).val = (S4096x1024.rowMajor (ix2 r e)).val
  rw [Shape.rowMajor_val_three, Shape.rowMajor_val_two]
  show (r.val / 2048 * 2048 + r.val % 2048) * 1024 + e.val = r.val * 1024 + e.val
  omega

/-- Column `f` of the fused weight is row `f` of the query weight. -/
theorem v2_ix_q (c : Dev nD) (e f : Fin 1024) :
    in0 m ρ c main_v2 (ix2 e (⟨f.val, by have := f.isLt; omega⟩ : Fin 3072))
      = m ((c : Thread nD τ).loc main_arg1) (ix2 f e) := by
  refine (congrFun (v2_whole m ρ c) _).trans ?_
  show transpose S1024x3072 [1, 0] (concatenate S3072x1024 0 [⟨S1024x1024, (m ((c : Thread nD τ).loc main_arg1))⟩, ⟨S1024x1024, (m ((c : Thread nD τ).loc main_arg3))⟩, ⟨S1024x1024, (m ((c : Thread nD τ).loc main_arg5))⟩] concatenates_S1024x1024_S1024x1024_S1024x1024_S3072x1024_d0)
    transposes_S3072x1024_S1024x3072_1_0 (ix2 e _) = _
  refine (transpose_ix2_apply _ transposes_S3072x1024_S1024x3072_1_0 e _).trans ?_
  refine concatenate_apply_piece (t := S3072x1024) (0 : Fin 2) [⟨S1024x1024, (m ((c : Thread nD τ).loc main_arg1))⟩, ⟨S1024x1024, (m ((c : Thread nD τ).loc main_arg3))⟩, ⟨S1024x1024, (m ((c : Thread nD τ).loc main_arg5))⟩]
    concatenates_S1024x1024_S1024x1024_S1024x1024_S3072x1024_d0 _ 0 (by show _ < 3; omega) S1024x1024 _ rfl rfl 0 rfl (ix2 f e) ?_ ?_
  · intro b hb; match b with | ⟨0, _⟩ => exact absurd rfl hb | ⟨1, _⟩ => rfl
  · exact Nat.zero_add _

/-- Column `1024 + f` of the fused weight is row `f` of the key weight. -/
theorem v2_ix_k (c : Dev nD) (e f : Fin 1024) :
    in0 m ρ c main_v2 (ix2 e (⟨1024 + f.val, by have := f.isLt; omega⟩ : Fin 3072))
      = m ((c : Thread nD τ).loc main_arg3) (ix2 f e) := by
  refine (congrFun (v2_whole m ρ c) _).trans ?_
  show transpose S1024x3072 [1, 0] (concatenate S3072x1024 0 [⟨S1024x1024, (m ((c : Thread nD τ).loc main_arg1))⟩, ⟨S1024x1024, (m ((c : Thread nD τ).loc main_arg3))⟩, ⟨S1024x1024, (m ((c : Thread nD τ).loc main_arg5))⟩] concatenates_S1024x1024_S1024x1024_S1024x1024_S3072x1024_d0)
    transposes_S3072x1024_S1024x3072_1_0 (ix2 e _) = _
  refine (transpose_ix2_apply _ transposes_S3072x1024_S1024x3072_1_0 e _).trans ?_
  refine concatenate_apply_piece (t := S3072x1024) (0 : Fin 2) [⟨S1024x1024, (m ((c : Thread nD τ).loc main_arg1))⟩, ⟨S1024x1024, (m ((c : Thread nD τ).loc main_arg3))⟩, ⟨S1024x1024, (m ((c : Thread nD τ).loc main_arg5))⟩]
    concatenates_S1024x1024_S1024x1024_S1024x1024_S3072x1024_d0 _ 1 (by show _ < 3; omega) S1024x1024 _ rfl rfl 1024 rfl (ix2 f e) ?_ ?_
  · intro b hb; match b with | ⟨0, _⟩ => exact absurd rfl hb | ⟨1, _⟩ => rfl
  · rfl

/-- Column `2048 + f` of the fused weight is row `f` of the value weight. -/
theorem v2_ix_v (c : Dev nD) (e f : Fin 1024) :
    in0 m ρ c main_v2 (ix2 e (⟨2048 + f.val, by have := f.isLt; omega⟩ : Fin 3072))
      = m ((c : Thread nD τ).loc main_arg5) (ix2 f e) := by
  refine (congrFun (v2_whole m ρ c) _).trans ?_
  show transpose S1024x3072 [1, 0] (concatenate S3072x1024 0 [⟨S1024x1024, (m ((c : Thread nD τ).loc main_arg1))⟩, ⟨S1024x1024, (m ((c : Thread nD τ).loc main_arg3))⟩, ⟨S1024x1024, (m ((c : Thread nD τ).loc main_arg5))⟩] concatenates_S1024x1024_S1024x1024_S1024x1024_S3072x1024_d0)
    transposes_S3072x1024_S1024x3072_1_0 (ix2 e _) = _
  refine (transpose_ix2_apply _ transposes_S3072x1024_S1024x3072_1_0 e _).trans ?_
  refine concatenate_apply_piece (t := S3072x1024) (0 : Fin 2) [⟨S1024x1024, (m ((c : Thread nD τ).loc main_arg1))⟩, ⟨S1024x1024, (m ((c : Thread nD τ).loc main_arg3))⟩, ⟨S1024x1024, (m ((c : Thread nD τ).loc main_arg5))⟩]
    concatenates_S1024x1024_S1024x1024_S1024x1024_S3072x1024_d0 _ 2 (by show _ < 3; omega) S1024x1024 _ rfl rfl 2048 rfl (ix2 f e) ?_ ?_
  · intro b hb; match b with | ⟨0, _⟩ => exact absurd rfl hb | ⟨1, _⟩ => rfl
  · rfl

/-- Entry `f` of the fused bias row is entry `f` of the query bias. -/
theorem v4_ix_q (c : Dev nD) (f : Fin 1024) :
    in0 m ρ c main_v4 (ix2 (0 : Fin 1) (⟨f.val, by have := f.isLt; omega⟩ : Fin 3072))
      = m ((c : Thread nD τ).loc main_arg2) (ix1 f) := by
  refine (congrFun (v4_whole m ρ c) _).trans ?_
  refine (shapeCast_a_1a_apply _ shapeCasts_S3072_S1x3072 0 _).trans ?_
  refine concatenate_apply_piece (t := S3072) (0 : Fin 1) [⟨S1024, (m ((c : Thread nD τ).loc main_arg2))⟩, ⟨S1024, (m ((c : Thread nD τ).loc main_arg4))⟩, ⟨S1024, (m ((c : Thread nD τ).loc main_arg6))⟩]
    concatenates_S1024_S1024_S1024_S3072_d0 _ 0 (by show _ < 3; omega) S1024 _ rfl rfl 0 rfl (ix1 f) ?_ ?_
  · intro b hb; match b with | ⟨0, _⟩ => exact absurd rfl hb
  · exact Nat.zero_add _

/-- Entry `1024 + f` of the fused bias row is entry `f` of the key bias. -/
theorem v4_ix_k (c : Dev nD) (f : Fin 1024) :
    in0 m ρ c main_v4 (ix2 (0 : Fin 1) (⟨1024 + f.val, by have := f.isLt; omega⟩ : Fin 3072))
      = m ((c : Thread nD τ).loc main_arg4) (ix1 f) := by
  refine (congrFun (v4_whole m ρ c) _).trans ?_
  refine (shapeCast_a_1a_apply _ shapeCasts_S3072_S1x3072 0 _).trans ?_
  refine concatenate_apply_piece (t := S3072) (0 : Fin 1) [⟨S1024, (m ((c : Thread nD τ).loc main_arg2))⟩, ⟨S1024, (m ((c : Thread nD τ).loc main_arg4))⟩, ⟨S1024, (m ((c : Thread nD τ).loc main_arg6))⟩]
    concatenates_S1024_S1024_S1024_S3072_d0 _ 1 (by show _ < 3; omega) S1024 _ rfl rfl 1024 rfl (ix1 f) ?_ ?_
  · intro b hb; match b with | ⟨0, _⟩ => exact absurd rfl hb
  · rfl

/-- Entry `2048 + f` of the fused bias row is entry `f` of the value bias. -/
theorem v4_ix_v (c : Dev nD) (f : Fin 1024) :
    in0 m ρ c main_v4 (ix2 (0 : Fin 1) (⟨2048 + f.val, by have := f.isLt; omega⟩ : Fin 3072))
      = m ((c : Thread nD τ).loc main_arg6) (ix1 f) := by
  refine (congrFun (v4_whole m ρ c) _).trans ?_
  refine (shapeCast_a_1a_apply _ shapeCasts_S3072_S1x3072 0 _).trans ?_
  refine concatenate_apply_piece (t := S3072) (0 : Fin 1) [⟨S1024, (m ((c : Thread nD τ).loc main_arg2))⟩, ⟨S1024, (m ((c : Thread nD τ).loc main_arg4))⟩, ⟨S1024, (m ((c : Thread nD τ).loc main_arg6))⟩]
    concatenates_S1024_S1024_S1024_S3072_d0 _ 2 (by show _ < 3; omega) S1024 _ rfl rfl 2048 rfl (ix1 f) ?_ ?_
  · intro b hb; match b with | ⟨0, _⟩ => exact absurd rfl hb
  · rfl

/-- Lane `d` of head `h` of token `s` of batch `b` is entry (b·2048 + s, h·64 + d) of the projection. -/
theorem v7_ix (c : Dev nD) (b : Fin 2) (s : Fin 2048) (h : Fin 16) (d : Fin 64) :
    in1 m ρ c main_v7 (ix4 b s h d)
      = out0 m ρ c main_v6_0 (ix2 (⟨b.val * 2048 + s.val, by have := b.isLt; have := s.isLt; omega⟩ : Fin 4096)
          (⟨h.val * 64 + d.val, by have := h.isLt; have := d.isLt; omega⟩ : Fin 1024)) := by
  refine (congrFun (v7_whole m ρ c) _).trans ?_
  refine shapeCast_apply _ _ _ _ ?_
  show (S4096x1024.rowMajor (ix2 _ _)).val = (S2x2048x16x64.rowMajor (ix4 b s h d)).val
  rw [Shape.rowMajor_val_two, Shape.rowMajor_val_four]
  show (b.val * 2048 + s.val) * 1024 + (h.val * 64 + d.val) = ((b.val * 2048 + s.val) * 16 + h.val) * 64 + d.val
  omega

/-- Lane `d` of head `h` of token `s` of batch `b` is entry (b·2048 + s, h·64 + d) of the projection. -/
theorem v8_ix (c : Dev nD) (b : Fin 2) (s : Fin 2048) (h : Fin 16) (d : Fin 64) :
    in1 m ρ c main_v8 (ix4 b s h d)
      = out0 m ρ c main_v6_1 (ix2 (⟨b.val * 2048 + s.val, by have := b.isLt; have := s.isLt; omega⟩ : Fin 4096)
          (⟨h.val * 64 + d.val, by have := h.isLt; have := d.isLt; omega⟩ : Fin 1024)) := by
  refine (congrFun (v8_whole m ρ c) _).trans ?_
  refine shapeCast_apply _ _ _ _ ?_
  show (S4096x1024.rowMajor (ix2 _ _)).val = (S2x2048x16x64.rowMajor (ix4 b s h d)).val
  rw [Shape.rowMajor_val_two, Shape.rowMajor_val_four]
  show (b.val * 2048 + s.val) * 1024 + (h.val * 64 + d.val) = ((b.val * 2048 + s.val) * 16 + h.val) * 64 + d.val
  omega

/-- Lane `d` of head `h` of token `s` of batch `b` is entry (b·2048 + s, h·64 + d) of the projection. -/
theorem v9_ix (c : Dev nD) (b : Fin 2) (s : Fin 2048) (h : Fin 16) (d : Fin 64) :
    in1 m ρ c main_v9 (ix4 b s h d)
      = out0 m ρ c main_v6_2 (ix2 (⟨b.val * 2048 + s.val, by have := b.isLt; have := s.isLt; omega⟩ : Fin 4096)
          (⟨h.val * 64 + d.val, by have := h.isLt; have := d.isLt; omega⟩ : Fin 1024)) := by
  refine (congrFun (v9_whole m ρ c) _).trans ?_
  refine shapeCast_apply _ _ _ _ ?_
  show (S4096x1024.rowMajor (ix2 _ _)).val = (S2x2048x16x64.rowMajor (ix4 b s h d)).val
  rw [Shape.rowMajor_val_two, Shape.rowMajor_val_four]
  show (b.val * 2048 + s.val) * 1024 + (h.val * 64 + d.val) = ((b.val * 2048 + s.val) * 16 + h.val) * 64 + d.val
  omega

/-- Entry (r, e) of the merged heads is lane `e % 64` of head `e / 64` of token `r % 2048` of batch `r / 2048`. -/
theorem v11_ix (c : Dev nD) (r : Fin 4096) (e : Fin 1024) :
    in2 m ρ c main_v11 (ix2 r e)
      = out1 m ρ c main_v10 (ix4 (⟨r.val / 2048, by have := r.isLt; omega⟩ : Fin 2) (⟨r.val % 2048, by omega⟩ : Fin 2048)
          (⟨e.val / 64, by have := e.isLt; omega⟩ : Fin 16) (⟨e.val % 64, by omega⟩ : Fin 64)) := by
  refine (congrFun (v11_whole m ρ c) _).trans ?_
  refine shapeCast_apply _ _ _ _ ?_
  show (S2x2048x16x64.rowMajor (ix4 _ _ _ _)).val = (S4096x1024.rowMajor (ix2 r e)).val
  rw [Shape.rowMajor_val_four, Shape.rowMajor_val_two]
  show ((r.val / 2048 * 2048 + r.val % 2048) * 16 + e.val / 64) * 64 + e.val % 64 = r.val * 1024 + e.val
  omega

/-- The transposed output weight. -/
theorem v13_ix (c : Dev nD) (e f : Fin 1024) :
    in2 m ρ c main_v13 (ix2 e f) = m ((c : Thread nD τ).loc main_arg7) (ix2 f e) := by
  refine (congrFun (v13_whole m ρ c) _).trans ?_
  show transpose S1024x1024 [1, 0] (out1 m ρ c main_arg7) transposes_S1024x1024_S1024x1024_1_0 (ix2 e f) = _
  refine (transpose_ix2_apply _ transposes_S1024x1024_S1024x1024_1_0 e f).trans ?_
  exact congrFun (out1_arg7 m ρ c) _

/-- The output bias as one row. -/
theorem v14_ix (c : Dev nD) (f : Fin 1024) :
    in2 m ρ c main_v14 (ix2 (0 : Fin 1) f) = m ((c : Thread nD τ).loc main_arg8) (ix1 f) := by
  refine (congrFun (v14_whole m ρ c) _).trans ?_
  refine (shapeCast_a_1a_apply _ shapeCasts_S1024_S1x1024 0 f).trans ?_
  exact congrFun (out1_arg8 m ρ c) _

/-- Feature `f` of token `s` of batch `b` of the result is entry (b·2048 + s, f) of the last pallas_call's output. -/
theorem v16_ix (c : Dev nD) (b : Fin 2) (s : Fin 2048) (f : Fin 1024) :
    at7 m ρ c (Proc.devRef .tc main_v16) (ix3 b s f)
      = out2 m ρ c main_v15 (ix2 (⟨b.val * 2048 + s.val, by have := b.isLt; have := s.isLt; omega⟩ : Fin 4096) f) := by
  refine (congrFun (v16_whole m ρ c) _).trans ?_
  refine shapeCast_apply _ _ _ _ ?_
  show (S4096x1024.rowMajor (ix2 _ f)).val = (S2x2048x1024.rowMajor (ix3 b s f)).val
  rw [Shape.rowMajor_val_two, Shape.rowMajor_val_three]
  rfl

end Cert.KernelIdeal.Val
end
-- ==== Proof.KI.Assemble.lean ====
import proofs.«118845_j14903536517723_2_alg».proof.Proof.KI.Host
import proofs.«118845_j14903536517723_2_alg».proof.Proof.KI.Final0
import proofs.«118845_j14903536517723_2_alg».proof.Proof.KI.Final2
import proofs.«118845_j14903536517723_2_alg».proof.Proof.KI.AttnDef
import proofs.«118845_j14903536517723_2_alg».proof.Proof.Spec

/-!
# The kernel program's result, index by index

Given what the three pallas_calls leave in their output arrays (the scaled query projection, the key and value
projections, the attention array, the output projection — each as one function of the arrays the call finds), the host
operations between them only re-lay those arrays, and the final array is the whole layer with `Q` pre-scaled by `1/8`
and the softmax normalised after the value product.
-/

set_option maxRecDepth 16384

noncomputable section

namespace Cert.KernelIdeal.Val

open Cert.KernelIdeal Cert.KernelIdeal.Gen Cert.KernelIdeal.Frame Cert.Attn
open Idealize.ShloMosaic Idealize.ShloMosaic.TcCoe Idealize.ShloMosaic.ValueIdx Idealize.SL.Sem Idealize.ShloMosaic.StableHlo

/-- The word `0x3E000000` is `1/8`. -/
theorem ofBits_eighth : Ideal.ofBits .f32 0x3E000000#32 = (((1 / 8 : ℝ)) : EReal) := by
  simp [Ideal.ofBits, Ideal.ieee]
  rw [← EReal.coe_mul]
  norm_num

/-! ## The three shapes of entry, over abstract arrays -/

/-- An entry of a slice of `x·w + β` is the dense layer's, once the arrays are read as tokens, weight and bias. -/
theorem rowsSlice_entry (o : Nat) (ho : o + 1024 ≤ 3072) (x : S4096x1024.Idx → EReal) (w : S1024x3072.Idx → EReal)
    (β : S1x3072.Idx → EReal) (X : Tok) (W : Mat) (B : Row) (b : Fin 2) (s : Fin 2048) (g : Fin 1024)
    (hR : b.val * 2048 + s.val < 4096) (G : Fin 3072) (hG : G.val = o + g.val)
    (hx : ∀ e : Fin 1024, x (ix2 (⟨b.val * 2048 + s.val, hR⟩ : Fin 4096) e) = X b s e)
    (hw : ∀ e : Fin 1024, w (ix2 e G) = W g e) (hβ : β (ix2 (0 : Fin 1) G) = B g) :
    rowsSlice o ho x w β (ix2 (⟨b.val * 2048 + s.val, hR⟩ : Fin 4096) g) = lin X W B b s g := by
  have hGo : (⟨o + g.val, by have := g.isLt; omega⟩ : Fin 3072) = G := Fin.ext hG.symm
  show (∑ e : Fin 1024, x (ix2 (⟨b.val * 2048 + s.val, hR⟩ : Fin 4096) e) * w (ix2 e (⟨o + g.val, by have := g.isLt; omega⟩ : Fin 3072)))
      + β (ix2 (0 : Fin 1) (⟨o + g.val, by have := g.isLt; omega⟩ : Fin 3072)) = (∑ e : Fin 1024, X b s e * W g e) + B g
  rw [hGo, hβ]
  exact congrArg (· + B g) (Finset.sum_congr rfl fun e _ => by rw [hx, hw])

/-- An entry of rows times a weight plus a bias row is the dense layer's. -/
theorem rowsProj_entry (a : S4096x1024.Idx → EReal) (w : S1024x1024.Idx → EReal) (β : S1x1024.Idx → EReal)
    (A : Tok) (W : Mat) (B : Row) (b : Fin 2) (s : Fin 2048) (f : Fin 1024) (hR : b.val * 2048 + s.val < 4096)
    (ha : ∀ e : Fin 1024, a (ix2 (⟨b.val * 2048 + s.val, hR⟩ : Fin 4096) e) = A b s e)
    (hw : ∀ e : Fin 1024, w (ix2 e f) = W f e) (hβ : β (ix2 (0 : Fin 1) f) = B f) :
    rowsProj a w β (ix2 (⟨b.val * 2048 + s.val, hR⟩ : Fin 4096) f) = lin A W B b s f := by
  show (∑ e : Fin 1024, a (ix2 (⟨b.val * 2048 + s.val, hR⟩ : Fin 4096) e) * w (ix2 e f)) + β (ix2 (0 : Fin 1) f)
      = (∑ e : Fin 1024, A b s e * W f e) + B f
  rw [hβ]
  exact congrArg (· + B f) (Finset.sum_congr rfl fun e _ => by rw [ha, hw])

/-- The lane of a feature inside its head. -/
def laneOf (e : Fin 1024) : Fin 64 := ⟨e.val % 64, Nat.mod_lt _ (by norm_num)⟩

theorem feat_headOf_laneOf (e : Fin 1024) : feat (headOf e) (laneOf e) = e :=
  Fin.ext (by show e.val / 64 * 64 + e.val % 64 = e.val; omega)

/-- An entry of the attention array over head-split arrays is the specification's, normalised last, once the three
    arrays are read as `Q` (pre-scaled by `c`), `K`, `V` at feature `h·64 + d`. -/
theorem attnOf_entry (q k v : S2x2048x16x64.Idx → EReal) (Q K V : Tok) (cs : EReal)
    (hq : ∀ (b : Fin 2) (s : Fin 2048) (h : Fin 16) (d : Fin 64), q (ix4 b s h d) = Q b s (feat h d) * cs)
    (hk : ∀ (b : Fin 2) (s : Fin 2048) (h : Fin 16) (d : Fin 64), k (ix4 b s h d) = K b s (feat h d))
    (hv : ∀ (b : Fin 2) (s : Fin 2048) (h : Fin 16) (d : Fin 64), v (ix4 b s h d) = V b s (feat h d))
    (b : Fin 2) (s : Fin 2048) (e : Fin 1024) :
    attnOf q k v (ix4 b s (headOf e) (laneOf e)) = attnDivLast cs Q K V b s e := by
  have hsc : scoreRow q k b s (headOf e)
      = fun j : Fin 2048 => ∑ d : Fin 64, (Q b s (feat (headOf e) d) * cs) * K b j (feat (headOf e) d) :=
    funext fun j => by unfold scoreRow; exact Finset.sum_congr rfl fun d _ => by rw [hq, hk]
  show Ideal.div (∑ j : Fin 2048, pw (scoreRow q k b s (headOf e)) j * v (ix4 b j (headOf e) (laneOf e)))
      (∑ j : Fin 2048, pw (scoreRow q k b s (headOf e)) j) = _
  rw [hsc]
  simp only [hv, feat_headOf_laneOf]
  rfl

/-! ## The argument arrays as curried functions -/

variable (m : (ℓ : Loc nD τ sig) → Buf (Elt Ideal) ℓ) (ρ : Dev nD → PrngReg)

abbrev argX (c : Dev nD) : Tok := fun b s e => m ((c : Thread nD τ).loc main_arg0) (ix3 b s e)
abbrev argWq (c : Dev nD) : Mat := fun f e => m ((c : Thread nD τ).loc main_arg1) (ix2 f e)
abbrev argbq (c : Dev nD) : Row := fun f => m ((c : Thread nD τ).loc main_arg2) (ix1 f)
abbrev argWk (c : Dev nD) : Mat := fun f e => m ((c : Thread nD τ).loc main_arg3) (ix2 f e)
abbrev argbk (c : Dev nD) : Row := fun f => m ((c : Thread nD τ).loc main_arg4) (ix1 f)
abbrev argWv (c : Dev nD) : Mat := fun f e => m ((c : Thread nD τ).loc main_arg5) (ix2 f e)
abbrev argbv (c : Dev nD) : Row := fun f => m ((c : Thread nD τ).loc main_arg6) (ix1 f)
abbrev argWo (c : Dev nD) : Mat := fun f e => m ((c : Thread nD τ).loc main_arg7) (ix2 f e)
abbrev argbo (c : Dev nD) : Row := fun f => m ((c : Thread nD τ).loc main_arg8) (ix1 f)

/-! ## The first pallas_call's three outputs -/

/-- Row `b·2048 + s` of the flattened token rows is token `s` of batch `b`. -/
theorem v5_entry (c : Dev nD) (b : Fin 2) (s : Fin 2048) (hR : b.val * 2048 + s.val < 4096) (e : Fin 1024) :
    in0 m ρ c main_v5 (ix2 (⟨b.val * 2048 + s.val, hR⟩ : Fin 4096) e) = argX m c b s e := by
  refine (v5_ix m ρ c _ e).trans ?_
  have h1 : (⟨(b.val * 2048 + s.val) / 2048, by omega⟩ : Fin 2) = b :=
    Fin.ext (by show (b.val * 2048 + s.val) / 2048 = b.val; have := s.isLt; omega)
  have h2 : (⟨(b.val * 2048 + s.val) % 2048, Nat.mod_lt _ (by norm_num)⟩ : Fin 2048) = s :=
    Fin.ext (by show (b.val * 2048 + s.val) % 2048 = s.val; have := s.isLt; omega)
  exact congrArg₂ (fun x y => m ((c : Thread nD τ).loc main_arg0) (ix3 x y e)) h1 h2

/-- The scaled query projection, entry by entry. -/
theorem q_entry (c : Dev nD) (hq : out0 m ρ c main_v6_0 = qAll (in0 m ρ) c) (b : Fin 2) (s : Fin 2048) (g : Fin 1024)
    (hR : b.val * 2048 + s.val < 4096) :
    (out0 m ρ c main_v6_0 : S4096x1024.Idx → EReal) (ix2 (⟨b.val * 2048 + s.val, hR⟩ : Fin 4096) g)
      = (lin (argX m c) (argWq m c) (argbq m c)) b s g * (((1 / 8 : ℝ)) : EReal) := by
  refine (congrFun hq _).trans ?_
  show rowsSlice 0 _ (in0 m ρ c main_v5) (in0 m ρ c main_v2) (in0 m ρ c main_v4) (ix2 _ g) * Ideal.ofBits .f32 0x3E000000#32 = _
  rw [ofBits_eighth, rowsSlice_entry 0 _ _ _ _ (argX m c) (argWq m c) (argbq m c) b s g hR
    (⟨g.val, by have := g.isLt; omega⟩ : Fin 3072) (Nat.zero_add _).symm (v5_entry m ρ c b s hR)
    (fun e => v2_ix_q m ρ c e g) (v4_ix_q m ρ c g)]

/-- The key projection, entry by entry. -/
theorem k_entry (c : Dev nD) (hk : out0 m ρ c main_v6_1 = kAll (in0 m ρ) c) (b : Fin 2) (s : Fin 2048) (g : Fin 1024)
    (hR : b.val * 2048 + s.val < 4096) :
    (out0 m ρ c main_v6_1 : S4096x1024.Idx → EReal) (ix2 (⟨b.val * 2048 + s.val, hR⟩ : Fin 4096) g) = (lin (argX m c) (argWk m c) (argbk m c)) b s g := by
  refine (congrFun hk _).trans ?_
  show rowsSlice 1024 _ (in0 m ρ c main_v5) (in0 m ρ c main_v2) (in0 m ρ c main_v4) (ix2 _ g) = _
  exact rowsSlice_entry 1024 _ _ _ _ (argX m c) (argWk m c) (argbk m c) b s g hR
    (⟨1024 + g.val, by have := g.isLt; omega⟩ : Fin 3072) rfl (v5_entry m ρ c b s hR)
    (fun e => v2_ix_k m ρ c e g) (v4_ix_k m ρ c g)

/-- The value projection, entry by entry. -/
theorem v_entry (c : Dev nD) (hv : out0 m ρ c main_v6_2 = vAll (in0 m ρ) c) (b : Fin 2) (s : Fin 2048) (g : Fin 1024)
    (hR : b.val * 2048 + s.val < 4096) :
    (out0 m ρ c main_v6_2 : S4096x1024.Idx → EReal) (ix2 (⟨b.val * 2048 + s.val, hR⟩ : Fin 4096) g) = (lin (argX m c) (argWv m c) (argbv m c)) b s g := by
  refine (congrFun hv _).trans ?_
  show rowsSlice 2048 _ (in0 m ρ c main_v5) (in0 m ρ c main_v2) (in0 m ρ c main_v4) (ix2 _ g) = _
  exact rowsSlice_entry 2048 _ _ _ _ (argX m c) (argWv m c) (argbv m c) b s g hR
    (⟨2048 + g.val, by have := g.isLt; omega⟩ : Fin 3072) rfl (v5_entry m ρ c b s hR)
    (fun e => v2_ix_v m ρ c e g) (v4_ix_v m ρ c g)

/-! ## The second pallas_call's output -/

/-- The attention array at lane `e % 64` of head `e / 64` is the specification's attention at feature `e`. -/
theorem attn_entry (c : Dev nD)
    (hq : out0 m ρ c main_v6_0 = qAll (in0 m ρ) c) (hk : out0 m ρ c main_v6_1 = kAll (in0 m ρ) c)
    (hv : out0 m ρ c main_v6_2 = vAll (in0 m ρ) c) (ha : out1 m ρ c main_v10 = attnAll (in1 m ρ) c)
    (b : Fin 2) (s : Fin 2048) (e : Fin 1024) :
    (out1 m ρ c main_v10 : S2x2048x16x64.Idx → EReal) (ix4 b s (headOf e) (laneOf e))
      = attnDivLast (((1 / 8 : ℝ)) : EReal) (lin (argX m c) (argWq m c) (argbq m c)) (lin (argX m c) (argWk m c) (argbk m c)) (lin (argX m c) (argWv m c) (argbv m c)) b s e := by
  refine (congrFun ha _).trans ?_
  show attnOf (in1 m ρ c main_v7) (in1 m ρ c main_v8) (in1 m ρ c main_v9) _ = _
  exact attnOf_entry _ _ _ _ _ _ _
    (fun b s h d => (v7_ix m ρ c b s h d).trans (q_entry m ρ c hq b s (feat h d) _))
    (fun b s h d => (v8_ix m ρ c b s h d).trans (k_entry m ρ c hk b s (feat h d) _))
    (fun b s h d => (v9_ix m ρ c b s h d).trans (v_entry m ρ c hv b s (feat h d) _)) b s e

/-! ## The result -/

/-- The kernel program's result at an index is the whole layer, `Q` pre-scaled by `1/8`, softmax normalised last. -/
theorem kernel_value_of (c : Dev nD)
    (hq : out0 m ρ c main_v6_0 = qAll (in0 m ρ) c) (hk : out0 m ρ c main_v6_1 = kAll (in0 m ρ) c) (hv : out0 m ρ c main_v6_2 = vAll (in0 m ρ) c)
    (ha : out1 m ρ c main_v10 = attnAll (in1 m ρ) c) (hp : out2 m ρ c main_v15 = projOut (in2 m ρ) c)
    (b : Fin 2) (s : Fin 2048) (f : Fin 1024) :
    at7 m ρ c (Proc.devRef .tc main_v16) (ix3 b s f)
      = Cert.Attn.mhaDivLast (((1 / 8 : ℝ)) : EReal)
          (fun b s e => m ((c : Thread nD τ).loc main_arg0) (ix3 b s e)) (fun f e => m ((c : Thread nD τ).loc main_arg1) (ix2 f e)) (fun f => m ((c : Thread nD τ).loc main_arg2) (ix1 f))
          (fun f e => m ((c : Thread nD τ).loc main_arg3) (ix2 f e)) (fun f => m ((c : Thread nD τ).loc main_arg4) (ix1 f))
          (fun f e => m ((c : Thread nD τ).loc main_arg5) (ix2 f e)) (fun f => m ((c : Thread nD τ).loc main_arg6) (ix1 f))
          (fun f e => m ((c : Thread nD τ).loc main_arg7) (ix2 f e)) (fun f => m ((c : Thread nD τ).loc main_arg8) (ix1 f)) b s f := by
  have hR : b.val * 2048 + s.val < 4096 := by have := b.isLt; have := s.isLt; omega
  refine (v16_ix m ρ c b s f).trans ?_
  refine (congrFun hp _).trans ?_
  show rowsProj (in2 m ρ c main_v11) (in2 m ρ c main_v13) (in2 m ρ c main_v14) (ix2 (⟨b.val * 2048 + s.val, hR⟩ : Fin 4096) f) = _
  refine (rowsProj_entry _ _ _ (attnDivLast (((1 / 8 : ℝ)) : EReal) (lin (argX m c) (argWq m c) (argbq m c)) (lin (argX m c) (argWk m c) (argbk m c)) (lin (argX m c) (argWv m c) (argbv m c))) (argWo m c) (argbo m c) b s f hR ?_
    (fun e => v13_ix m ρ c e f) (v14_ix m ρ c f)).trans rfl
  intro e
  refine (v11_ix m ρ c _ e).trans ?_
  have h1 : (⟨(b.val * 2048 + s.val) / 2048, by omega⟩ : Fin 2) = b :=
    Fin.ext (by show (b.val * 2048 + s.val) / 2048 = b.val; have := s.isLt; omega)
  have h2 : (⟨(b.val * 2048 + s.val) % 2048, Nat.mod_lt _ (by norm_num)⟩ : Fin 2048) = s :=
    Fin.ext (by show (b.val * 2048 + s.val) % 2048 = s.val; have := s.isLt; omega)
  refine (congrArg₂ (fun x y => (out1 m ρ c main_v10 : S2x2048x16x64.Idx → EReal) (ix4 x y (headOf e) (laneOf e))) h1 h2).trans ?_
  exact attn_entry m ρ c hq hk hv ha b s e

end Cert.KernelIdeal.Val
end
-- ==== Proof.KI.Value.lean ====
/-
  The kernel program's result array, index by index: the whole layer with the queries pre-scaled by ⅛ and the softmax
  normalised after the value product, of the nine argument arrays.
-/
import proofs.«118845_j14903536517723_2_alg».proof.Proof.KI.Arrays
import proofs.«118845_j14903536517723_2_alg».proof.Proof.KI.Assemble
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem kernel_value (c : Dev nD) (b : Fin 2) (s : Fin 2048) (f : Fin 1024) :
    at7 m ρ c (Proc.devRef .tc main_v16) (ix3 b s f)
      = Cert.Attn.mhaDivLast (((1 / 8 : ℝ)) : EReal)
          (fun b s e => m ((c : Thread nD τ).loc main_arg0) (ix3 b s e)) (fun f e => m ((c : Thread nD τ).loc main_arg1) (ix2 f e)) (fun f => m ((c : Thread nD τ).loc main_arg2) (ix1 f))
          (fun f e => m ((c : Thread nD τ).loc main_arg3) (ix2 f e)) (fun f => m ((c : Thread nD τ).loc main_arg4) (ix1 f))
          (fun f e => m ((c : Thread nD τ).loc main_arg5) (ix2 f e)) (fun f => m ((c : Thread nD τ).loc main_arg6) (ix1 f))
          (fun f e => m ((c : Thread nD τ).loc main_arg7) (ix2 f e)) (fun f => m ((c : Thread nD τ).loc main_arg8) (ix1 f)) b s f :=
  kernel_value_of m ρ c (q_array m ρ c) (k_array m ρ c) (v_array m ρ c) (attn_array m ρ c) (proj_array m ρ c) b s f

end Cert.KernelIdeal.Val

end
-- ==== Proof.RefSide.lean ====
import proofs.«118845_j14903536517723_2_alg».proof.Proof.Gen.ReferenceIdeal.Read
import proofs.«118845_j14903536517723_2_alg».proof.Proof.Spec
import Idealize.ShloMosaic.Lib.ValueIdx
import Idealize.ShloMosaic.Lib.Pipeline.Value
import Idealize.ShloMosaic.PureOps.Ideal.Laws

/-!
# The reference program's result, read index by index

Each stage of the reference (three dense layers, the split into sixteen heads of sixty-four lanes, the scores divided by
`√64 = 8`, the softmax over the keys — maximum from `−∞`, exponentials, sum from `0`, quotient — the value product, the
merge of the heads and the last dense layer) is read at explicit coordinates, and the last stage is the specification's
`mhaDivFirst` at `8`.
-/

noncomputable section

namespace Cert.ReferenceIdeal.RefValue

open Cert.ReferenceIdeal Cert.ReferenceIdeal.Gen Cert.ReferenceIdeal.Read Idealize.ShloMosaic Idealize.ShloMosaic.ValueIdx Cert.Attn

/-- An activation array as a curried function of its three coordinates. -/
abbrev tok (x : FVec Ideal S2x2048x1024 .f32) : Tok := fun b s e => x (ix3 b s e)
/-- A weight array as a curried function. -/
abbrev mat (w : FVec Ideal S1024x1024 .f32) : Mat := fun f e => w (ix2 f e)
/-- A bias array as a function of its coordinate. -/
abbrev row (β : FVec Ideal S1024 .f32) : Row := fun f => β (ix1 f)

/-! ## The three projections -/

theorem lidx0 (b : Fin 2) (s : Fin 2048) (f : Fin 1024) (k : Fin 1024) : lidx_main_v0 (ix3 b s f) k = ix3 b s k :=
  funext fun a => Fin.ext (by match a with | ⟨0, _⟩ => rfl | ⟨1, _⟩ => rfl | ⟨2, _⟩ => rfl)
theorem ridx0 (b : Fin 2) (s : Fin 2048) (f : Fin 1024) (k : Fin 1024) : ridx_main_v0 (ix3 b s f) k = ix2 f k :=
  funext fun a => Fin.ext (by match a with | ⟨0, _⟩ => rfl | ⟨1, _⟩ => rfl)
theorem bidx1 (b : Fin 2) (s : Fin 2048) (f : Fin 1024) : idx_main_v1 (idx_main_v2 (ix3 b s f)) = ix1 f :=
  funext fun a => Fin.ext (by match a with | ⟨0, _⟩ => rfl)

/-- The dense layer `%3` at an index. -/
theorem v3_ix (x : FVec Ideal S2x2048x1024 .f32) (w : FVec Ideal S1024x1024 .f32) (β : FVec Ideal S1024 .f32)
    (b : Fin 2) (s : Fin 2048) (f : Fin 1024) :
    val_main_v3 (F := Ideal) x w β (ix3 b s f) = lin (tok x) (mat w) (row β) b s f := by
  rw [val_main_v3_apply, val_main_v0_apply, val_main_v2_apply, val_main_v1_apply]
  simp only [lidx0, ridx0, bidx1, Ideal.addf_def]
  rfl

theorem lidx6 (b : Fin 2) (s : Fin 2048) (f : Fin 1024) (k : Fin 1024) : lidx_main_v6 (ix3 b s f) k = ix3 b s k :=
  funext fun a => Fin.ext (by match a with | ⟨0, _⟩ => rfl | ⟨1, _⟩ => rfl | ⟨2, _⟩ => rfl)
theorem ridx6 (b : Fin 2) (s : Fin 2048) (f : Fin 1024) (k : Fin 1024) : ridx_main_v6 (ix3 b s f) k = ix2 f k :=
  funext fun a => Fin.ext (by match a with | ⟨0, _⟩ => rfl | ⟨1, _⟩ => rfl)
theorem bidx7 (b : Fin 2) (s : Fin 2048) (f : Fin 1024) : idx_main_v7 (idx_main_v8 (ix3 b s f)) = ix1 f :=
  funext fun a => Fin.ext (by match a with | ⟨0, _⟩ => rfl)

/-- The dense layer `%9` at an index. -/
theorem v9_ix (x : FVec Ideal S2x2048x1024 .f32) (w : FVec Ideal S1024x1024 .f32) (β : FVec Ideal S1024 .f32)
    (b : Fin 2) (s : Fin 2048) (f : Fin 1024) :
    val_main_v9 (F := Ideal) x w β (ix3 b s f) = lin (tok x) (mat w) (row β) b s f := by
  rw [val_main_v9_apply, val_main_v6_apply, val_main_v8_apply, val_main_v7_apply]
  simp only [lidx6, ridx6, bidx7, Ideal.addf_def]
  rfl

theorem lidx12 (b : Fin 2) (s : Fin 2048) (f : Fin 1024) (k : Fin 1024) : lidx_main_v12 (ix3 b s f) k = ix3 b s k :=
  funext fun a => Fin.ext (by match a with | ⟨0, _⟩ => rfl | ⟨1, _⟩ => rfl | ⟨2, _⟩ => rfl)
theorem ridx12 (b : Fin 2) (s : Fin 2048) (f : Fin 1024) (k : Fin 1024) : ridx_main_v12 (ix3 b s f) k = ix2 f k :=
  funext fun a => Fin.ext (by match a with | ⟨0, _⟩ => rfl | ⟨1, _⟩ => rfl)
theorem bidx13 (b : Fin 2) (s : Fin 2048) (f : Fin 1024) : idx_main_v13 (idx_main_v14 (ix3 b s f)) = ix1 f :=
  funext fun a => Fin.ext (by match a with | ⟨0, _⟩ => rfl)

/-- The dense layer `%15` at an index. -/
theorem v15_ix (x : FVec Ideal S2x2048x1024 .f32) (w : FVec Ideal S1024x1024 .f32) (β : FVec Ideal S1024 .f32)
    (b : Fin 2) (s : Fin 2048) (f : Fin 1024) :
    val_main_v15 (F := Ideal) x w β (ix3 b s f) = lin (tok x) (mat w) (row β) b s f := by
  rw [val_main_v15_apply, val_main_v12_apply, val_main_v14_apply, val_main_v13_apply]
  simp only [lidx12, ridx12, bidx13, Ideal.addf_def]
  rfl

/-! ## The split into heads: [2,2048,1024] → [2,2048,16,64] → [2,16,2048,64] -/

theorem headIdx4 (b : Fin 2) (h : Fin 16) (s : Fin 2048) (d : Fin 64) :
    idx_main_v4 (idx_main_v5 (ix4 b h s d)) = ix3 b s (feat h d) :=
  funext fun a => Fin.ext (by
    have := b.isLt; have := h.isLt; have := s.isLt; have := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- Lane `d` of head `h` of `%5` is feature `h·64 + d` of the dense layer. -/
theorem v5_ix (x : FVec Ideal S2x2048x1024 .f32) (w : FVec Ideal S1024x1024 .f32) (β : FVec Ideal S1024 .f32)
    (b : Fin 2) (h : Fin 16) (s : Fin 2048) (d : Fin 64) :
    val_main_v5 (F := Ideal) x w β (ix4 b h s d) = lin (tok x) (mat w) (row β) b s (feat h d) := by
  rw [val_main_v5_apply, val_main_v4_apply, headIdx4, v3_ix]

theorem headIdx10 (b : Fin 2) (h : Fin 16) (s : Fin 2048) (d : Fin 64) :
    idx_main_v10 (idx_main_v11 (ix4 b h s d)) = ix3 b s (feat h d) :=
  funext fun a => Fin.ext (by
    have := b.isLt; have := h.isLt; have := s.isLt; have := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- Lane `d` of head `h` of `%11` is feature `h·64 + d` of the dense layer. -/
theorem v11_ix (x : FVec Ideal S2x2048x1024 .f32) (w : FVec Ideal S1024x1024 .f32) (β : FVec Ideal S1024 .f32)
    (b : Fin 2) (h : Fin 16) (s : Fin 2048) (d : Fin 64) :
    val_main_v11 (F := Ideal) x w β (ix4 b h s d) = lin (tok x) (mat w) (row β) b s (feat h d) := by
  rw [val_main_v11_apply, val_main_v10_apply, headIdx10, v9_ix]

theorem headIdx16 (b : Fin 2) (h : Fin 16) (s : Fin 2048) (d : Fin 64) :
    idx_main_v16 (idx_main_v17 (ix4 b h s d)) = ix3 b s (feat h d) :=
  funext fun a => Fin.ext (by
    have := b.isLt; have := h.isLt; have := s.isLt; have := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- Lane `d` of head `h` of `%17` is feature `h·64 + d` of the dense layer. -/
theorem v17_ix (x : FVec Ideal S2x2048x1024 .f32) (w : FVec Ideal S1024x1024 .f32) (β : FVec Ideal S1024 .f32)
    (b : Fin 2) (h : Fin 16) (s : Fin 2048) (d : Fin 64) :
    val_main_v17 (F := Ideal) x w β (ix4 b h s d) = lin (tok x) (mat w) (row β) b s (feat h d) := by
  rw [val_main_v17_apply, val_main_v16_apply, headIdx16, v15_ix]

/-! ## The scores -/

theorem lidx18 (b : Fin 2) (h : Fin 16) (s j : Fin 2048) (k : Fin 64) : lidx_main_v18 (ix4 b h s j) k = ix4 b h s k :=
  funext fun a => Fin.ext (by match a with | ⟨0, _⟩ => rfl | ⟨1, _⟩ => rfl | ⟨2, _⟩ => rfl | ⟨3, _⟩ => rfl)
theorem ridx18 (b : Fin 2) (h : Fin 16) (s j : Fin 2048) (k : Fin 64) : ridx_main_v18 (ix4 b h s j) k = ix4 b h j k :=
  funext fun a => Fin.ext (by match a with | ⟨0, _⟩ => rfl | ⟨1, _⟩ => rfl | ⟨2, _⟩ => rfl | ⟨3, _⟩ => rfl)

/-- The word `0x42800000` is `64`. -/
theorem ofBits_64 : Ideal.ofBits .f32 0x42800000#32 = ((64 : ℝ) : EReal) := by
  simp [Ideal.ofBits, Ideal.ieee]
  rw [← EReal.coe_mul]
  norm_num

/-- The square root of `64` is `8`. -/
theorem sqrt_64 : Ideal.sqrt (Ideal.ofBits .f32 0x42800000#32) = ((8 : ℝ) : EReal) := by
  rw [ofBits_64, Ideal.sqrt_coe, if_neg (by norm_num), show (64 : ℝ) = 8 ^ 2 by norm_num, Real.sqrt_sq (by norm_num)]

/-- The broadcast divisor `%20` is `8` everywhere. -/
theorem v20_ix (i : S2x16x2048x2048.Idx) : val_main_v20 (F := Ideal) i = ((8 : ℝ) : EReal) := by
  rw [val_main_v20_apply, val_main_v19_apply]
  exact sqrt_64

/-- A row of scores of head `h`: query row `s` against every key row, divided by `8`. -/
def scoreRow (Q K : Tok) (b : Fin 2) (h : Fin 16) (s : Fin 2048) : Fin 2048 → EReal :=
  fun j => Ideal.div (∑ d : Fin 64, Q b s (feat h d) * K b j (feat h d)) ((8 : ℝ) : EReal)

/-- The scaled scores `%21` at an index. -/
theorem v21_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s j : Fin 2048) :
    val_main_v21 (F := Ideal) x0 x1 x2 x3 x4 (ix4 b h s j)
      = scoreRow (lin (tok x0) (mat x1) (row x2)) (lin (tok x0) (mat x3) (row x4)) b h s j := by
  rw [val_main_v21_apply, val_main_v18_apply, v20_ix]
  simp only [lidx18, ridx18, v5_ix, v11_ix, Ideal.hostDivf_def]
  rfl

/-! ## The row maximum -/

/-- The word `0xFF800000` is `−∞`. -/
theorem ofBits_negInf : Ideal.ofBits .f32 0xFF800000#32 = (⊥ : EReal) := by
  simp [Ideal.ofBits, Ideal.ieee]

/-- The reduced index (b, h, s) with key `k` put back on the last axis is (b, h, s, k). -/
theorem lift_ix4 (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  fin_cases c <;> rfl

/-- A maximum-reduce from `−∞` over the last axis is the supremum of the row. -/
theorem rowMax (y : FVec Ideal S2x16x2048x2048 .f32) (b : Fin 2) (h : Fin 16) (s : Fin 2048) :
    Host.reduce FloatOps.maximumf y (constant (F := Ideal) S_ .f32 0xFF800000#32) reducesTo_S2x16x2048x2048_S2x16x2048_d3 h_S_ (ix3 b h s)
      = Finset.univ.sup (fun j : Fin 2048 => y (ix4 b h s j)) := by
  have hr : S2x16x2048x2048.Reduces [3] S2x16x2048 := by decide
  refine (Host.reduce_eq_fold_single FloatOps.maximumf y _ reducesTo_S2x16x2048x2048_S2x16x2048_d3 hr h_S_ (ix3 b h s)).trans ?_
  have hf : (y ∘ hr.lift (ix3 b h s)) = fun k : Fin 2048 => y (ix4 b h s k) :=
    funext fun k => congrArg y (lift_ix4 hr b h s k)
  refine (congrArg (fun f => Finset.fold max (Ideal.ofBits .f32 0xFF800000#32) f (Finset.univ : Finset (Fin 2048))) hf).trans ?_
  rw [ofBits_negInf]
  rfl

/-- The maximum-reduce `%22` from `−∞` over the keys is the supremum of the row of scores. -/
theorem v22_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v22 (F := Ideal) x0 x1 x2 x3 x4 (ix3 b h s)
      = Finset.univ.sup (fun j : Fin 2048 => val_main_v21 (F := Ideal) x0 x1 x2 x3 x4 (ix4 b h s j)) :=
  rowMax (val_main_v21 (F := Ideal) x0 x1 x2 x3 x4) b h s

theorem bidx26 (b : Fin 2) (h : Fin 16) (s j : Fin 2048) : idx_main_v25 (idx_main_v26 (ix4 b h s j)) = ix3 b h s :=
  funext fun a => Fin.ext (by match a with | ⟨0, _⟩ => rfl | ⟨1, _⟩ => rfl | ⟨2, _⟩ => rfl)
theorem bidx31 (b : Fin 2) (h : Fin 16) (s j : Fin 2048) : idx_main_v30 (idx_main_v31 (ix4 b h s j)) = ix3 b h s :=
  funext fun a => Fin.ext (by match a with | ⟨0, _⟩ => rfl | ⟨1, _⟩ => rfl | ⟨2, _⟩ => rfl)
theorem idx29 (b : Fin 2) (h : Fin 16) (s : Fin 2048) (k : Fin 2048) : idx_main_v29 (ix3 b h s) k = ix4 b h s k :=
  funext fun a => Fin.ext (by match a with | ⟨0, _⟩ => rfl | ⟨1, _⟩ => rfl | ⟨2, _⟩ => rfl | ⟨3, _⟩ => rfl)

/-- The maximum `%24` with the `−∞` broadcast is still the supremum of the row. -/
theorem v24_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v24 (F := Ideal) x0 x1 x2 x3 x4 (ix3 b h s) = Finset.univ.sup (scoreRow (lin (tok x0) (mat x1) (row x2)) (lin (tok x0) (mat x3) (row x4)) b h s) := by
  rw [val_main_v24_apply, val_main_v23_apply, v22_ix]
  simp only [v21_ix]
  show max (Ideal.ofBits .f32 0xFF800000#32) _ = _
  rw [ofBits_negInf]
  exact max_eq_right bot_le

/-! ## The softmax weights -/

/-- The exponentials `%28` are the unnormalised weights of the row. -/
theorem v28_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s j : Fin 2048) :
    val_main_v28 (F := Ideal) x0 x1 x2 x3 x4 (ix4 b h s j) = pw (scoreRow (lin (tok x0) (mat x1) (row x2)) (lin (tok x0) (mat x3) (row x4)) b h s) j := by
  rw [val_main_v28_apply, val_main_v27_apply, val_main_v26_apply, val_main_v25_apply, bidx26, v24_ix, v21_ix]
  rfl

/-- The sum-reduce `%29` from `0` over the keys. -/
theorem v29_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v29 (F := Ideal) x0 x1 x2 x3 x4 (ix3 b h s) = 0 + ∑ j' : Fin 2048, pw (scoreRow (lin (tok x0) (mat x1) (row x2)) (lin (tok x0) (mat x3) (row x4)) b h s) j' := by
  rw [val_main_v29_apply]
  simp only [idx29, v28_ix]
  show Ideal.ofBits .f32 0x00000000#32 + _ = _
  rw [Ideal.ofBits_zero_f32]

/-- The normalised weights `%32`. -/
theorem v32_ix (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s j : Fin 2048) :
    val_main_v32 (F := Ideal) x0 x1 x2 x3 x4 (ix4 b h s j)
      = Ideal.div (pw (scoreRow (lin (tok x0) (mat x1) (row x2)) (lin (tok x0) (mat x3) (row x4)) b h s) j) (0 + ∑ j' : Fin 2048, pw (scoreRow (lin (tok x0) (mat x1) (row x2)) (lin (tok x0) (mat x3) (row x4)) b h s) j') := by
  rw [val_main_v32_apply, val_main_v31_apply, val_main_v30_apply, bidx31, v29_ix, v28_ix]
  rfl

/-! ## The value product, the merge of the heads, and the last projection -/

theorem lidx33 (b : Fin 2) (h : Fin 16) (s : Fin 2048) (d : Fin 64) (k : Fin 2048) : lidx_main_v33 (ix4 b h s d) k = ix4 b h s k :=
  funext fun a => Fin.ext (by match a with | ⟨0, _⟩ => rfl | ⟨1, _⟩ => rfl | ⟨2, _⟩ => rfl | ⟨3, _⟩ => rfl)
theorem ridx33 (b : Fin 2) (h : Fin 16) (s : Fin 2048) (d : Fin 64) (k : Fin 2048) : ridx_main_v33 (ix4 b h s d) k = ix4 b h k d :=
  funext fun a => Fin.ext (by match a with | ⟨0, _⟩ => rfl | ⟨1, _⟩ => rfl | ⟨2, _⟩ => rfl | ⟨3, _⟩ => rfl)

/-- The weighted mean `%33` of the value rows, lane `d` of head `h`. -/
theorem v33_ix (x0 : FVec Ideal S2x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32) (b : Fin 2) (h : Fin 16) (s : Fin 2048) (d : Fin 64) :
    val_main_v33 (F := Ideal) x0 x1 x2 x3 x4 x5 x6 (ix4 b h s d)
      = ∑ j : Fin 2048, Ideal.div (pw (scoreRow (lin (tok x0) (mat x1) (row x2)) (lin (tok x0) (mat x3) (row x4)) b h s) j) (0 + ∑ j' : Fin 2048, pw (scoreRow (lin (tok x0) (mat x1) (row x2)) (lin (tok x0) (mat x3) (row x4)) b h s) j')
          * lin (tok x0) (mat x5) (row x6) b j (feat h d) := by
  rw [val_main_v33_apply]
  simp only [lidx33, ridx33, v32_ix, v17_ix]

/-- The lane of a feature inside its head. -/
def laneOf (e : Fin 1024) : Fin 64 := ⟨e.val % 64, Nat.mod_lt _ (by norm_num)⟩

theorem feat_headOf_laneOf (e : Fin 1024) : feat (headOf e) (laneOf e) = e :=
  Fin.ext (by show e.val / 64 * 64 + e.val % 64 = e.val; omega)

theorem mergeIdx (b : Fin 2) (s : Fin 2048) (e : Fin 1024) :
    idx_main_v34 (idx_main_v35 (ix3 b s e)) = ix4 b (headOf e) s (laneOf e) :=
  funext fun a => Fin.ext (by
    have := b.isLt; have := s.isLt; have := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)

/-- The merged heads `%35` are the attention array, softmax normalised first. -/
theorem v35_ix (x0 : FVec Ideal S2x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32) (b : Fin 2) (s : Fin 2048) (e : Fin 1024) :
    val_main_v35 (F := Ideal) x0 x1 x2 x3 x4 x5 x6 (ix3 b s e)
      = attnDivFirst ((8 : ℝ) : EReal) (lin (tok x0) (mat x1) (row x2)) (lin (tok x0) (mat x3) (row x4)) (lin (tok x0) (mat x5) (row x6)) b s e := by
  rw [val_main_v35_apply, val_main_v34_apply, mergeIdx, v33_ix, feat_headOf_laneOf]
  rfl

theorem lidx36 (b : Fin 2) (s : Fin 2048) (f : Fin 1024) (k : Fin 1024) : lidx_main_v36 (ix3 b s f) k = ix3 b s k :=
  funext fun a => Fin.ext (by match a with | ⟨0, _⟩ => rfl | ⟨1, _⟩ => rfl | ⟨2, _⟩ => rfl)
theorem ridx36 (b : Fin 2) (s : Fin 2048) (f : Fin 1024) (k : Fin 1024) : ridx_main_v36 (ix3 b s f) k = ix2 f k :=
  funext fun a => Fin.ext (by match a with | ⟨0, _⟩ => rfl | ⟨1, _⟩ => rfl)
theorem bidx37 (b : Fin 2) (s : Fin 2048) (f : Fin 1024) : idx_main_v37 (idx_main_v38 (ix3 b s f)) = ix1 f :=
  funext fun a => Fin.ext (by match a with | ⟨0, _⟩ => rfl)

/-- The reference's result at an index is the whole layer, scores divided by `8` and softmax normalised first. -/
theorem ref_apply (x0 : FVec Ideal S2x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32)
    (x7 : FVec Ideal S1024x1024 .f32) (x8 : FVec Ideal S1024 .f32) (b : Fin 2) (s : Fin 2048) (f : Fin 1024) :
    val_main_v39 (F := Ideal) x0 x1 x2 x3 x4 x5 x6 x7 x8 (ValueIdx.ix3 b s f)
      = Cert.Attn.mhaDivFirst ((8 : ℝ) : EReal) (fun b s e => x0 (ValueIdx.ix3 b s e)) (fun f e => x1 (ValueIdx.ix2 f e))
          (fun f => x2 (ValueIdx.ix1 f)) (fun f e => x3 (ValueIdx.ix2 f e)) (fun f => x4 (ValueIdx.ix1 f))
          (fun f e => x5 (ValueIdx.ix2 f e)) (fun f => x6 (ValueIdx.ix1 f)) (fun f e => x7 (ValueIdx.ix2 f e))
          (fun f => x8 (ValueIdx.ix1 f)) b s f := by
  rw [val_main_v39_apply, val_main_v36_apply, val_main_v38_apply, val_main_v37_apply]
  simp only [lidx36, ridx36, bidx37, v35_ix, Ideal.addf_def]
  rfl

end Cert.ReferenceIdeal.RefValue
end
-- ==== Proof.LibERealSums.lean ====
import Idealize.ShloMosaic.PureOps.Ideal
import Mathlib.Algebra.BigOperators.Fin

/-!
# Finite sums and suprema of real families inside the extended reals

A family of extended reals all of whose members are (coercions of) real numbers has a real sum, and, over a
nonempty finite index set, a real supremum. These are the facts that let an identity between finite sums be
proved in `ℝ` and carried to `EReal`.
-/

namespace Cert.ERealSums

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- Over a nonempty finite index set the supremum (taken from `⊥`) of a real family is one of its members,
    hence real. -/
theorem exists_sup_eq_coe {ι : Type*} (s : Finset ι) (hs : s.Nonempty) (f : ι → ℝ) :
    ∃ i ∈ s, s.sup (fun j => (f j : EReal)) = (f i : EReal) :=
  Finset.exists_mem_eq_sup s hs (fun j => (f j : EReal))

end Cert.ERealSums
-- ==== Proof.Algebra.lean ====
import proofs.«118845_j14903536517723_2_alg».proof.Proof.Spec
import proofs.«118845_j14903536517723_2_alg».proof.Proof.LibERealSums

/-!
# The two arrangements of attention agree on finite data

With every entry of `Q, K, V` a real number: scaling `Q` by `1/8` before the scores is dividing the scores by `8`;
each row of scores is real, so its maximum is real, the unnormalised weights `exp (s − max)` are positive reals and
their sum `L` is a positive real; and `Σⱼ (pⱼ / L)·vⱼ = (Σⱼ pⱼ·vⱼ) / L` holds in `ℝ`.
-/

namespace Cert.Attn

open Idealize.ShloMosaic Cert.ERealSums

/-- A dense layer of real data is real. -/
theorem lin_real (x : Tok) (W : Mat) (β : Row) (hx : ∀ b s e, ∃ r : ℝ, x b s e = (r : EReal))
    (hW : ∀ f e, ∃ r : ℝ, W f e = (r : EReal)) (hβ : ∀ f, ∃ r : ℝ, β f = (r : EReal)) :
    ∀ b s f, ∃ r : ℝ, lin x W β b s f = (r : EReal) := by
  intro b s f
  choose xr hxr using hx
  choose wr hwr using hW
  choose br hbr using hβ
  refine ⟨(∑ e : Fin 1024, xr b s e * wr f e) + br f, ?_⟩
  unfold lin
  rw [EReal.coe_add, hbr, sum_eq_coe Finset.univ _ (fun e => xr b s e * wr f e)
    (fun e _ => by rw [hxr, hwr, EReal.coe_mul])]

/-- The scores with `q` scaled by `1/8` beforehand, as a real. -/
theorem scoreScaled_real (q k : Fin 64 → ℝ) :
    (∑ d : Fin 64, ((q d : EReal) * ((1 / 8 : ℝ) : EReal)) * (k d : EReal))
      = (((∑ d : Fin 64, q d * k d) * (1 / 8) : ℝ) : EReal) := by
  rw [Finset.sum_mul]
  exact sum_eq_coe Finset.univ _ _ (fun d _ => by rw [← EReal.coe_mul, ← EReal.coe_mul]; exact congrArg (fun x : ℝ => (x : EReal)) (by ring))

/-- The scores divided by `8` afterwards, as the same real. -/
theorem scoreDivided_real (q k : Fin 64 → ℝ) :
    Ideal.div (∑ d : Fin 64, (q d : EReal) * (k d : EReal)) ((8 : ℝ) : EReal)
      = (((∑ d : Fin 64, q d * k d) * (1 / 8) : ℝ) : EReal) := by
  rw [Ideal.div_coe (by norm_num), EReal.coe_mul,
    sum_eq_coe Finset.univ _ (fun d => q d * k d) (fun d _ => (EReal.coe_mul _ _).symm)]

/-- The unnormalised softmax weights of a real row of scores: `exp (rⱼ − M)` for a real `M` (the row's maximum). -/
theorem pw_real (r : Fin 2048 → ℝ) :
    ∃ M : ℝ, ∀ j, pw (fun j => (r j : EReal)) j = ((Real.exp (r j - M) : ℝ) : EReal) := by
  obtain ⟨i, -, hi⟩ := exists_sup_eq_coe Finset.univ ⟨(0 : Fin 2048), Finset.mem_univ _⟩ r
  refine ⟨r i, fun j => ?_⟩
  unfold pw
  rw [hi, ← EReal.coe_sub, Ideal.exp_coe]

/-- Normalising the weights before the value product, or the product afterwards, is the same on a real row. -/
theorem softmax_law (r v : Fin 2048 → ℝ) :
    Ideal.div (∑ j : Fin 2048, pw (fun j => (r j : EReal)) j * (v j : EReal)) (∑ j' : Fin 2048, pw (fun j => (r j : EReal)) j')
      = ∑ j : Fin 2048, Ideal.div (pw (fun j => (r j : EReal)) j) (0 + ∑ j' : Fin 2048, pw (fun j => (r j : EReal)) j')
          * (v j : EReal) := by
  obtain ⟨M, hM⟩ := pw_real r
  have hpos : (∑ j : Fin 2048, Real.exp (r j - M)) ≠ 0 :=
    (Finset.sum_pos (fun j _ => Real.exp_pos _) ⟨(0 : Fin 2048), Finset.mem_univ _⟩).ne'
  have hL : (∑ j' : Fin 2048, pw (fun j => (r j : EReal)) j') = ((∑ j : Fin 2048, Real.exp (r j - M) : ℝ) : EReal) :=
    sum_eq_coe Finset.univ _ _ (fun j _ => hM j)
  have hnum : (∑ j : Fin 2048, pw (fun j => (r j : EReal)) j * (v j : EReal))
      = ((∑ j : Fin 2048, Real.exp (r j - M) * v j : ℝ) : EReal) :=
    sum_eq_coe Finset.univ _ _ (fun j _ => by rw [hM j, EReal.coe_mul])
  rw [zero_add, hL, hnum, Ideal.div_coe hpos, ← EReal.coe_mul,
    sum_eq_coe Finset.univ _ (fun j => Real.exp (r j - M) * (1 / ∑ j : Fin 2048, Real.exp (r j - M)) * v j)
      (fun j _ => by rw [hM j, Ideal.div_coe hpos, ← EReal.coe_mul, ← EReal.coe_mul])]
  refine congrArg (fun x : ℝ => (x : EReal)) ?_
  rw [Finset.sum_mul]
  exact Finset.sum_congr rfl fun j _ => by ring

/-- On real `Q, K, V`: `Q` pre-scaled by `1/8` and the product normalised last is the scores divided by `8` and the
    weights normalised first. -/
theorem attnDivLast_eq_attnDivFirst (Q K V : Tok) (hQ : ∀ b s e, ∃ r : ℝ, Q b s e = (r : EReal))
    (hK : ∀ b s e, ∃ r : ℝ, K b s e = (r : EReal)) (hV : ∀ b s e, ∃ r : ℝ, V b s e = (r : EReal)) :
    attnDivLast ((1 / 8 : ℝ) : EReal) Q K V = attnDivFirst ((8 : ℝ) : EReal) Q K V := by
  choose q hq using hQ
  choose k hk using hK
  choose v hv using hV
  funext b s e
  unfold attnDivLast attnDivFirst
  dsimp only
  have hLast : (fun j : Fin 2048 => ∑ d : Fin 64, (Q b s (feat (headOf e) d) * ((1 / 8 : ℝ) : EReal)) * K b j (feat (headOf e) d))
      = fun j : Fin 2048 => (((∑ d : Fin 64, q b s (feat (headOf e) d) * k b j (feat (headOf e) d)) * (1 / 8) : ℝ) : EReal) := by
    funext j; simp only [hq, hk]; exact scoreScaled_real _ _
  have hFirst : (fun j : Fin 2048 => Ideal.div (∑ d : Fin 64, Q b s (feat (headOf e) d) * K b j (feat (headOf e) d)) ((8 : ℝ) : EReal))
      = fun j : Fin 2048 => (((∑ d : Fin 64, q b s (feat (headOf e) d) * k b j (feat (headOf e) d)) * (1 / 8) : ℝ) : EReal) := by
    funext j; simp only [hq, hk]; exact scoreDivided_real _ _
  rw [hLast, hFirst]
  simp only [hv]
  exact softmax_law _ _

/-- The two arrangements of the whole layer agree on finite inputs (the last projection is the same map on both sides,
    so its weights need no hypothesis). -/
theorem mhaDivLast_eq_mhaDivFirst (X : Tok) (Wq : Mat) (bq : Row) (Wk : Mat) (bk : Row) (Wv : Mat) (bv : Row) (Wo : Mat) (bo : Row)
    (hX : ∀ b s e, ∃ r : ℝ, X b s e = (r : EReal)) (hWq : ∀ f e, ∃ r : ℝ, Wq f e = (r : EReal)) (hbq : ∀ f, ∃ r : ℝ, bq f = (r : EReal))
    (hWk : ∀ f e, ∃ r : ℝ, Wk f e = (r : EReal)) (hbk : ∀ f, ∃ r : ℝ, bk f = (r : EReal))
    (hWv : ∀ f e, ∃ r : ℝ, Wv f e = (r : EReal)) (hbv : ∀ f, ∃ r : ℝ, bv f = (r : EReal)) :
    mhaDivLast (((1 / 8 : ℝ)) : EReal) X Wq bq Wk bk Wv bv Wo bo = mhaDivFirst ((8 : ℝ) : EReal) X Wq bq Wk bk Wv bv Wo bo := by
  unfold mhaDivLast mhaDivFirst
  rw [attnDivLast_eq_attnDivFirst _ _ _ (lin_real X Wq bq hX hWq hbq) (lin_real X Wk bk hX hWk hbk) (lin_real X Wv bv hX hWv hbv)]

end Cert.Attn
-- ==== Proof.Finite.lean ====
import proofs.«118845_j14903536517723_2_alg».proof.Pre_finite_inputs
import proofs.«118845_j14903536517723_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

/-!
# From the precondition to "every entry is a real number"

The precondition is the conjunction, over the nine argument arrays, of `all (|x| < +∞)`: a reduce by `and` from `1` of
the element-wise comparison of `max x (−x)` with the word of `+∞`. If it is `1`, every comparison is `1`, and an extended
real whose absolute value is below `+∞` is neither infinity.
-/

noncomputable section

namespace Cert.KernelIdeal.Val

open Idealize.ShloMosaic Cert.Pre_finite_inputs Cert.Pre_finite_inputs.Gen

instance : Subsingleton S_.Idx := ⟨fun a b => funext fun d => d.elim0⟩

/-- The word `0x7F800000` is `+∞`. -/
theorem ofBits_posInf : Ideal.ofBits .f32 0x7F800000#32 = (⊤ : EReal) := by
  simp [Ideal.ofBits, Ideal.ieee]

/-- An extended real whose absolute value `max x (−x)` is below `+∞` is a real number. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => exfalso; simp [Ideal.cmp] at h
  | coe r => exact ⟨r, rfl⟩
  | top => exfalso; simp [Ideal.cmp] at h

/-- One array: if `all (|a| < +∞)` is `1` then every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  have hbc : broadcastInDim s ![] hb (constant (F := Ideal) S_ .f32 0x7F800000#32) i = Ideal.ofBits .f32 0x7F800000#32 :=
    broadcastInDim_apply _ hb _ i ValueIdx.ix0 (fun a => a.elim0)
  have hc : Ideal.cmp .olt (max (a i) (-(a i))) (broadcastInDim s ![] hb (constant (F := Ideal) S_ .f32 0x7F800000#32) i) = 1#1 := hi
  rw [hbc] at hc
  exact real_of_abs_lt (a i) hc

/-- The precondition on the nine argument arrays makes every entry of each a real number. -/
theorem finite_of_pre (a0 : FVec Ideal S2x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (a7 : FVec Ideal S1024x1024 .f32) (a8 : FVec Ideal S1024 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8⟩

end Cert.KernelIdeal.Val
end
-- ==== Proof.lean ====
/-
  Multi-head attention — fused projections, sixteen heads, output projection — as three pallas_calls, against the
  same layer written with whole-array operations.

  Frames. The kernel program's run is four stretches of host operations around three pipelined pallas_calls; each
  pallas_call's body loads whole staging buffers and stores whole staging buffers, so at every grid point it runs to
  its output blocks as pure functions of its input blocks, and the pipeline's launch theorems give the whole run: it
  terminates, faults nowhere, and leaves every buffer no operation writes — the nine argument arrays among them — as
  launched. The same text proves it at the word-level instance and at the ideal one. The reference is host operations
  only; its run is their composition.

  Values, at the ideal instance (floats are extended reals, every operation exact). The three projection arrays are
  `x·Wᵀ + b` (the first scaled by ⅛), read off the fused 1024×3072 weight by column ranges; the attention array is, per
  batch element, head and query row, `(Σⱼ pⱼ·vⱼ) / Σⱼ pⱼ` with `pⱼ = exp (scⱼ − max sc)` over the scores of the scaled queries;
  the result is the last projection of it. The reference divides the unscaled scores by `√64 = 8` and divides each
  weight by the sum before the value product. On finite inputs every score, weight and sum is a real and the sum is at
  least `1`, where `Σ_d (q_d·⅛)·k_d = (Σ_d q_d·k_d)/8` and `Σⱼ (pⱼ/L)·vⱼ = (Σⱼ pⱼ·vⱼ)/L` hold; so the two results agree
  index by index.
-/
import proofs.«118845_j14903536517723_2_alg».proof.Defs
import proofs.«118845_j14903536517723_2_alg».proof.Proof.Gen.Kernel
import proofs.«118845_j14903536517723_2_alg».proof.Proof.Gen.KernelIdeal
import proofs.«118845_j14903536517723_2_alg».proof.Proof.Gen.ReferenceIdeal
import proofs.«118845_j14903536517723_2_alg».proof.Proof.Gen.Pre_finite_inputs
import proofs.«118845_j14903536517723_2_alg».proof.Proof.Gen.ReferenceIdeal.Run
import proofs.«118845_j14903536517723_2_alg».proof.Proof.Gen.ReferenceIdeal.Read
import proofs.«118845_j14903536517723_2_alg».proof.Proof.K.Run
import proofs.«118845_j14903536517723_2_alg».proof.Proof.KI.Run
import proofs.«118845_j14903536517723_2_alg».proof.Proof.KI.Value
import proofs.«118845_j14903536517723_2_alg».proof.Proof.RefSide
import proofs.«118845_j14903536517723_2_alg».proof.Proof.Algebra
import proofs.«118845_j14903536517723_2_alg».proof.Proof.Finite
import Idealize.ShloMosaic.Adequacy
import Idealize.ShloMosaic.Init

noncomputable section

namespace Cert.Proof

open Idealize.ShloMosaic Idealize.ShloMosaic.ValueIdx Idealize.SL.Sem

/-- The word-level program runs and keeps its arguments. -/
theorem frame_kernel : Cert.frame_Kernel := fun m ρ _ => Cert.Kernel.Frame.frame m ρ

/-- The idealized program runs and keeps its arguments. -/
theorem frame_ideal : Cert.frame_KernelIdeal := fun m ρ _ => Cert.KernelIdeal.Frame.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal Cert.KernelIdeal.Frame in
/-- Both programs end with the same array: the kernel's run names its result (`at7` at the result buffer), the
    reference's run its own term; on finite inputs the two are one function, index by index. -/
theorem algebraic : Cert.algebraic_KernelIdeal_ReferenceIdeal := by
  intro m ρ m' ρ' hpre hagree
  refine ⟨fun c => at7 m ρ c (Proc.devRef .tc main_v16), ?_, ?_⟩
  · exact (θ_run Cert.KernelIdeal.defs _ _).mono (fun r h c => ⟨h c _ (held_ref main_v16 (by decide)),
      (h c _ (held_ref main_arg0 (by decide))).trans (at7_arg0 m ρ c),
      (h c _ (held_ref main_arg1 (by decide))).trans (at7_arg1 m ρ c),
      (h c _ (held_ref main_arg2 (by decide))).trans (at7_arg2 m ρ c),
      (h c _ (held_ref main_arg3 (by decide))).trans (at7_arg3 m ρ c),
      (h c _ (held_ref main_arg4 (by decide))).trans (at7_arg4 m ρ c),
      (h c _ (held_ref main_arg5 (by decide))).trans (at7_arg5 m ρ c),
      (h c _ (held_ref main_arg6 (by decide))).trans (at7_arg6 m ρ c),
      (h c _ (held_ref main_arg7 (by decide))).trans (at7_arg7 m ρ c),
      (h c _ (held_ref main_arg8 (by decide))).trans (at7_arg8 m ρ c)⟩) (run_at7 m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v39_eq, a0, a1, a2, a3, a4, a5, a6, a7, a8]
    obtain ⟨f0, f1, f2, f3, f4, f5, f6, -, -⟩ := Cert.KernelIdeal.Val.finite_of_pre _ _ _ _ _ _ _ _ _ (hpre c)
    funext i
    obtain ⟨b, s, f, rfl⟩ : ∃ (b : Fin 2) (s : Fin 2048) (f : Fin 1024), i = ix3 b s f := ⟨i 0, i 1, i 2, eq_ix3 i⟩
    refine (Cert.ReferenceIdeal.RefValue.ref_apply _ _ _ _ _ _ _ _ _ b s f).trans ?_
    refine Eq.trans ?_ (Cert.KernelIdeal.Val.kernel_value m ρ c b s f).symm
    exact (congrFun (congrFun (congrFun (Cert.Attn.mhaDivLast_eq_mhaDivFirst _ _ _ _ _ _ _ _ _
      (fun b s e => f0 (ix3 b s e)) (fun f e => f1 (ix2 f e)) (fun f => f2 (ix1 f))
      (fun f e => f3 (ix2 f e)) (fun f => f4 (ix1 f)) (fun f e => f5 (ix2 f e)) (fun f => f6 (ix1 f))) b) s) f).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
